-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x2048 : Shape := ⟨2, ![100, 2048]⟩
abbrev S2048x1024 : Shape := ⟨2, ![2048, 1024]⟩
abbrev S100x2048x1024 : Shape := ⟨3, ![100, 2048, 1024]⟩
abbrev S1024x1000 : Shape := ⟨2, ![1024, 1000]⟩
abbrev S100x1024x1000 : Shape := ⟨3, ![100, 1024, 1000]⟩
abbrev S_ : Shape := ⟨0, ![]⟩

class Facts : Prop where
  bcast_S_S100x2048 : S_.BroadcastsInDim S100x2048 (![] : Fin 0 → Fin S100x2048.rank)
  reducesTo_S100x2048_S_d0_1 : S100x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S100x2048x1024 : S_.BroadcastsInDim S100x2048x1024 (![] : Fin 0 → Fin S100x2048x1024.rank)
  reducesTo_S100x2048x1024_S_d0_1_2 : S100x2048x1024.ReducesTo [0, 1, 2] S_
  bcast_S_S1024x1000 : S_.BroadcastsInDim S1024x1000 (![] : Fin 0 → Fin S1024x1000.rank)
  reducesTo_S1024x1000_S_d0_1 : S1024x1000.ReducesTo [0, 1] S_
  bcast_S_S100x1024x1000 : S_.BroadcastsInDim S100x1024x1000 (![] : Fin 0 → Fin S100x1024x1000.rank)
  reducesTo_S100x1024x1000_S_d0_1_2 : S100x1024x1000.ReducesTo [0, 1, 2] S_

variable [Facts]

def fn_part1 {F : FTy → Type} [FloatOps F] (main_arg4 : FVec F S100x1024x1000 .f32) (main_v13 : IVec S_ 1) (main_v16 : IVec S1024x1000 1) : IVec S_ 1 :=
  let main_c_5 : IVec S_ 1 := constantI S_ 1 1#1
  let main_v17 : IVec S_ 1 := (fun x v => Host.reduce IntOp.andi x v reducesTo_S1024x1000_S_d0_1 h_S_) main_v16 main_c_5
  let main_v18 : IVec S_ 1 := andi main_v13 main_v17
  let main_v19 : FVec F S100x1024x1000 .f32 := Host.absf main_arg4
  let main_cst_6 : FVec F S_ .f32 := constant S_ .f32 0x7F800000#32
  let main_v20 : FVec F S100x1024x1000 .f32 := broadcastInDim S100x1024x1000 ![] bcast_S_S100x1024x1000 main_cst_6
  let main_v21 : IVec S100x1024x1000 1 := cmpf .olt main_v19 main_v20
  let main_c_7 : IVec S_ 1 := constantI S_ 1 1#1
  let main_v22 : IVec S_ 1 := (fun x v => Host.reduce IntOp.andi x v reducesTo_S100x1024x1000_S_d0_1_2 h_S_) main_v21 main_c_7
  let main_v23 : IVec S_ 1 := andi main_v18 main_v22
  main_v23

def fn {F : FTy → Type} [FloatOps F] (main_arg0 : FVec F S100x2048 .f32) (main_arg1 : FVec F S2048x1024 .f32) (main_arg2 : FVec F S100x2048x1024 .f32) (main_arg3 : FVec F S1024x1000 .f32) (main_arg4 : FVec F S100x1024x1000 .f32) : IVec S_ 1 :=
  let main_v0 : FVec F S100x2048 .f32 := Host.absf main_arg0
  let main_cst : FVec F S_ .f32 := constant S_ .f32 0x7F800000#32
  let main_v1 : FVec F S100x2048 .f32 := broadcastInDim S100x2048 ![] bcast_S_S100x2048 main_cst
  let main_v2 : IVec S100x2048 1 := cmpf .olt main_v0 main_v1
  let main_c : IVec S_ 1 := constantI S_ 1 1#1
  let main_v3 : IVec S_ 1 := (fun x v => Host.reduce IntOp.andi x v reducesTo_S100x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S100x2048x1024 .f32 := Host.absf main_arg2
  let main_cst_2 : FVec F S_ .f32 := constant S_ .f32 0x7F800000#32
  let main_v10 : FVec F S100x2048x1024 .f32 := broadcastInDim S100x2048x1024 ![] bcast_S_S100x2048x1024 main_cst_2
  let main_v11 : IVec S100x2048x1024 1 := cmpf .olt main_v9 main_v10
  let main_c_3 : IVec S_ 1 := constantI S_ 1 1#1
  let main_v12 : IVec S_ 1 := (fun x v => Host.reduce IntOp.andi x v reducesTo_S100x2048x1024_S_d0_1_2 h_S_) main_v11 main_c_3
  let main_v13 : IVec S_ 1 := andi main_v8 main_v12
  let main_v14 : FVec F S1024x1000 .f32 := Host.absf main_arg3
  let main_cst_4 : FVec F S_ .f32 := constant S_ .f32 0x7F800000#32
  let main_v15 : FVec F S1024x1000 .f32 := broadcastInDim S1024x1000 ![] bcast_S_S1024x1000 main_cst_4
  let main_v16 : IVec S1024x1000 1 := cmpf .olt main_v14 main_v15
  fn_part1 (F := F) main_arg4 main_v13 main_v16
-- ==== Kernel.lean ====
abbrev S100x2048 : Shape := ⟨2, ![100, 2048]⟩
abbrev S2048x1024 : Shape := ⟨2, ![2048, 1024]⟩
abbrev S100x2048x1024 : Shape := ⟨3, ![100, 2048, 1024]⟩
abbrev S1024x1000 : Shape := ⟨2, ![1024, 1000]⟩
abbrev S100x1024x1000 : Shape := ⟨3, ![100, 1024, 1000]⟩
abbrev S100x1024 : Shape := ⟨2, ![100, 1024]⟩
abbrev S100x128 : Shape := ⟨2, ![100, 128]⟩
abbrev S128x256 : Shape := ⟨2, ![128, 256]⟩
abbrev S100x128x256 : Shape := ⟨3, ![100, 128, 256]⟩
abbrev S100x256 : Shape := ⟨2, ![100, 256]⟩
abbrev S100x1000 : Shape := ⟨2, ![100, 1000]⟩

abbrev nBuf : Space → Nat
  | .hbm => 7
  | .vmem => 20
  | .smem => 0
  | _ => 0

abbrev bufTy : (tb : Table) → Fin (tcTables nBuf tb) → BufTy
  | .hbm, ⟨0, _⟩ => ⟨S100x2048, .f32⟩
  | .hbm, ⟨1, _⟩ => ⟨S2048x1024, .f32⟩
  | .hbm, ⟨2, _⟩ => ⟨S100x2048x1024, .f32⟩
  | .hbm, ⟨3, _⟩ => ⟨S1024x1000, .f32⟩
  | .hbm, ⟨4, _⟩ => ⟨S100x1024x1000, .f32⟩
  | .hbm, ⟨5, _⟩ => ⟨S100x1024, .f32⟩
  | .hbm, ⟨6, _⟩ => ⟨S100x1000, .f32⟩
  | .local _ .vmem, ⟨0, _⟩ => ⟨S100x128, .f32⟩
  | .local _ .vmem, ⟨1, _⟩ => ⟨S100x128, .f32⟩
  | .local _ .vmem, ⟨2, _⟩ => ⟨S128x256, .f32⟩
  | .local _ .vmem, ⟨3, _⟩ => ⟨S128x256, .f32⟩
  | .local _ .vmem, ⟨4, _⟩ => ⟨S100x128x256, .f32⟩
  | .local _ .vmem, ⟨5, _⟩ => ⟨S100x128x256, .f32⟩
  | .local _ .vmem, ⟨6, _⟩ => ⟨S100x256, .f32⟩
  | .local _ .vmem, ⟨7, _⟩ => ⟨S100x256, .f32⟩
  | .local _ .vmem, ⟨8, _⟩ => ⟨S100x256, .f32⟩
  | .local _ .vmem, ⟨9, _⟩ => ⟨S100x256, .f32⟩
  | .local _ .vmem, ⟨10, _⟩ => ⟨S100x128, .f32⟩
  | .local _ .vmem, ⟨11, _⟩ => ⟨S100x128, .f32⟩
  | .local _ .vmem, ⟨12, _⟩ => ⟨S128x256, .f32⟩
  | .local _ .vmem, ⟨13, _⟩ => ⟨S128x256, .f32⟩
  | .local _ .vmem, ⟨14, _⟩ => ⟨S100x128x256, .f32⟩
  | .local _ .vmem, ⟨15, _⟩ => ⟨S100x128x256, .f32⟩
  | .local _ .vmem, ⟨16, _⟩ => ⟨S100x256, .f32⟩
  | .local _ .vmem, ⟨17, _⟩ => ⟨S100x256, .f32⟩
  | .local _ .vmem, ⟨18, _⟩ => ⟨S100x256, .f32⟩
  | .local _ .vmem, ⟨19, _⟩ => ⟨S100x256, .f32⟩
  | _, _ => ⟨S100x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S100x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S100x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S100x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_16 : BitVec 32 := 0#32
  let v23 : BitVec 1 := Scalar.cmpi .ne v22 c0_i32_16
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S100x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S100x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S100x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S100x256_S100x256_0_0 : ∀ a, (![0, 0] : Fin 2 → Nat) a + S100x256.size a ≤ S100x256.size a
  h_S100x256 : 0 < S100x256.numel
  shapeCasts_S100x256_S100x256 : S100x256.ShapeCasts S100x256
  inb_S100x128_S100x128_0_0 : ∀ a, (![0, 0] : Fin 2 → Nat) a + S100x128.size a ≤ S100x128.size a
  h_S100x128 : 0 < S100x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S100x128x256_S100x128x256_0_0_0 : ∀ a, (![0, 0, 0] : Fin 3 → Nat) a + S100x128x256.size a ≤ S100x128x256.size a
  h_S100x128x256 : 0 < S100x128x256.numel
  reduces_S100x128x256_S100x256 : S100x128x256.Reduces [1] S100x256
  shapeCasts_S100x128_S100x128 : S100x128.ShapeCasts S100x128
  dot_S100x128_S128x256_S100x256_1_0_0_1_n_n_wf : DotDims.WF S100x128 S128x256 S100x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100x128.size a ≤ S100x2048.size a
  hwx0_0 : ∀ i : grid0.Coords, EltTy.bits .f32 = 32 ∨ (Rect.block (s := S100x2048) S100x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S2048x1024.size a
  hwx0_1 : ∀ i : grid0.Coords, EltTy.bits .f32 = 32 ∨ (Rect.block (s := S2048x1024) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100x128x256.size a ≤ S100x2048x1024.size a
  hwx0_2 : ∀ i : grid0.Coords, EltTy.bits .f32 = 32 ∨ (Rect.block (s := S100x2048x1024) S100x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x1024.size a
  hwx0_3 : ∀ i : grid0.Coords, EltTy.bits .f32 = 32 ∨ (Rect.block (s := S100x1024) S100x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S100x128.size a ≤ S100x1024.size a
  hwx1_0 : ∀ i : grid1.Coords, EltTy.bits .f32 = 32 ∨ (Rect.block (s := S100x1024) S100x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S128x256.size a < S1024x1000.size a
  hwx1_1 : ∀ i : grid1.Coords, EltTy.bits .f32 = 32 ∨ (Rect.unit (s := S1024x1000) (fun a => cc1_transform_1 i a * S128x256.size a) (fun a => (Pipeline.Clip.of (cc1_transform_1 i a) (S128x256.size a) (S1024x1000.size a)).extent (S128x256.size a)) fun a => Pipeline.Clip.inb (Pipeline.Clip.ok_of (hstart1_1 i a))).WholeWords (EltTy.packing .f32)
  hwxs1_1 : ∀ i : grid1.Coords, EltTy.bits .f32 = 32 ∨ (Rect.unit (s := S128x256) (fun _ => 0) (fun a => (Pipeline.Clip.of (cc1_transform_1 i a) (S128x256.size a) (S1024x1000.size a)).extent (S128x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S100x128x256.size a < S100x1024x1000.size a
  hwx1_2 : ∀ i : grid1.Coords, EltTy.bits .f32 = 32 ∨ (Rect.unit (s := S100x1024x1000) (fun a => cc1_transform_2 i a * S100x128x256.size a) (fun a => (Pipeline.Clip.of (cc1_transform_2 i a) (S100x128x256.size a) (S100x1024x1000.size a)).extent (S100x128x256.size a)) fun a => Pipeline.Clip.inb (Pipeline.Clip.ok_of (hstart1_2 i a))).WholeWords (EltTy.packing .f32)
  hwxs1_2 : ∀ i : grid1.Coords, EltTy.bits .f32 = 32 ∨ (Rect.unit (s := S100x128x256) (fun _ => 0) (fun a => (Pipeline.Clip.of (cc1_transform_2 i a) (S100x128x256.size a) (S100x1024x1000.size a)).extent (S100x128x256.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S100x256.size a < S100x1000.size a
  hwx1_3 : ∀ i : grid1.Coords, EltTy.bits .f32 = 32 ∨ (Rect.unit (s := S100x1000) (fun a => cc1_transform_3 i a * S100x256.size a) (fun a => (Pipeline.Clip.of (cc1_transform_3 i a) (S100x256.size a) (S100x1000.size a)).extent (S100x256.size a)) fun a => Pipeline.Clip.inb (Pipeline.Clip.ok_of (hstart1_3 i a))).WholeWords (EltTy.packing .f32)
  hwxs1_3 : ∀ i : grid1.Coords, EltTy.bits .f32 = 32 ∨ (Rect.unit (s := S100x256) (fun _ => 0) (fun a => (Pipeline.Clip.of (cc1_transform_3 i a) (S100x256.size a) (S100x1000.size a)).extent (S100x256.size a)) fun a => (Nat.zero_add _).trans_le (Pipeline.Clip.extent_le (Pipeline.Clip.ok_of (hstart1_3 i a)))).WholeWords (EltTy.packing .f32)

variable [Facts₀]

def dot_S100x128_S128x256_S100x256_1_0_0_1_n_n : DotDims S100x128 S128x256 S100x256 where
  lhsContracting := [1]
  rhsContracting := [0]
  lhsNonContracting := [0]
  rhsNonContracting := [1]
  lhsBatch := []
  rhsBatch := []
  wf := dot_S100x128_S128x256_S100x256_1_0_0_1_n_n_wf

abbrev win0_0 : Pipeline.Window sig grid0 :=
  Pipeline.Window.ofSpec (Memref.whole main_arg0) S100x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S100x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S100x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_arg3) S128x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg4) S100x128x256.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v1) S100x256.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100x2048 : Shape := ⟨2, ![100, 2048]⟩
abbrev S2048x1024 : Shape := ⟨2, ![2048, 1024]⟩
abbrev S100x2048x1024 : Shape := ⟨3, ![100, 2048, 1024]⟩
abbrev S1024x1000 : Shape := ⟨2, ![1024, 1000]⟩
abbrev S100x1024x1000 : Shape := ⟨3, ![100, 1024, 1000]⟩
abbrev S100x1024 : Shape := ⟨2, ![100, 1024]⟩
abbrev S_ : Shape := ⟨0, ![]⟩
abbrev S100x1000 : Shape := ⟨2, ![100, 1000]⟩

abbrev nBuf : Space → Nat
  | .hbm => 28
  | .vmem => 0
  | .smem => 0
  | _ => 0

abbrev bufTy : (tb : Table) → Fin (tcTables nBuf tb) → BufTy
  | .hbm, ⟨0, _⟩ => ⟨S100x2048, .f32⟩
  | .hbm, ⟨1, _⟩ => ⟨S2048x1024, .f32⟩
  | .hbm, ⟨2, _⟩ => ⟨S100x2048x1024, .f32⟩
  | .hbm, ⟨3, _⟩ => ⟨S1024x1000, .f32⟩
  | .hbm, ⟨4, _⟩ => ⟨S100x1024x1000, .f32⟩
  | .hbm, ⟨5, _⟩ => ⟨S100x1024, .f32⟩
  | .hbm, ⟨6, _⟩ => ⟨S_, .f32⟩
  | .hbm, ⟨7, _⟩ => ⟨S100x1024, .f32⟩
  | .hbm, ⟨8, _⟩ => ⟨S100x1024, .f32⟩
  | .hbm, ⟨9, _⟩ => ⟨S_, .f32⟩
  | .hbm, ⟨10, _⟩ => ⟨S100x1024, .f32⟩
  | .hbm, ⟨11, _⟩ => ⟨S_, .f32⟩
  | .hbm, ⟨12, _⟩ => ⟨S100x1024, .f32⟩
  | .hbm, ⟨13, _⟩ => ⟨S100x1024, .f32⟩
  | .hbm, ⟨14, _⟩ => ⟨S100x1024, .f32⟩
  | .hbm, ⟨15, _⟩ => ⟨S_, .f32⟩
  | .hbm, ⟨16, _⟩ => ⟨S100x1024, .f32⟩
  | .hbm, ⟨17, _⟩ => ⟨S100x1024, .f32⟩
  | .hbm, ⟨18, _⟩ => ⟨S100x1000, .f32⟩
  | .hbm, ⟨19, _⟩ => ⟨S_, .f32⟩
  | .hbm, ⟨20, _⟩ => ⟨S100x1000, .f32⟩
  | .hbm, ⟨21, _⟩ => ⟨S100x1000, .f32⟩
  | .hbm, ⟨22, _⟩ => ⟨S_, .f32⟩
  | .hbm, ⟨23, _⟩ => ⟨S100x1000, .f32⟩
  | .hbm, ⟨24, _⟩ => ⟨S_, .f32⟩
  | .hbm, ⟨25, _⟩ => ⟨S100x1000, .f32⟩
  | .hbm, ⟨26, _⟩ => ⟨S100x1000, .f32⟩
  | .hbm, ⟨27, _⟩ => ⟨S100x1000, .f32⟩
  | _, _ => ⟨S100x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]

class Facts₀ : Prop where
  bcast_S_S100x1024 : S_.BroadcastsInDim S100x1024 (![] : Fin 0 → Fin S100x1024.rank)
  reducesTo_S100x2048x1024_S100x1024_d1 : S100x2048x1024.ReducesTo [1] S100x1024
  h_S_ : 0 < S_.numel
  bcast_S_S100x1000 : S_.BroadcastsInDim S100x1000 (![] : Fin 0 → Fin S100x1000.rank)
  reducesTo_S100x1024x1000_S100x1000_d1 : S100x1024x1000.ReducesTo [1] S100x1000
  dot_S100x2048_S2048x1024_S100x1024_1_0_0_1_n_n_wf : DotDims.WF S100x2048 S2048x1024 S100x1024 [1] [0] [0] [1] [] []
  dot_S100x1024_S1024x1000_S100x1000_1_0_0_1_n_n_wf : DotDims.WF S100x1024 S1024x1000 S100x1000 [1] [0] [0] [1] [] []

variable [Facts₀]

def dot_S100x2048_S2048x1024_S100x1024_1_0_0_1_n_n : DotDims S100x2048 S2048x1024 S100x1024 where
  lhsContracting := [1]
  rhsContracting := [0]
  lhsNonContracting := [0]
  rhsNonContracting := [1]
  lhsBatch := []
  rhsBatch := []
  wf := dot_S100x2048_S2048x1024_S100x1024_1_0_0_1_n_n_wf
def dot_S100x1024_S1024x1000_S100x1000_1_0_0_1_n_n : DotDims S100x1024 S1024x1000 S100x1000 where
  lhsContracting := [1]
  rhsContracting := [0]
  lhsNonContracting := [0]
  rhsNonContracting := [1]
  lhsBatch := []
  rhsBatch := []
  wf := dot_S100x1024_S1024x1000_S100x1000_1_0_0_1_n_n_wf

class Facts : Prop extends Facts₀ where

variable [Facts]
-- ==== Proof.LibWholeBuffer.lean ====
/-
  Whole-buffer accesses. A kernel body that loads and stores every buffer through the rectangle that is the whole
  buffer (offsets zero, the buffer's own sizes, however the zeros are spelt) reads the buffer's contents and leaves
  its payload: the two facts below, for any signature, memory space, shape and element type. They turn what a
  symbolic run of such a body leaves — reads of `unread X` through the whole rectangle, a list of whole-rectangle
  writes — into `X` and into the last write's payload.
-/
import Idealize.ShloMosaic.Lib.Pipeline.Frame
import Idealize.ShloMosaic.Lib.Pipeline.FrameBody
import Idealize.ShloMosaic.Lib.Pipeline.Value

noncomputable section

namespace Cert.Lib.WholeBuffer

open Idealize.ShloMosaic

variable {sig : RefSig} {κ : Kind} {sp : Space} {Val : EltTy → Type} {S : Shape} {e : EltTy}

/-- The all-zero offsets of a whole-buffer access of rank 2 and 3, as the printed programs spell them. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- A whole buffer holding `X`, loaded through the whole rectangle, reads `X`. -/
theorem readAt_whole (m : Memref sig κ sp S e) (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h]

/-- Whatever was stored before it, after a store through the whole rectangle the buffer reads as that store's payload. -/
theorem read_writes_whole [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Cert.Lib.WholeBuffer

end
-- ==== Proof.Kernel.Body0.lean ====
/-
  The body of kernel 0 (one step of a blocked linear layer) on whole buffers, at any float instance.

  The body keeps two scratch accumulators across the steps of the reduction axis: `acc` (the matrix product so far)
  and `bsum` (the bias tensor's sum over the contracted axis so far). Every access of the body is a whole buffer,
  so one call takes `acc` to `k0_pay3 x w acc₀` (`acc₀ +` this block's product) and `bsum` to `k0_pay4 bsum₀ b` (`bsum₀ +`
  this block's sums over its middle axis), where `acc₀`, `bsum₀` are the zero fills `k0_pay1`, `k0_pay2` at the first step
  of the reduction and the carried contents otherwise; at the last step it also stores `k0_pay5` of the two new
  accumulators — their sum scaled by the reciprocal of the contracted extent, clamped below at zero — into the output block,
  which no other step touches. Three cases meet the grid (first, middle, last step); each is one symbolic run.
-/
import proofs.«132613_j6519760355912_2_alg».proof.Proof.Gen.Kernel.Launch
import proofs.«132613_j6519760355912_2_alg».proof.Proof.Gen.Kernel.Skeleton
import proofs.«132613_j6519760355912_2_alg».proof.Proof.Gen.Kernel.Points
import proofs.«132613_j6519760355912_2_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Lib.WholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first conditional: the reduction coordinate is 0. -/
abbrev first0 (i : grid0.Coords) : Prop := (Scalar.cmpi .ne (Scalar.extui (Scalar.cmpi .eq (BitVec.ofNat 32 (i 1).val) 0#32)) 0#32) = 1#1
/-- Its second: the reduction coordinate is the last. -/
abbrev last0 (i : grid0.Coords) : Prop := k0_cond2 i = 1#1

set_option maxHeartbeats 1000000 in
/-- A MIDDLE step of the reduction: the accumulator gains this block's product, the bias sum this block's sums;
    the output block is not touched. -/
theorem body0_mid (c : Dev nD) (E : Set ℕ) (i : grid0.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first0 i) (hc1 : ¬last0 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg6 fullShare (k0_pay3 x0 x1 a) ∗ owns (c : Thread nD τ) arg7 fullShare (k0_pay4 s x2)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    rw [read_writes_whole _ _ zeros2, readAt_whole arg2 harg2 zeros2, readAt_whole arg3 harg3 zeros2, readAt_whole arg6 harg6 zeros2]
  · iexists _; isplitr
    swap; · iexact H7
    ipureintro
    rw [read_writes_whole _ _ zeros2, readAt_whole arg7 harg7 zeros2, readAt_whole arg4 harg4 zeros3]

set_option maxHeartbeats 1000000 in
/-- The FIRST step of the reduction: both scratch buffers are zero-filled first, whatever they held. -/
theorem body0_first (c : Dev nD) (E : Set ℕ) (i : grid0.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : first0 i) (hc1 : ¬last0 i)
    (x0 : Vec F S100x128 .f32) (x1 : Vec F S128x256 .f32) (x2 : Vec F S100x128x256 .f32) (K : PUnit → sProp 𝕄) :
    iprop(owns (c : Thread nD τ) arg2 fullShare x0 ∗ owns (c : Thread nD τ) arg3 fullShare x1 ∗ owns (c : Thread nD τ) arg4 fullShare x2
        ∗ (∃ a, owns (c : Thread nD τ) arg6 fullShare a) ∗ (∃ s, owns (c : Thread nD τ) arg7 fullShare s)
        ∗ (iprop(owns (c : Thread nD τ) arg2 fullShare x0 ∗ owns (c : Thread nD τ) arg3 fullShare x1 ∗ owns (c : Thread nD τ) arg4 fullShare x2
            ∗ owns (c : Thread nD τ) arg6 fullShare (k0_pay3 x0 x1 (k0_pay1 (F := F))) ∗ owns (c : Thread nD τ) arg7 fullShare (k0_pay4 (k0_pay2 (F := F)) x2)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%a, %f6, %hf6, H6⟩, ⟨%s, %f7, %hf7, H7⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    sl_unfold_run_names
    rw [read_writes_whole _ _ zeros2, readAt_whole arg2 harg2 zeros2, readAt_whole arg3 harg3 zeros2, View.readCov_unit_zero _ zeros2]
  · iexists _; isplitr
    swap; · iexact H7
    ipureintro
    sl_unfold_run_names
    rw [read_writes_whole _ _ zeros2, View.readCov_unit_zero _ zeros2, readAt_whole arg4 harg4 zeros3]

set_option maxHeartbeats 1000000 in
/-- The LAST step of the reduction: after the two updates the output block is stored from the two scratch buffers. -/
theorem body0_last (c : Dev nD) (E : Set ℕ) (i : grid0.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first0 i) (hc1 : last0 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 (k0_pay3 x0 x1 a) (k0_pay4 s x2))
            ∗ owns (c : Thread nD τ) arg6 fullShare (k0_pay3 x0 x1 a) ∗ owns (c : Thread nD τ) arg7 fullShare (k0_pay4 s x2)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%d, %f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_whole _ _ zeros2, View.readCov_unit_zero _ zeros2, View.readCov_unit_zero _ zeros2, readAt_whole arg2 harg2 zeros2, readAt_whole arg3 harg3 zeros2,
      readAt_whole arg6 harg6 zeros2, readAt_whole arg7 harg7 zeros2, readAt_whole arg4 harg4 zeros3]
  isplitl [H6]
  · iexists _; isplitr
    swap; · iexact H6
    ipureintro
    sl_unfold_run_names
    rw [read_writes_whole _ _ zeros2, readAt_whole arg2 harg2 zeros2, readAt_whole arg3 harg3 zeros2, readAt_whole arg6 harg6 zeros2]
  · iexists _; isplitr
    swap; · iexact H7
    ipureintro
    sl_unfold_run_names
    rw [read_writes_whole _ _ zeros2, readAt_whole arg7 harg7 zeros2, readAt_whole arg4 harg4 zeros3]

end Cert.Kernel.Hand
end
-- ==== Proof.Kernel.Region0.lean ====
/-
  Region 0 (the first linear layer) as a pipeline, at any float instance: what each window's staging buffer and the
  two scratch accumulators hold point by point, as functions of the arrays the region is entered with.

  The grid is 4 output tiles × 16 reduction steps, the reduction innermost, so point `t` is step `t % 16` of tile
  `t / 16`. No window is clipped: the three inputs are fetched whole at every point, so the body finds their blocks.
  After point `t` the scratch pair is `scr0 t`: at a first step the block's product and sums added to the zero
  fills, otherwise added to `scr0 (t - 1)`. The output block is stored at the last step of a tile only — from
  `scr0 t` — and written back there; at the other steps the body hands the buffer back as it found it.
  The invariant between points holds the two scratch buffers at `scr0` of the point before, and keeps every other
  scoped buffer and the generator register behind one implication (give the two scratch buffers back at any
  contents and the region's entry resources are whole again), so that none of them need be named.
-/
import proofs.«132613_j6519760355912_2_alg».proof.Proof.Gen.Kernel.Launch
import proofs.«132613_j6519760355912_2_alg».proof.Proof.Gen.Kernel.Skeleton
import proofs.«132613_j6519760355912_2_alg».proof.Proof.Gen.Kernel.Points
import proofs.«132613_j6519760355912_2_alg».proof.Proof.Kernel.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The schedule in closed form -/

theorem hfirst0 : ∀ t : Fin cfg0.N, first0 (grid0.coords t) ↔ t.val % 16 = 0 :=
  (by decide +kernel : ∀ t : Fin grid0.N, first0 (grid0.coords t) ↔ t.val % 16 = 0)
theorem hlast0 : ∀ t : Fin cfg0.N, last0 (grid0.coords t) ↔ t.val % 16 = 15 :=
  (by decide +kernel : ∀ t : Fin grid0.N, last0 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem liveAt0_3 : ∀ t : Fin cfg0.N, last0 (grid0.coords t) → cfg0.idle 3 (grid0.coords t) = false := by decide +kernel

/-! ## The blocks and the accumulators -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch accumulators after the body at position `n`: (product so far, bias sum so far) of the tile. -/
def scr0 (c : Dev nD) : (n : ℕ) → n < cfg0.N → Vec F S100x256 .f32 × Vec F S100x256 .f32
  | 0, hn => (k0_pay3 (iblk0 V c 0 ⟨0, hn⟩) (iblk0 V c 1 ⟨0, hn⟩) (k0_pay1 (F := F)), k0_pay4 (k0_pay2 (F := F)) (iblk0 V c 2 ⟨0, hn⟩))
  | n + 1, hn =>
    if (n + 1) % 16 = 0 then
      (k0_pay3 (iblk0 V c 0 ⟨n + 1, hn⟩) (iblk0 V c 1 ⟨n + 1, hn⟩) (k0_pay1 (F := F)), k0_pay4 (k0_pay2 (F := F)) (iblk0 V c 2 ⟨n + 1, hn⟩))
    else
      (k0_pay3 (iblk0 V c 0 ⟨n + 1, hn⟩) (iblk0 V c 1 ⟨n + 1, hn⟩) (scr0 c n (Nat.lt_of_succ_lt hn)).1,
        k0_pay4 (scr0 c n (Nat.lt_of_succ_lt hn)).2 (iblk0 V c 2 ⟨n + 1, hn⟩))

/-- At a first step the accumulators start from the zero fills. -/
theorem scr0_first (c : Dev nD) (t : Fin cfg0.N) (h : t.val % 16 = 0) :
    scr0 V c t.val t.isLt = (k0_pay3 (iblk0 V c 0 t) (iblk0 V c 1 t) (k0_pay1 (F := F)), k0_pay4 (k0_pay2 (F := F)) (iblk0 V c 2 t)) := by
  obtain ⟨n, hn⟩ := t
  cases n with
  | zero => rfl
  | succ n => exact (if_pos h).trans rfl

/-- At any other step they continue from the point before. -/
theorem scr0_next (c : Dev nD) (t : Fin cfg0.N) (h : ¬t.val % 16 = 0) :
    scr0 V c t.val t.isLt = (k0_pay3 (iblk0 V c 0 t) (iblk0 V c 1 t) (scr0 V c (t.val - 1) (Nat.lt_of_le_of_lt (Nat.sub_le _ _) t.isLt)).1,
      k0_pay4 (scr0 V c (t.val - 1) (Nat.lt_of_le_of_lt (Nat.sub_le _ _) t.isLt)).2 (iblk0 V c 2 t)) := by
  obtain ⟨n, hn⟩ := t
  cases n with
  | zero => exact absurd (Nat.zero_mod _) h
  | succ n => exact (if_neg h).trans rfl

/-! ## The invariant between points -/

abbrev scM0_0 : Memref sig .tc .vmem S100x256 .f32 := Memref.whole cc0_scratch0
abbrev scM0_1 : Memref sig .tc .vmem S100x256 .f32 := Memref.whole cc0_scratch1

/-- Everything the region's entry hands the kernel except the two scratch buffers: give those back, at any contents,
    and the entry resources (every scoped buffer no window stages, the generator register) are whole again. -/
def restOf0 (c : Dev nD) : sProp 𝕄 :=
  iprop(((∃ d, owns (c : Thread nD τ) scM0_0 fullShare d) ∗ (∃ d, owns (c : Thread nD τ) scM0_1 fullShare d)) -∗ Pipeline.ΦA spec0 c)

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ restOf0 (F := F) c) := by
  unfold restOf0 Pipeline.ΦA; rw [scopedRest0_eq]; simp only [owns_whole]
  iintro ⟨⟨H0, H1, Hrest⟩, Hg⟩
  isplitl [H0]; · iexact H0
  isplitl [H1]; · iexact H1
  iintro ⟨H0, H1⟩
  isplitr [Hg]
  · isplitl [H0]; · iexact H0
    isplitl [H1]; · iexact H1
    iexact Hrest
  · iexact Hg

theorem PhiA0_join (c : Dev nD) :
    iprop((∃ d, owns (c : Thread nD τ) scM0_0 fullShare d) ∗ (∃ d, owns (c : Thread nD τ) scM0_1 fullShare d) ∗ restOf0 (F := F) c) ⊢ (Pipeline.ΦA spec0 c : sProp 𝕄) := by
  unfold restOf0
  iintro ⟨H0, H1, Hw⟩
  iapply Hw
  isplitl [H0]; · iexact H0
  iexact H1

/-- The invariant before position `n`: the entry resources before the first point; afterwards the two scratch buffers
    at what the point before left, beside the rest. -/
def PhiS0 (c : Dev nD) : (n : ℕ) → n ≤ cfg0.N → sProp 𝕄
  | 0, _ => Pipeline.ΦA spec0 c
  | n + 1, hn => iprop(owns (c : Thread nD τ) scM0_0 fullShare (scr0 V c n hn).1 ∗ owns (c : Thread nD τ) scM0_1 fullShare (scr0 V c n hn).2 ∗ restOf0 c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (scr0 V c n hn).1 ∗ owns (c : Thread nD τ) scM0_1 fullShare (scr0 V c n hn).2 ∗ restOf0 c) := rfl
theorem PhiS0_pos (c : Dev nD) (n : ℕ) (h : n ≤ cfg0.N) (hz : n ≠ 0) :
    PhiS0 V c n h = iprop(owns (c : Thread nD τ) scM0_0 fullShare (scr0 V c (n - 1) (by omega)).1 ∗ owns (c : Thread nD τ) scM0_1 fullShare (scr0 V c (n - 1) (by omega)).2 ∗ restOf0 c) := by
  cases n with
  | zero => exact absurd rfl hz
  | succ n => rfl

/-! ## The proof data -/

/-- The proof data of region 0 on core `c`: the arrays as the region finds them; after the body each input's buffer at its
    block, the output's at the block stored from the accumulators of that point; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (scr0 V c t.val t.isLt).1 (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay5 (scr0 V c t.val t.isLt).1 (scr0 V c t.val t.isLt).2 := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]

/-- Each input is fetched at every point and no block is cut: the body finds the block. -/
theorem before0_0 (c : Dev nD) (t : Fin cfg0.N) (d) : (dat0 V c).before 0 t d = iblk0 V c 0 t := by
  unfold Dat.before; rw [if_pos (fetch0_0 t)]; unfold Dat.fetched Dat.blockOf iblk0; rw [A_eq0]; try rfl
theorem before0_1 (c : Dev nD) (t : Fin cfg0.N) (d) : (dat0 V c).before 1 t d = iblk0 V c 1 t := by
  unfold Dat.before; rw [if_pos (fetch0_1 t)]; unfold Dat.fetched Dat.blockOf iblk0; rw [A_eq0]; try rfl
theorem before0_2 (c : Dev nD) (t : Fin cfg0.N) (d) : (dat0 V c).before 2 t d = iblk0 V c 2 t := by
  unfold Dat.before; rw [if_pos (fetch0_2 t)]; unfold Dat.fetched Dat.blockOf iblk0; rw [A_eq0]; try rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the inputs' buffers hold their blocks; the closed forms say which step of the reduction the
    point is; the invariant hands the body the scratch pair at what the point before left (at anything at a first
    step) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0,
    show (dat0 V c).leavesExact 1 t = owns (c : Thread nD τ) (st0_1 t) fullShare ((dat0 V c).after 1 t) from by
      unfold Dat.leavesExact; rw [liveAt0_1 t], after0_1,
    show (dat0 V c).leavesExact 2 t = owns (c : Thread nD τ) (st0_2 t) fullShare ((dat0 V c).after 2 t) from by
      unfold Dat.leavesExact; rw [liveAt0_2 t], after0_2]
  have hN : t.val < 64 := lt_of_lt_of_eq t.isLt (show cfg0.N = 64 from N_0)
  by_cases h0 : t.val % 16 = 0
  · have h1 : ¬t.val % 16 = 15 := by omega
    have hc0 : first0 (grid0.coords t) := (hfirst0 t).mpr h0
    have hc1 : ¬last0 (grid0.coords t) := fun h => h1 ((hlast0 t).mp h)
    rw [Dat.leavesExact_idle (dat0 V c) 3 t (idleAt0_3 t hc1) (noFlush0_3 t hc1), scr0_first V c t h0]
    have hΦ : (dat0 V c).Φ t.castSucc ⊢ iprop((∃ d, owns (c : Thread nD τ) scM0_0 fullShare d) ∗ (∃ d, owns (c : Thread nD τ) scM0_1 fullShare d) ∗ restOf0 (F := F) c) := by
      rw [PhiS0_castSucc V c t]
      by_cases hz : t.val = 0
      · rw [PhiS0_zero V c _ _ hz]; exact PhiA0_split c
      · rw [PhiS0_pos V c _ _ hz]
        iintro ⟨H0, H1, Hr⟩
        isplitl [H0]; · iexists _; iexact H0
        isplitl [H1]; · iexists _; iexact H1
        iexact Hr
    iintro ⟨HΦ, Ho, ⟨%d0, H0⟩, ⟨%d1, H1⟩, ⟨%d2, H2⟩, H3⟩
    ihave HΦ' := hΦ $$ HΦ
    icases HΦ' with ⟨HS0, HS1, Hr⟩
    iapply (body0_first c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) hc0 hc1 (iblk0 V c 0 t) (iblk0 V c 1 t) (iblk0 V c 2 t) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    iexact H3
  · have hz : t.val ≠ 0 := fun e => h0 (by rw [e])
    have hc0 : ¬first0 (grid0.coords t) := fun h => h0 ((hfirst0 t).mp h)
    rw [PhiS0_castSucc V c t, PhiS0_pos V c _ _ hz, scr0_next V c t h0]
    by_cases h1 : t.val % 16 = 15
    · have hc1 : last0 (grid0.coords t) := (hlast0 t).mpr h1
      rw [show (dat0 V c).leavesExact 3 t = owns (c : Thread nD τ) (st0_3 t) fullShare ((dat0 V c).after 3 t) from by
        unfold Dat.leavesExact; rw [liveAt0_3 t hc1], after0_3, scr0_next V c t h0]
      iintro ⟨⟨HS0, HS1, Hr⟩, Ho, ⟨%d0, H0⟩, ⟨%d1, H1⟩, ⟨%d2, H2⟩, ⟨%d3, H3⟩⟩
      iapply (body0_last c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) hc0 hc1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      iexact H3
    · have hc1 : ¬last0 (grid0.coords t) := fun h => h1 ((hlast0 t).mp h)
      rw [Dat.leavesExact_idle (dat0 V c) 3 t (idleAt0_3 t hc1) (noFlush0_3 t hc1)]
      iintro ⟨⟨HS0, HS1, Hr⟩, Ho, ⟨%d0, H0⟩, ⟨%d1, H1⟩, ⟨%d2, H2⟩, H3⟩
      iapply (body0_mid c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) hc0 hc1 (iblk0 V c 0 t) (iblk0 V c 1 t) (iblk0 V c 2 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Forgetting what the scratch buffers hold. -/
theorem forget0 (c : Dev nD) (a s : Vec F S100x256 .f32) :
    iprop(owns (c : Thread nD τ) scM0_0 fullShare a ∗ owns (c : Thread nD τ) scM0_1 fullShare s ∗ restOf0 (F := F) c)
      ⊢ iprop((∃ d, owns (c : Thread nD τ) scM0_0 fullShare d) ∗ (∃ d, owns (c : Thread nD τ) scM0_1 fullShare d) ∗ restOf0 (F := F) c) := by
  iintro ⟨H0, H1, Hr⟩
  isplitl [H0]; · iexists _; iexact H0
  isplitl [H1]; · iexists _; iexact H1
  iexact Hr

/-- What the launch hands the region is the invariant before the first point; after the last it gives it back. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega)]
  exact (forget0 c _ _).trans (PhiA0_join c)

end

end Cert.Kernel.Hand
end
-- ==== Proof.Kernel.Body1.lean ====
/-
  The body of kernel 1 (one step of a blocked linear layer) on whole buffers, at any float instance.

  The body keeps two scratch accumulators across the steps of the reduction axis: `acc` (the matrix product so far)
  and `bsum` (the bias tensor's sum over the contracted axis so far). Every access of the body is a whole buffer,
  so one call takes `acc` to `k1_pay3 x w acc₀` (`acc₀ +` this block's product) and `bsum` to `k1_pay4 bsum₀ b` (`bsum₀ +`
  this block's sums over its middle axis), where `acc₀`, `bsum₀` are the zero fills `k1_pay1`, `k1_pay2` at the first step
  of the reduction and the carried contents otherwise; at the last step it also stores `k1_pay5` of the two new
  accumulators — their sum scaled by the reciprocal of the contracted extent — into the output block,
  which no other step touches. Three cases meet the grid (first, middle, last step); each is one symbolic run.
-/
import proofs.«132613_j6519760355912_2_alg».proof.Proof.Gen.Kernel.Launch
import proofs.«132613_j6519760355912_2_alg».proof.Proof.Gen.Kernel.Skeleton
import proofs.«132613_j6519760355912_2_alg».proof.Proof.Gen.Kernel.Points
import proofs.«132613_j6519760355912_2_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Lib.WholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first conditional: the reduction coordinate is 0. -/
abbrev first1 (i : grid1.Coords) : Prop := (Scalar.cmpi .ne (Scalar.extui (Scalar.cmpi .eq (BitVec.ofNat 32 (i 1).val) 0#32)) 0#32) = 1#1
/-- Its second: the reduction coordinate is the last. -/
abbrev last1 (i : grid1.Coords) : Prop := k1_cond2 i = 1#1

set_option maxHeartbeats 1000000 in
/-- A MIDDLE step of the reduction: the accumulator gains this block's product, the bias sum this block's sums;
    the output block is not touched. -/
theorem body1_mid (c : Dev nD) (E : Set ℕ) (i : grid1.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first1 i) (hc1 : ¬last1 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg6 fullShare (k1_pay3 x0 x1 a) ∗ owns (c : Thread nD τ) arg7 fullShare (k1_pay4 s x2)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    rw [read_writes_whole _ _ zeros2, readAt_whole arg2 harg2 zeros2, readAt_whole arg3 harg3 zeros2, readAt_whole arg6 harg6 zeros2]
  · iexists _; isplitr
    swap; · iexact H7
    ipureintro
    rw [read_writes_whole _ _ zeros2, readAt_whole arg7 harg7 zeros2, readAt_whole arg4 harg4 zeros3]

set_option maxHeartbeats 1000000 in
/-- The FIRST step of the reduction: both scratch buffers are zero-filled first, whatever they held. -/
theorem body1_first (c : Dev nD) (E : Set ℕ) (i : grid1.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : first1 i) (hc1 : ¬last1 i)
    (x0 : Vec F S100x128 .f32) (x1 : Vec F S128x256 .f32) (x2 : Vec F S100x128x256 .f32) (K : PUnit → sProp 𝕄) :
    iprop(owns (c : Thread nD τ) arg2 fullShare x0 ∗ owns (c : Thread nD τ) arg3 fullShare x1 ∗ owns (c : Thread nD τ) arg4 fullShare x2
        ∗ (∃ a, owns (c : Thread nD τ) arg6 fullShare a) ∗ (∃ s, owns (c : Thread nD τ) arg7 fullShare s)
        ∗ (iprop(owns (c : Thread nD τ) arg2 fullShare x0 ∗ owns (c : Thread nD τ) arg3 fullShare x1 ∗ owns (c : Thread nD τ) arg4 fullShare x2
            ∗ owns (c : Thread nD τ) arg6 fullShare (k1_pay3 x0 x1 (k1_pay1 (F := F))) ∗ owns (c : Thread nD τ) arg7 fullShare (k1_pay4 (k1_pay2 (F := F)) x2)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%a, %f6, %hf6, H6⟩, ⟨%s, %f7, %hf7, H7⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    sl_unfold_run_names
    rw [read_writes_whole _ _ zeros2, readAt_whole arg2 harg2 zeros2, readAt_whole arg3 harg3 zeros2, View.readCov_unit_zero _ zeros2]
  · iexists _; isplitr
    swap; · iexact H7
    ipureintro
    sl_unfold_run_names
    rw [read_writes_whole _ _ zeros2, View.readCov_unit_zero _ zeros2, readAt_whole arg4 harg4 zeros3]

set_option maxHeartbeats 1000000 in
/-- The LAST step of the reduction: after the two updates the output block is stored from the two scratch buffers. -/
theorem body1_last (c : Dev nD) (E : Set ℕ) (i : grid1.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first1 i) (hc1 : last1 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k1_pay5 (k1_pay3 x0 x1 a) (k1_pay4 s x2))
            ∗ owns (c : Thread nD τ) arg6 fullShare (k1_pay3 x0 x1 a) ∗ owns (c : Thread nD τ) arg7 fullShare (k1_pay4 s x2)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%d, %f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_whole _ _ zeros2, View.readCov_unit_zero _ zeros2, View.readCov_unit_zero _ zeros2, readAt_whole arg2 harg2 zeros2, readAt_whole arg3 harg3 zeros2,
      readAt_whole arg6 harg6 zeros2, readAt_whole arg7 harg7 zeros2, readAt_whole arg4 harg4 zeros3]
  isplitl [H6]
  · iexists _; isplitr
    swap; · iexact H6
    ipureintro
    sl_unfold_run_names
    rw [read_writes_whole _ _ zeros2, readAt_whole arg2 harg2 zeros2, readAt_whole arg3 harg3 zeros2, readAt_whole arg6 harg6 zeros2]
  · iexists _; isplitr
    swap; · iexact H7
    ipureintro
    sl_unfold_run_names
    rw [read_writes_whole _ _ zeros2, readAt_whole arg7 harg7 zeros2, readAt_whole arg4 harg4 zeros3]

end Cert.Kernel.Hand
end
-- ==== Proof.Kernel.Region1.lean ====
/-
  Region 1 (the second linear layer) as a pipeline, at any float instance, with its contents CONSTRAINED rather than named.

  The grid is 4 output tiles × 8 reduction steps, the reduction innermost. The weight, the bias tensor and the
  output are tiled along an axis of extent 1000 by blocks of 256, so the last tile's blocks overhang their arrays:
  a fetch fills the buffer's part inside the array with the array's block and leaves the rest at words nothing
  names, and the write-back moves only the part inside the array. What the body computes from those words is not a
  function of the arrays, so the two scratch accumulators cannot be named point by point. Instead this module takes
  a predicate `Inv c n a s` (what is known of the accumulators after position `n`) and a predicate `Out c t X` (what
  is known of the output buffer the last step of a tile leaves), with the three facts that make them an invariant
  of the body's steps — `Steps1`: a first step establishes `Inv` from the zero fills, a later step carries it on,
  the last step's store satisfies `Out` — whatever words fill out the blocks the body finds. The body obligation
  and the region's entry and exit then hold for any such pair; the instance `fun _ _ _ _ => True` is the frame,
  an instance that reads the columns inside the array is the value.
-/
import proofs.«132613_j6519760355912_2_alg».proof.Proof.Gen.Kernel.Launch
import proofs.«132613_j6519760355912_2_alg».proof.Proof.Gen.Kernel.Skeleton
import proofs.«132613_j6519760355912_2_alg».proof.Proof.Gen.Kernel.Points
import proofs.«132613_j6519760355912_2_alg».proof.Proof.Kernel.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (Inv : Dev nD → ℕ → Vec F S100x256 .f32 → Vec F S100x256 .f32 → Prop)
variable (Out : (c : Dev nD) → Fin cfg1.N → Vec F S100x256 .f32 → Prop)

/-! ## The schedule in closed form -/

theorem hfirst1 : ∀ t : Fin cfg1.N, first1 (grid1.coords t) ↔ t.val % 8 = 0 :=
  (by decide +kernel : ∀ t : Fin grid1.N, first1 (grid1.coords t) ↔ t.val % 8 = 0)
theorem hlast1 : ∀ t : Fin cfg1.N, last1 (grid1.coords t) ↔ t.val % 8 = 7 :=
  (by decide +kernel : ∀ t : Fin grid1.N, last1 (grid1.coords t) ↔ t.val % 8 = 7)

/-! ## The blocks the body finds -/

/-- Window `w`'s block at point `t` — its part inside the array — read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What an input's buffer may hold when the body runs: the block on the part inside the array, any words elsewhere. -/
def Found1 (c : Dev nD) (w : Fin cfg1.W) (t : Fin cfg1.N) (Y : (cfg1.win w).block.Idx → Elt F (cfg1.win w).elt) : Prop :=
  ∃ d, Y = (cfg1.win w).fill (cfg1.grid.coords t) d (iblk1 V c w t)

/-- The two predicates are an invariant of the body's steps, whatever fills out the blocks. -/
structure Steps1 : Prop where
  first : ∀ (c : Dev nD) (t : Fin cfg1.N), t.val % 8 = 0 →
    ∀ (Y0 : Vec F S100x128 .f32) (Y1 : Vec F S128x256 .f32) (Y2 : Vec F S100x128x256 .f32),
      Found1 V c 0 t Y0 → Found1 V c 1 t Y1 → Found1 V c 2 t Y2 →
      Inv c t.val (k1_pay3 Y0 Y1 (k1_pay1 (F := F))) (k1_pay4 (k1_pay2 (F := F)) Y2)
  next : ∀ (c : Dev nD) (t : Fin cfg1.N), ¬t.val % 8 = 0 →
    ∀ (Y0 : Vec F S100x128 .f32) (Y1 : Vec F S128x256 .f32) (Y2 : Vec F S100x128x256 .f32),
      Found1 V c 0 t Y0 → Found1 V c 1 t Y1 → Found1 V c 2 t Y2 →
      ∀ a s, Inv c (t.val - 1) a s → Inv c t.val (k1_pay3 Y0 Y1 a) (k1_pay4 s Y2)
  out : ∀ (c : Dev nD) (t : Fin cfg1.N), t.val % 8 = 7 → ∀ a s, Inv c t.val a s → Out c t (k1_pay5 a s)

/-! ## The invariant between points -/

abbrev scM1_0 : Memref sig .tc .vmem S100x256 .f32 := Memref.whole cc1_scratch0
abbrev scM1_1 : Memref sig .tc .vmem S100x256 .f32 := Memref.whole cc1_scratch1

/-- Everything the region's entry hands the kernel except the two scratch buffers: give those back, at any contents,
    and the entry resources (every scoped buffer no window stages, the generator register) are whole again. -/
def restOf1 (c : Dev nD) : sProp 𝕄 :=
  iprop(((∃ d, owns (c : Thread nD τ) scM1_0 fullShare d) ∗ (∃ d, owns (c : Thread nD τ) scM1_1 fullShare d)) -∗ Pipeline.ΦA spec1 c)

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ restOf1 (F := F) c) := by
  unfold restOf1 Pipeline.ΦA; rw [scopedRest1_eq]; simp only [owns_whole]
  iintro ⟨⟨G0, G1, G2, G3, G4, G5, G6, G7, G8, G9, H0, H1⟩, Hg⟩
  isplitl [H0]; · iexact H0
  isplitl [H1]; · iexact H1
  iintro ⟨H0, H1⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [H0]; · iexact H0
    iexact H1
  · iexact Hg

theorem PhiA1_join (c : Dev nD) :
    iprop((∃ d, owns (c : Thread nD τ) scM1_0 fullShare d) ∗ (∃ d, owns (c : Thread nD τ) scM1_1 fullShare d) ∗ restOf1 (F := F) c) ⊢ (Pipeline.ΦA spec1 c : sProp 𝕄) := by
  unfold restOf1
  iintro ⟨H0, H1, Hw⟩
  iapply Hw
  isplitl [H0]; · iexact H0
  iexact H1

/-- The invariant before position `n`: the entry resources before the first point; afterwards the two scratch buffers
    at SOME contents of which `Inv` holds at the point before, beside the rest. -/
def PhiR1 (c : Dev nD) : (n : ℕ) → n ≤ cfg1.N → sProp 𝕄
  | 0, _ => Pipeline.ΦA spec1 c
  | n + 1, _ => iprop(∃ a s, ⌜Inv c n a s⌝ ∗ owns (c : Thread nD τ) scM1_0 fullShare a ∗ owns (c : Thread nD τ) scM1_1 fullShare s ∗ restOf1 c)

theorem PhiR1_zero (c : Dev nD) (n : ℕ) (h : n ≤ cfg1.N) (hz : n = 0) : PhiR1 Inv c n h = Pipeline.ΦA spec1 c := by
  subst hz; rfl
theorem PhiR1_succ (c : Dev nD) (n : ℕ) (hn : n + 1 ≤ cfg1.N) :
    PhiR1 Inv c (n + 1) hn = iprop(∃ a s, ⌜Inv c n a s⌝ ∗ owns (c : Thread nD τ) scM1_0 fullShare a ∗ owns (c : Thread nD τ) scM1_1 fullShare s ∗ restOf1 c) := rfl
theorem PhiR1_pos (c : Dev nD) (n : ℕ) (h : n ≤ cfg1.N) (hz : n ≠ 0) :
    PhiR1 Inv c n h = iprop(∃ a s, ⌜Inv c (n - 1) a s⌝ ∗ owns (c : Thread nD τ) scM1_0 fullShare a ∗ owns (c : Thread nD τ) scM1_1 fullShare s ∗ restOf1 c) := by
  cases n with
  | zero => exact absurd rfl hz
  | succ n => rfl

/-! ## The proof data -/

/-- The relational proof data of region 1 on core `c`: the arrays as the region finds them; nothing is asked of what the
    body leaves in an input's buffer (each is fetched again at the next point); of the output's buffer, at a tile's
    last step, `Out`; the invariant above; nothing owed. -/
def rd1 (c : Dev nD) : RDat τ (Elt F) Unit ℕ (UR sig nD τ) ℕ cfg1 c where
  A w := V c (Pipeline.arrRef spec1 w)
  after w t _ X := match w with
    | ⟨0, _⟩ => True
    | ⟨1, _⟩ => True
    | ⟨2, _⟩ => True
    | ⟨3, _⟩ => t.val % 8 = 7 → Out c t X
  Φ t := PhiR1 Inv c t.val (Nat.le_of_lt_succ t.isLt)
  q _ := fullShare
  owed _ := 0

theorem A_eq1 (c : Dev nD) (w : Fin cfg1.W) : (rd1 V Inv Out c).A w = V c (Pipeline.arrRef spec1 w) := by dsimp only [rd1]
theorem after1_in0 (c : Dev nD) (t : Fin cfg1.N) (Y X) : (rd1 V Inv Out c).after 0 t Y X := by dsimp only [rd1]
theorem after1_in1 (c : Dev nD) (t : Fin cfg1.N) (Y X) : (rd1 V Inv Out c).after 1 t Y X := by dsimp only [rd1]
theorem after1_in2 (c : Dev nD) (t : Fin cfg1.N) (Y X) : (rd1 V Inv Out c).after 2 t Y X := by dsimp only [rd1]
theorem after1_out (c : Dev nD) (t : Fin cfg1.N) (Y X) : (rd1 V Inv Out c).after 3 t Y X ↔ (t.val % 8 = 7 → Out c t X) := by
  dsimp only [rd1]; exact Iff.rfl
theorem PhiR1_castSucc (c : Dev nD) (t : Fin cfg1.N) : (rd1 V Inv Out c).Φ t.castSucc = PhiR1 Inv c t.val (Nat.le_of_lt t.isLt) := by
  dsimp only [rd1]; simp only [Fin.coe_castSucc]

/-- Each input is fetched at every point: what the body finds is the block filled out with words nothing names. -/
theorem found1_0 (c : Dev nD) (t : Fin cfg1.N) (Y) (h : (rd1 V Inv Out c).Finds 0 t Y) : Found1 V c 0 t Y := by
  obtain ⟨d, rfl⟩ := ((rd1 V Inv Out c).finds_of_fetch (fetch1_0 t) Y).mp h
  exact ⟨d, by unfold RDat.fetched RDat.blockOf iblk1; rw [A_eq1]⟩
theorem found1_1 (c : Dev nD) (t : Fin cfg1.N) (Y) (h : (rd1 V Inv Out c).Finds 1 t Y) : Found1 V c 1 t Y := by
  obtain ⟨d, rfl⟩ := ((rd1 V Inv Out c).finds_of_fetch (fetch1_1 t) Y).mp h
  exact ⟨d, by unfold RDat.fetched RDat.blockOf iblk1; rw [A_eq1]⟩
theorem found1_2 (c : Dev nD) (t : Fin cfg1.N) (Y) (h : (rd1 V Inv Out c).Finds 2 t Y) : Found1 V c 2 t Y := by
  obtain ⟨d, rfl⟩ := ((rd1 V Inv Out c).finds_of_fetch (fetch1_2 t) Y).mp h
  exact ⟨d, by unfold RDat.fetched RDat.blockOf iblk1; rw [A_eq1]⟩

/-! ## The body obligation -/

set_option maxHeartbeats 4000000 in
/-- The body at any point, on buffers holding what it may find there: the closed forms say which step of the reduction
    the point is; the invariant hands the body the scratch pair at contents of which `Inv` holds at the point before
    (at anything at a first step) and takes it back at the step's results, of which `Inv` holds by `Steps1`. -/
theorem sound_body1 (hS : Steps1 V Inv Out) (c : Dev nD) (t : Fin cfg1.N)
    (Y0 : Vec F S100x128 .f32) (Y1 : Vec F S128x256 .f32) (Y2 : Vec F S100x128x256 .f32) (Y3 : Vec F S100x256 .f32)
    (hY0 : Found1 V c 0 t Y0) (hY1 : Found1 V c 1 t Y1) (hY2 : Found1 V c 2 t Y2) :
    iprop((rd1 V Inv Out c).Φ t.castSucc ∗ (rd1 V Inv Out c).owesAt () t.castSucc
        ∗ owns (c : Thread nD τ) (st1_0 t) fullShare Y0 ∗ owns (c : Thread nD τ) (st1_1 t) fullShare Y1 ∗ owns (c : Thread nD τ) (st1_2 t) fullShare Y2 ∗ owns (c : Thread nD τ) (st1_3 t) fullShare Y3)
      ⊢ wp frame (wpE (defs₀ (F := F)) Variants.none c none) Set.univ (bodyAt1 t) (fun _ =>
          iprop((rd1 V Inv Out c).Φ t.succ ∗ (rd1 V Inv Out c).owesAt () t.succ
            ∗ (∃ X, ⌜(rd1 V Inv Out c).after 0 t Y0 X⌝ ∗ owns (c : Thread nD τ) (st1_0 t) fullShare X)
            ∗ (∃ X, ⌜(rd1 V Inv Out c).after 1 t Y1 X⌝ ∗ owns (c : Thread nD τ) (st1_1 t) fullShare X)
            ∗ (∃ X, ⌜(rd1 V Inv Out c).after 2 t Y2 X⌝ ∗ owns (c : Thread nD τ) (st1_2 t) fullShare X)
            ∗ (∃ X, ⌜(rd1 V Inv Out c).after 3 t Y3 X⌝ ∗ owns (c : Thread nD τ) (st1_3 t) fullShare X))) := by
  unfold bodyAt1
  rw [show (rd1 V Inv Out c).owesAt () t.succ = (rd1 V Inv Out c).owesAt () t.castSucc from rfl]
  rw [show (rd1 V Inv Out c).Φ t.succ = PhiR1 Inv c (t.val + 1) t.isLt from rfl, PhiR1_succ]
  have hN : t.val < 32 := lt_of_lt_of_eq t.isLt (show cfg1.N = 32 from N_1)
  by_cases h0 : t.val % 8 = 0
  · have h1 : ¬t.val % 8 = 7 := by omega
    have hc0 : first1 (grid1.coords t) := (hfirst1 t).mpr h0
    have hc1 : ¬last1 (grid1.coords t) := fun h => h1 ((hlast1 t).mp h)
    have hΦ : (rd1 V Inv Out c).Φ t.castSucc ⊢ iprop((∃ d, owns (c : Thread nD τ) scM1_0 fullShare d) ∗ (∃ d, owns (c : Thread nD τ) scM1_1 fullShare d) ∗ restOf1 (F := F) c) := by
      rw [PhiR1_castSucc V Inv Out c t]
      by_cases hz : t.val = 0
      · rw [PhiR1_zero Inv c _ _ hz]; exact PhiA1_split c
      · rw [PhiR1_pos Inv c _ _ hz]
        iintro ⟨%a, %s, -, H0, H1, Hr⟩
        isplitl [H0]; · iexists _; iexact H0
        isplitl [H1]; · iexists _; iexact H1
        iexact Hr
    iintro ⟨HΦ, Ho, H0, H1, H2, H3⟩
    ihave HΦ' := hΦ $$ HΦ
    icases HΦ' with ⟨HS0, HS1, Hr⟩
    iapply (body1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) hc0 hc1 Y0 Y1 Y2 _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr]
    · iexists _; iexists _; isplitr; · ipureintro; exact hS.first c t h0 Y0 Y1 Y2 hY0 hY1 hY2
      isplitl [HS0]; · iexact HS0
      isplitl [HS1]; · iexact HS1
      iexact Hr
    isplitl [Ho]; · iexact Ho
    isplitl [H0]
    · iexists Y0; isplitr; · ipureintro; exact after1_in0 V Inv Out c t _ _
      iexact H0
    isplitl [H1]
    · iexists Y1; isplitr; · ipureintro; exact after1_in1 V Inv Out c t _ _
      iexact H1
    isplitl [H2]
    · iexists Y2; isplitr; · ipureintro; exact after1_in2 V Inv Out c t _ _
      iexact H2
    · iexists Y3; isplitr; · ipureintro; exact (after1_out V Inv Out c t _ _).mpr fun h => absurd h h1
      iexact H3
  · have hz : t.val ≠ 0 := fun e => h0 (by rw [e])
    have hc0 : ¬first1 (grid1.coords t) := fun h => h0 ((hfirst1 t).mp h)
    rw [PhiR1_castSucc V Inv Out c t, PhiR1_pos Inv c _ _ hz]
    by_cases h1 : t.val % 8 = 7
    · have hc1 : last1 (grid1.coords t) := (hlast1 t).mpr h1
      iintro ⟨⟨%a, %s, %hI, HS0, HS1, Hr⟩, Ho, H0, H1, H2, H3⟩
      iapply (body1_last c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) hc0 hc1 Y0 Y1 Y2 a s _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr]
      · iexists _; iexists _; isplitr; · ipureintro; exact hS.next c t h0 Y0 Y1 Y2 hY0 hY1 hY2 a s hI
        isplitl [HS0]; · iexact HS0
        isplitl [HS1]; · iexact HS1
        iexact Hr
      isplitl [Ho]; · iexact Ho
      isplitl [H0]
      · iexists Y0; isplitr; · ipureintro; exact after1_in0 V Inv Out c t _ _
        iexact H0
      isplitl [H1]
      · iexists Y1; isplitr; · ipureintro; exact after1_in1 V Inv Out c t _ _
        iexact H1
      isplitl [H2]
      · iexists Y2; isplitr; · ipureintro; exact after1_in2 V Inv Out c t _ _
        iexact H2
      · iexists _; isplitr
        · ipureintro; exact (after1_out V Inv Out c t _ _).mpr fun _ => hS.out c t h1 _ _ (hS.next c t h0 Y0 Y1 Y2 hY0 hY1 hY2 a s hI)
        iexact H3
    · have hc1 : ¬last1 (grid1.coords t) := fun h => h1 ((hlast1 t).mp h)
      iintro ⟨⟨%a, %s, %hI, HS0, HS1, Hr⟩, Ho, H0, H1, H2, H3⟩
      iapply (body1_mid c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) hc0 hc1 Y0 Y1 Y2 a s _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · iexists _; iexists _; isplitr; · ipureintro; exact hS.next c t h0 Y0 Y1 Y2 hY0 hY1 hY2 a s hI
        isplitl [HS0]; · iexact HS0
        isplitl [HS1]; · iexact HS1
        iexact Hr
      isplitl [Ho]; · iexact Ho
      isplitl [H0]
      · iexists Y0; isplitr; · ipureintro; exact after1_in0 V Inv Out c t _ _
        iexact H0
      isplitl [H1]
      · iexists Y1; isplitr; · ipureintro; exact after1_in1 V Inv Out c t _ _
        iexact H1
      isplitl [H2]
      · iexists Y2; isplitr; · ipureintro; exact after1_in2 V Inv Out c t _ _
        iexact H2
      · iexists Y3; isplitr; · ipureintro; exact (after1_out V Inv Out c t _ _).mpr fun h => absurd h h1
        iexact H3

/-- The library's relational body obligation, at every point. -/
theorem body_obligation1 (hS : Steps1 V Inv Out) (c : Dev nD) :
    (rd1 (F := F) V Inv Out c).BodyObligation (defs₀ (F := F)) Variants.none () Set.univ := fun t Y hY => by
  rw [bigSep_W1, bigSep_W1]
  exact sound_body1 V Inv Out hS c t (Y 0) (Y 1) (Y 2) (Y 3) (found1_0 V Inv Out c t _ (hY 0)) (found1_1 V Inv Out c t _ (hY 1)) (found1_2 V Inv Out c t _ (hY 2))

/-- What the launch hands the region is the invariant before the first point; after the last it gives it back. -/
theorem hin1 (c : Dev nD) : Pipeline.ΦA spec1 c ⊢ (rd1 V Inv Out c).Φ 0 := by
  rw [show (rd1 V Inv Out c).Φ 0 = PhiR1 Inv c 0 (Nat.zero_le _) from rfl, PhiR1_zero Inv c 0 _ rfl]
  try exact Idealize.SL.BI.Entails.refl _

theorem forget1 (c : Dev nD) :
    iprop(∃ a s, ⌜Inv c (32 - 1) a s⌝ ∗ owns (c : Thread nD τ) scM1_0 fullShare a ∗ owns (c : Thread nD τ) scM1_1 fullShare s ∗ restOf1 (F := F) c)
      ⊢ iprop((∃ d, owns (c : Thread nD τ) scM1_0 fullShare d) ∗ (∃ d, owns (c : Thread nD τ) scM1_1 fullShare d) ∗ restOf1 (F := F) c) := by
  iintro ⟨%a, %s, -, H0, H1, Hr⟩
  isplitl [H0]; · iexists _; iexact H0
  isplitl [H1]; · iexists _; iexact H1
  iexact Hr

theorem hout1 (c : Dev nD) : (rd1 V Inv Out c).Φ (Fin.last cfg1.N) ⊢ Pipeline.ΦA spec1 c := by
  have hN : cfg1.N = 32 := N_1
  rw [show (rd1 V Inv Out c).Φ (Fin.last cfg1.N) = PhiR1 Inv c (Fin.last cfg1.N).val (Nat.le_of_lt_succ (Fin.last cfg1.N).isLt) from rfl,
    PhiR1_pos Inv c _ _ (by rw [Fin.val_last]; omega)]
  rw [show (Fin.last cfg1.N).val - 1 = 32 - 1 from by rw [Fin.val_last, hN]]
  exact (forget1 Inv c).trans (PhiA1_join c)

end

end Cert.Kernel.Hand
end
-- ==== Proof.Kernel.Run.lean ====
/-
  The run of the whole program — two kernel regions, nothing between them — at any float instance.

  Region 0 is entered with every buffer as launched; it leaves its output array at what its write-backs make of it
  (`Dat.arrAt` of region 0's exact proof data: a function of the launch memory) and every other buffer as it was.
  Region 1 is entered from that; its proof data is relational, so of its output array the run concludes
  `RDat.ArrAt`: the launch contents overwritten, tile by tile, by the part inside the array of SOME buffer of which
  `Out` holds. The five argument arrays end as launched: each is an input window of one region and bypasses the
  other. The run is stated for any predicates `Inv`, `Out` that are an invariant of region 1's body steps (`Steps1`).
-/
import proofs.«132613_j6519760355912_2_alg».proof.Proof.Gen.Kernel.Launch
import proofs.«132613_j6519760355912_2_alg».proof.Proof.Gen.Kernel.Skeleton
import proofs.«132613_j6519760355912_2_alg».proof.Proof.Gen.Kernel.Points
import proofs.«132613_j6519760355912_2_alg».proof.Proof.Kernel.Region0
import proofs.«132613_j6519760355912_2_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

section
variable (m : (ℓ : Loc nD τ sig) → Buf (Elt F) ℓ) (ρ : Dev nD → PrngReg)
variable (Inv : Dev nD → ℕ → Vec F S100x256 .f32 → Vec F S100x256 .f32 → Prop)
variable (Out : (c : Dev nD) → Fin cfg1.N → Vec F S100x256 .f32 → Prop)

/-! ## The buffers' contents at the two boundaries -/

/-- Core `c`'s buffers at launch: region 0's entry. -/
abbrev W0 : Dev nD → Valuation τ sig (Elt F) := fun c b => m (c, b)
abbrev V0 : (c : Dev nD) → (b : Ref sig .tc) → Buf (Elt F) ((c : Thread nD τ).loc b) := fun c b => W0 m c b
/-- At region 0's exit, which is region 1's entry: region 0's arrays at what its write-backs leave, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Region 0 reads the first three arguments through input windows and never sees the last two: at region 1's entry
    all five hold their launch contents. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg2 (c : Dev nD) : V1 m c main_arg2 = m ((c : Thread nD τ).loc main_arg2) :=
  (W1_arr m c 2).trans (((dat0 (V0 m) c).arrAt_in 2 rfl _).trans (A_eq0 (V0 m) c 2))
theorem V1_main_arg3 (c : Dev nD) : V1 m c main_arg3 = m ((c : Thread nD τ).loc main_arg3) :=
  W1_of_ne m c main_arg3 (by decide)
theorem V1_main_arg4 (c : Dev nD) : V1 m c main_arg4 = m ((c : Thread nD τ).loc main_arg4) :=
  W1_of_ne m c main_arg4 (by decide)
/-- And region 1's first input is region 0's output array as its write-backs left it. -/
theorem V1_main_v0 (c : Dev nD) : V1 m c main_v0 = (dat0 (V0 m) c).arrAt 3 cfg0.N := W1_arr m c 3

/-! ## The proof data family and the thread states -/

abbrev admH : (p : Fin 2) → (pcfgs (F := F) p).Adm := fun p => (cfgs p).toPCfg_adm
/-- Each region's proof data at its entry contents: region 0's exact data read relationally, region 1's relational data. -/
def rdats : (p : Fin 2) → (c : Dev nD) → RDat τ (Elt F) Unit ℕ (UR sig nD τ) ℕ (Pipeline.pin (pcfgs (F := F)) admH p) c
  | ⟨0, _⟩ => fun c => (dat0 (V0 m) c).toR
  | ⟨1, _⟩ => fun c => rd1 (V1 m) Inv Out c
abbrev 𝒱₀ : Variants := Variants.none
abbrev L : GSem nD τ sig → Finset Unit := fun _ => ∅
abbrev lv : GSem nD τ sig → Unit → ℕ := fun _ _ => 0
/-- What rides beside the buffers: the generator register at some state, the core owing nothing. -/
abbrev R (c : Dev nD) : sProp 𝕄 := iprop((∃ r, prngReg c r) ∗ ∃ W, owes (c : Thread nD τ) (0 : CellTallies nD τ sig Unit) W)
/-- The last thread state (beside the core owing nothing): region 1's arrays as the region left them, the buffers that
    bypassed it, the generator register. -/
abbrev Tₙ (c : Dev nD) : sProp 𝕄 :=
  iprop((rdats m Inv Out 1 c).arraysAt cfg1.N
    ∗ Pipeline.unscopedRest (Ix := Unit) (Name := ℕ) (U := UR sig nD τ) (Lvl := ℕ) spec1 c (V1 m c) ∗ ∃ r, prngReg c r)

/-- What the exact data's arrays may hold after the write-backs is what `arrAt` names. -/
theorem arraysAt_toR {cfg : Cfg sig Λ₀} {c : Dev nD} (dat : Dat τ (Elt F) Unit ℕ (UR sig nD τ) ℕ cfg c) (n : ℕ) :
    (dat.toR.arraysAt n : sProp 𝕄) ⊢ dat.toR.arrays (dat.arrAt · n) := by
  unfold RDat.arraysAt RDat.arrays
  refine Idealize.SL.BI.bigSep_mono fun w _ => ?_
  show (iprop(∃ Fv, ⌜dat.toR.ArrAt w n Fv⌝ ∗ (cfg.win w).arr.view.loc (c : Thread nD τ) ↦[(cfg.win w).arr.view.set]{dat.toR.share w} Fv) : sProp 𝕄)
    ⊢ ((cfg.win w).arr.view.loc (c : Thread nD τ) ↦[(cfg.win w).arr.view.set]{dat.toR.share w} dat.arrAt w n)
  iintro ⟨%Fv, %hFv, H⟩
  obtain rfl := dat.toR_arrAt w n Fv hFv
  iexact H

/-! ## The regions as segments -/

/-- Region K's arrays and the buffers that bypass it, put back among the core's unscoped buffers at a valuation that has
    the arrays at `Fw` and agrees with the entry valuation off them. -/
theorem unscopedBufs_of_arrays0 (c : Dev nD) (Fw : (w : Fin cfg0.W) → Buf (Elt F) ((spec0 w).arr.view.loc (c : Thread nD τ)))
    (V V' : (b : Ref sig .tc) → Buf (Elt F) ((c : Thread nD τ).loc b)) (hF : ∀ w, Fw w = V' (Pipeline.arrRef spec0 w))
    (hrest : ∀ b, b ∉ Finset.univ.image (Pipeline.arrRef spec0) → V' b = V b) :
    iprop((rdats m Inv Out 0 c).arrays Fw ∗ Pipeline.unscopedRest (Ix := Unit) (Name := ℕ) (U := UR sig nD τ) (Lvl := ℕ) spec0 c V)
      ⊢ (unscopedBufs c V' : sProp 𝕄) := by
  rw [Pipeline.unscopedBufs_split (Pipeline.pin (pcfgs (F := F)) admH) 0 launch0.win.arr_unscoped launch0.win.arr_inj c V',
    Pipeline.RDat.arrays_eq (pcfgs (F := F)) admH (rdats m Inv Out) 0 c launch0.arr_whole ((rdats m Inv Out 0 c).share_full fun _ => rfl)]
  refine sep_mono (Entails.of_eq (bigSep_congr fun w _ => by rw [hF]; rfl)) (Entails.of_eq ?_)
  unfold Pipeline.unscopedRest
  exact bigSep_congr fun b hb => by rw [hrest b (Finset.mem_sdiff.mp hb).2]

/-- What region 0's entry hands its kernel — the generator register, no table, the scoped buffers no window stages — is the
    kernel's entry resources; and back. -/
theorem hinSeg0 (c : Dev nD) :
    iprop((∃ r, prngReg c r) ∗ Pipeline.prefHeld (pcfgs (F := F) 0).pre c (fun _ => fullShare) (admH (F := F) 0).1
        ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
theorem houtSeg0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- What region 1's entry hands its kernel — the generator register, no table, the scoped buffers no window stages — is the
    kernel's entry resources; and back. -/
theorem hinSeg1 (c : Dev nD) :
    iprop((∃ r, prngReg c r) ∗ Pipeline.prefHeld (pcfgs (F := F) 1).pre c (fun _ => fullShare) (admH (F := F) 1).1
        ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
theorem houtSeg1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- REGION 0: entered from every unscoped buffer as launched, left with its arrays at what the write-backs made of them. -/
def reg0 : Pipeline.RDat.RegionSeg (pcfgs (F := F)) admH (rdats m Inv Out) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) admH (rdats m Inv Out) launch0.win launch0.arr_whole c
      ((rdats m Inv Out 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (hinSeg0 c).trans (hin0 (V0 m) c)
  hout c := by
    rw [Pipeline.ownSems0_none]
    exact (hout0 (V0 m) c).trans (houtSeg0 c)
  hexit c := by
    have hjoin := unscopedBufs_of_arrays0 m Inv Out c ((dat0 (V0 m) c).arrAt · cfg0.N) (V0 m c) (V1 m c) (hF0 m c) (hrest0 m c)
    rw [Pipeline.unscopedBufs_held] at hjoin
    iintro ⟨Ha, HO, HY, Hrest⟩
    imodintro
    isplitl [Ha Hrest]
    · iapply hjoin
      isplitl [Ha]
      · iapply (arraysAt_toR (dat0 (V0 m) c) cfg0.N); iexact Ha
      iexact Hrest
    isplitl [HY]; · iexact HY
    unfold Pipeline.RDat.owesAt Pipeline.owesWithin
    icases HO with ⟨%W, -, HO⟩; iexists W; iexact HO

set_option backward.isDefEq.respectTransparency.types false in
/-- REGION 1: entered from what region 0 left; its arrays are kept as the region leaves them (what is known of the output
    array is `RDat.ArrAt`), the buffers that bypass it beside them. -/
def reg1 (hS : Steps1 (V1 m) Inv Out) : Pipeline.RDat.RegionSeg (pcfgs (F := F)) admH (rdats m Inv Out) () defs₀ 𝒱₀ L lv 1 where
  win := launch1.win.to₀
  block_pos := launch1.block_pos
  stage_whole := launch1.stage_whole
  K := PEmpty
  osem k := k.elim
  ho := Pipeline.OwnSemFacts.none _
  hbody c := body_obligation1 (V1 m) Inv Out hS c
  hwaits := Pipeline.RDat.hwaits_of_owed_zero _ _ _ _ L lv 1 fun _ _ => rfl
  pre c := iprop(StableHlo.held (c : Thread nD τ) (Pipeline.ucRefs τ sig) (W1 m c) ∗ R c)
  post c := iprop(Tₙ m Inv Out c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.RDat.arrays_of_unscopedBufs (p := 1) (pcfgs (F := F)) admH (rdats m Inv Out) launch1.win launch1.arr_whole c
      ((rdats m Inv Out 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (hinSeg1 c).trans (hin1 (V1 m) Inv Out c)
  hout c := by
    rw [Pipeline.ownSems0_none]
    exact (hout1 (V1 m) Inv Out c).trans (houtSeg1 c)
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs (hS : Steps1 (V1 m) Inv Out) : List (Pipeline.RDat.Seg (pcfgs (F := F)) admH (rdats m Inv Out) () defs₀ 𝒱₀ L lv) :=
  [ .region (reg0 m Inv Out), .region (reg1 m Inv Out hS) ]

theorem main_run (hS : Steps1 (V1 m) Inv Out) (c : Dev nD) : main (F := F) c = Pipeline.RDat.Seg.run (segs m Inv Out hS) :=
  (main_chain c).trans (by chain_rfl)

/-- What the run concludes of the final memory on core `c`: of region 1's arrays what their write-backs allow, the three
    buffers that bypass region 1 at their contents at its entry. -/
def Final (c : Dev nD) (s : MemSt nD τ sig (Elt F)) : Prop :=
  (∀ w, (rdats m Inv Out 1 c).ArrAt w cfg1.N (s.mem ((spec1 w).arr.view.loc (c : Thread nD τ))))
  ∧ s.mem ((c : Thread nD τ).loc main_arg0) = V1 m c main_arg0
  ∧ s.mem ((c : Thread nD τ).loc main_arg1) = V1 m c main_arg1
  ∧ s.mem ((c : Thread nD τ).loc main_arg2) = V1 m c main_arg2

set_option backward.isDefEq.respectTransparency.types false in
/-- THE RUN. From any memory with zero counters every weakly fair execution of @main terminates, nothing faulting, and the
    final memory satisfies `Final` on every core. -/
theorem run (hS : Steps1 (V1 m) Inv Out) :
    θ_run defs (onTc (τ := τ) (main (F := F))) ⟨m, fun _ => 0, ρ⟩ (fun r => ∀ c : Dev nD, Final m Inv Out c r.2) :=
  Pipeline.RDat.θ_run_regions_kit (pcfgs (F := F)) admH (rdats m Inv Out) () cellOf_inj emb₁ defs₀ 𝒱₀ L lv m ρ main (segs m Inv Out hS)
    (fun c Q => by rw [main_run m Inv Out hS c])
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m Inv Out)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := Final m Inv Out)
    (hfin := fun c s' => by
      have hread := Pipeline.RDat.arrays_read (p := 1) (pcfgs (F := F)) admH (rdats m Inv Out) launch1.arr_whole c cfg1.N s'
      iintro ⟨⟨Ha, Hrest, -⟩, HSI⟩
      ihave H1 := hread $$ [Ha HSI]
      · isplitl [Ha] <;> iassumption
      icases H1 with ⟨%h1, HSI⟩
      unfold Pipeline.unscopedRest
      ihave H2 := (pointsTo_read_all _ (fun b : Ref sig .tc => ((c : Thread nD τ).loc b)) (fun b => V1 m c b) s') $$ [Hrest HSI]
      · isplitl [Hrest] <;> iassumption
      icases H2 with ⟨%h2, HSI⟩
      imodintro
      isplitr
      · ipureintro
        exact ⟨h1, h2 main_arg0 (by decide), h2 main_arg1 (by decide), h2 main_arg2 (by decide)⟩
      · iexact HSI)
    (hQ := fun s h c => h c)

/-! ## The frame -/

/-- The five argument arrays end as launched: the first three bypass region 1 and were inputs of region 0, the last two are
    inputs of region 1 (never written) and bypassed region 0. -/
theorem args_kept (c : Dev nD) (s : MemSt nD τ sig (Elt F)) (h : Final m Inv Out c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4) := by
  obtain ⟨hA, h0, h1, h2⟩ := h
  refine ⟨h0.trans (V1_main_arg0 m c), h1.trans (V1_main_arg1 m c), h2.trans (V1_main_arg2 m c), ?_, ?_⟩
  · have h3 := hA 1
    rw [(rdats m Inv Out 1 c).ArrAt_in 1 rfl cfg1.N] at h3
    exact h3.trans ((A_eq1 (V1 m) Inv Out c 1).trans (V1_main_arg3 m c))
  · have h4 := hA 2
    rw [(rdats m Inv Out 1 c).ArrAt_in 2 rfl cfg1.N] at h4
    exact h4.trans ((A_eq1 (V1 m) Inv Out c 2).trans (V1_main_arg4 m c))

/-- Asking nothing of region 1's accumulators and output is an invariant of its steps. -/
theorem steps_trivial (V : (c : Dev nD) → (b : Ref sig .tc) → Buf (Elt F) ((c : Thread nD τ).loc b)) :
    Steps1 V (fun _ _ _ _ => True) (fun _ _ _ => True) :=
  ⟨fun _ _ _ _ _ _ _ _ _ => trivial, fun _ _ _ _ _ _ _ _ _ _ _ _ => trivial, fun _ _ _ _ _ _ => trivial⟩

/-- THE FRAME, at any float instance: every weakly fair execution terminates, nothing faulting, and the argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m _ _ c r.2 (h c)) (run m ρ _ _ (steps_trivial (V1 m)))

end

end Cert.Kernel.Hand
end
-- ==== Proof.KernelIdeal.Body0.lean ====
/-
  The body of kernel 0 (one step of a blocked linear layer) on whole buffers, at any float instance.

  The body keeps two scratch accumulators across the steps of the reduction axis: `acc` (the matrix product so far)
  and `bsum` (the bias tensor's sum over the contracted axis so far). Every access of the body is a whole buffer,
  so one call takes `acc` to `k0_pay3 x w acc₀` (`acc₀ +` this block's product) and `bsum` to `k0_pay4 bsum₀ b` (`bsum₀ +`
  this block's sums over its middle axis), where `acc₀`, `bsum₀` are the zero fills `k0_pay1`, `k0_pay2` at the first step
  of the reduction and the carried contents otherwise; at the last step it also stores `k0_pay5` of the two new
  accumulators — their sum scaled by the reciprocal of the contracted extent, clamped below at zero — into the output block,
  which no other step touches. Three cases meet the grid (first, middle, last step); each is one symbolic run.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Lib.WholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first conditional: the reduction coordinate is 0. -/
abbrev first0 (i : grid0.Coords) : Prop := (Scalar.cmpi .ne (Scalar.extui (Scalar.cmpi .eq (BitVec.ofNat 32 (i 1).val) 0#32)) 0#32) = 1#1
/-- Its second: the reduction coordinate is the last. -/
abbrev last0 (i : grid0.Coords) : Prop := k0_cond2 i = 1#1

set_option maxHeartbeats 1000000 in
/-- A MIDDLE step of the reduction: the accumulator gains this block's product, the bias sum this block's sums;
    the output block is not touched. -/
theorem body0_mid (c : Dev nD) (E : Set ℕ) (i : grid0.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first0 i) (hc1 : ¬last0 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg6 fullShare (k0_pay3 x0 x1 a) ∗ owns (c : Thread nD τ) arg7 fullShare (k0_pay4 s x2)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    rw [read_writes_whole _ _ zeros2, readAt_whole arg2 harg2 zeros2, readAt_whole arg3 harg3 zeros2, readAt_whole arg6 harg6 zeros2]
  · iexists _; isplitr
    swap; · iexact H7
    ipureintro
    rw [read_writes_whole _ _ zeros2, readAt_whole arg7 harg7 zeros2, readAt_whole arg4 harg4 zeros3]

set_option maxHeartbeats 1000000 in
/-- The FIRST step of the reduction: both scratch buffers are zero-filled first, whatever they held. -/
theorem body0_first (c : Dev nD) (E : Set ℕ) (i : grid0.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : first0 i) (hc1 : ¬last0 i)
    (x0 : Vec F S100x128 .f32) (x1 : Vec F S128x256 .f32) (x2 : Vec F S100x128x256 .f32) (K : PUnit → sProp 𝕄) :
    iprop(owns (c : Thread nD τ) arg2 fullShare x0 ∗ owns (c : Thread nD τ) arg3 fullShare x1 ∗ owns (c : Thread nD τ) arg4 fullShare x2
        ∗ (∃ a, owns (c : Thread nD τ) arg6 fullShare a) ∗ (∃ s, owns (c : Thread nD τ) arg7 fullShare s)
        ∗ (iprop(owns (c : Thread nD τ) arg2 fullShare x0 ∗ owns (c : Thread nD τ) arg3 fullShare x1 ∗ owns (c : Thread nD τ) arg4 fullShare x2
            ∗ owns (c : Thread nD τ) arg6 fullShare (k0_pay3 x0 x1 (k0_pay1 (F := F))) ∗ owns (c : Thread nD τ) arg7 fullShare (k0_pay4 (k0_pay2 (F := F)) x2)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%a, %f6, %hf6, H6⟩, ⟨%s, %f7, %hf7, H7⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    sl_unfold_run_names
    rw [read_writes_whole _ _ zeros2, readAt_whole arg2 harg2 zeros2, readAt_whole arg3 harg3 zeros2, View.readCov_unit_zero _ zeros2]
  · iexists _; isplitr
    swap; · iexact H7
    ipureintro
    sl_unfold_run_names
    rw [read_writes_whole _ _ zeros2, View.readCov_unit_zero _ zeros2, readAt_whole arg4 harg4 zeros3]

set_option maxHeartbeats 1000000 in
/-- The LAST step of the reduction: after the two updates the output block is stored from the two scratch buffers. -/
theorem body0_last (c : Dev nD) (E : Set ℕ) (i : grid0.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first0 i) (hc1 : last0 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 (k0_pay3 x0 x1 a) (k0_pay4 s x2))
            ∗ owns (c : Thread nD τ) arg6 fullShare (k0_pay3 x0 x1 a) ∗ owns (c : Thread nD τ) arg7 fullShare (k0_pay4 s x2)) -∗ K ⟨⟩))
      ⊢ wp frame (wpE (defs₀ (F := F)) Variants.none c none) E (cc0__fused_linear_kernel i arg2 harg2 arg3 harg3 arg4 harg4 arg5 harg5 arg6 harg6 arg7 harg7) K := by
  simp only [cc0__fused_linear_kernel_eq_skeleton]; unfold cc0__fused_linear_kernel_skel
  unfold owns
  iintro ⟨⟨%f0, %hf0, H0⟩, ⟨%f1, %hf1, H1⟩, ⟨%f2, %hf2, H2⟩, ⟨%d, %f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_whole _ _ zeros2, View.readCov_unit_zero _ zeros2, View.readCov_unit_zero _ zeros2, readAt_whole arg2 harg2 zeros2, readAt_whole arg3 harg3 zeros2,
      readAt_whole arg6 harg6 zeros2, readAt_whole arg7 harg7 zeros2, readAt_whole arg4 harg4 zeros3]
  isplitl [H6]
  · iexists _; isplitr
    swap; · iexact H6
    ipureintro
    sl_unfold_run_names
    rw [read_writes_whole _ _ zeros2, readAt_whole arg2 harg2 zeros2, readAt_whole arg3 harg3 zeros2, readAt_whole arg6 harg6 zeros2]
  · iexists _; isplitr
    swap; · iexact H7
    ipureintro
    sl_unfold_run_names
    rw [read_writes_whole _ _ zeros2, readAt_whole arg7 harg7 zeros2, readAt_whole arg4 harg4 zeros3]

end Cert.KernelIdeal.Hand
end
-- ==== Proof.KernelIdeal.Region0.lean ====
/-
  Region 0 (the first linear layer) as a pipeline, at any float instance: what each window's staging buffer and the
  two scratch accumulators hold point by point, as functions of the arrays the region is entered with.

  The grid is 4 output tiles × 16 reduction steps, the reduction innermost, so point `t` is step `t % 16` of tile
  `t / 16`. No window is clipped: the three inputs are fetched whole at every point, so the body finds their blocks.
  After point `t` the scratch pair is `scr0 t`: at a first step the block's product and sums added to the zero
  fills, otherwise added to `scr0 (t - 1)`. The output block is stored at the last step of a tile only — from
  `scr0 t` — and written back there; at the other steps the body hands the buffer back as it found it.
  The invariant between points holds the two scratch buffers at `scr0` of the point before, and keeps every other
  scoped buffer and the generator register behind one implication (give the two scratch buffers back at any
  contents and the region's entry resources are whole again), so that none of them need be named.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.KernelIdeal.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The schedule in closed form -/

theorem hfirst0 : ∀ t : Fin cfg0.N, first0 (grid0.coords t) ↔ t.val % 16 = 0 :=
  (by decide +kernel : ∀ t : Fin grid0.N, first0 (grid0.coords t) ↔ t.val % 16 = 0)
theorem hlast0 : ∀ t : Fin cfg0.N, last0 (grid0.coords t) ↔ t.val % 16 = 15 :=
  (by decide +kernel : ∀ t : Fin grid0.N, last0 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem liveAt0_3 : ∀ t : Fin cfg0.N, last0 (grid0.coords t) → cfg0.idle 3 (grid0.coords t) = false := by decide +kernel

/-! ## The blocks and the accumulators -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch accumulators after the body at position `n`: (product so far, bias sum so far) of the tile. -/
def scr0 (c : Dev nD) : (n : ℕ) → n < cfg0.N → Vec F S100x256 .f32 × Vec F S100x256 .f32
  | 0, hn => (k0_pay3 (iblk0 V c 0 ⟨0, hn⟩) (iblk0 V c 1 ⟨0, hn⟩) (k0_pay1 (F := F)), k0_pay4 (k0_pay2 (F := F)) (iblk0 V c 2 ⟨0, hn⟩))
  | n + 1, hn =>
    if (n + 1) % 16 = 0 then
      (k0_pay3 (iblk0 V c 0 ⟨n + 1, hn⟩) (iblk0 V c 1 ⟨n + 1, hn⟩) (k0_pay1 (F := F)), k0_pay4 (k0_pay2 (F := F)) (iblk0 V c 2 ⟨n + 1, hn⟩))
    else
      (k0_pay3 (iblk0 V c 0 ⟨n + 1, hn⟩) (iblk0 V c 1 ⟨n + 1, hn⟩) (scr0 c n (Nat.lt_of_succ_lt hn)).1,
        k0_pay4 (scr0 c n (Nat.lt_of_succ_lt hn)).2 (iblk0 V c 2 ⟨n + 1, hn⟩))

/-- At a first step the accumulators start from the zero fills. -/
theorem scr0_first (c : Dev nD) (t : Fin cfg0.N) (h : t.val % 16 = 0) :
    scr0 V c t.val t.isLt = (k0_pay3 (iblk0 V c 0 t) (iblk0 V c 1 t) (k0_pay1 (F := F)), k0_pay4 (k0_pay2 (F := F)) (iblk0 V c 2 t)) := by
  obtain ⟨n, hn⟩ := t
  cases n with
  | zero => rfl
  | succ n => exact (if_pos h).trans rfl

/-- At any other step they continue from the point before. -/
theorem scr0_next (c : Dev nD) (t : Fin cfg0.N) (h : ¬t.val % 16 = 0) :
    scr0 V c t.val t.isLt = (k0_pay3 (iblk0 V c 0 t) (iblk0 V c 1 t) (scr0 V c (t.val - 1) (Nat.lt_of_le_of_lt (Nat.sub_le _ _) t.isLt)).1,
      k0_pay4 (scr0 V c (t.val - 1) (Nat.lt_of_le_of_lt (Nat.sub_le _ _) t.isLt)).2 (iblk0 V c 2 t)) := by
  obtain ⟨n, hn⟩ := t
  cases n with
  | zero => exact absurd (Nat.zero_mod _) h
  | succ n => exact (if_neg h).trans rfl

/-! ## The invariant between points -/

abbrev scM0_0 : Memref sig .tc .vmem S100x256 .f32 := Memref.whole cc0_scratch0
abbrev scM0_1 : Memref sig .tc .vmem S100x256 .f32 := Memref.whole cc0_scratch1

/-- Everything the region's entry hands the kernel except the two scratch buffers: give those back, at any contents,
    and the entry resources (every scoped buffer no window stages, the generator register) are whole again. -/
def restOf0 (c : Dev nD) : sProp 𝕄 :=
  iprop(((∃ d, owns (c : Thread nD τ) scM0_0 fullShare d) ∗ (∃ d, owns (c : Thread nD τ) scM0_1 fullShare d)) -∗ Pipeline.ΦA spec0 c)

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ restOf0 (F := F) c) := by
  unfold restOf0 Pipeline.ΦA; rw [scopedRest0_eq]; simp only [owns_whole]
  iintro ⟨⟨H0, H1, Hrest⟩, Hg⟩
  isplitl [H0]; · iexact H0
  isplitl [H1]; · iexact H1
  iintro ⟨H0, H1⟩
  isplitr [Hg]
  · isplitl [H0]; · iexact H0
    isplitl [H1]; · iexact H1
    iexact Hrest
  · iexact Hg

theorem PhiA0_join (c : Dev nD) :
    iprop((∃ d, owns (c : Thread nD τ) scM0_0 fullShare d) ∗ (∃ d, owns (c : Thread nD τ) scM0_1 fullShare d) ∗ restOf0 (F := F) c) ⊢ (Pipeline.ΦA spec0 c : sProp 𝕄) := by
  unfold restOf0
  iintro ⟨H0, H1, Hw⟩
  iapply Hw
  isplitl [H0]; · iexact H0
  iexact H1

/-- The invariant before position `n`: the entry resources before the first point; afterwards the two scratch buffers
    at what the point before left, beside the rest. -/
def PhiS0 (c : Dev nD) : (n : ℕ) → n ≤ cfg0.N → sProp 𝕄
  | 0, _ => Pipeline.ΦA spec0 c
  | n + 1, hn => iprop(owns (c : Thread nD τ) scM0_0 fullShare (scr0 V c n hn).1 ∗ owns (c : Thread nD τ) scM0_1 fullShare (scr0 V c n hn).2 ∗ restOf0 c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (scr0 V c n hn).1 ∗ owns (c : Thread nD τ) scM0_1 fullShare (scr0 V c n hn).2 ∗ restOf0 c) := rfl
theorem PhiS0_pos (c : Dev nD) (n : ℕ) (h : n ≤ cfg0.N) (hz : n ≠ 0) :
    PhiS0 V c n h = iprop(owns (c : Thread nD τ) scM0_0 fullShare (scr0 V c (n - 1) (by omega)).1 ∗ owns (c : Thread nD τ) scM0_1 fullShare (scr0 V c (n - 1) (by omega)).2 ∗ restOf0 c) := by
  cases n with
  | zero => exact absurd rfl hz
  | succ n => rfl

/-! ## The proof data -/

/-- The proof data of region 0 on core `c`: the arrays as the region finds them; after the body each input's buffer at its
    block, the output's at the block stored from the accumulators of that point; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (scr0 V c t.val t.isLt).1 (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay5 (scr0 V c t.val t.isLt).1 (scr0 V c t.val t.isLt).2 := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]

/-- Each input is fetched at every point and no block is cut: the body finds the block. -/
theorem before0_0 (c : Dev nD) (t : Fin cfg0.N) (d) : (dat0 V c).before 0 t d = iblk0 V c 0 t := by
  unfold Dat.before; rw [if_pos (fetch0_0 t)]; unfold Dat.fetched Dat.blockOf iblk0; rw [A_eq0]; try rfl
theorem before0_1 (c : Dev nD) (t : Fin cfg0.N) (d) : (dat0 V c).before 1 t d = iblk0 V c 1 t := by
  unfold Dat.before; rw [if_pos (fetch0_1 t)]; unfold Dat.fetched Dat.blockOf iblk0; rw [A_eq0]; try rfl
theorem before0_2 (c : Dev nD) (t : Fin cfg0.N) (d) : (dat0 V c).before 2 t d = iblk0 V c 2 t := by
  unfold Dat.before; rw [if_pos (fetch0_2 t)]; unfold Dat.fetched Dat.blockOf iblk0; rw [A_eq0]; try rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the inputs' buffers hold their blocks; the closed forms say which step of the reduction the
    point is; the invariant hands the body the scratch pair at what the point before left (at anything at a first
    step) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0,
    show (dat0 V c).leavesExact 1 t = owns (c : Thread nD τ) (st0_1 t) fullShare ((dat0 V c).after 1 t) from by
      unfold Dat.leavesExact; rw [liveAt0_1 t], after0_1,
    show (dat0 V c).leavesExact 2 t = owns (c : Thread nD τ) (st0_2 t) fullShare ((dat0 V c).after 2 t) from by
      unfold Dat.leavesExact; rw [liveAt0_2 t], after0_2]
  have hN : t.val < 64 := lt_of_lt_of_eq t.isLt (show cfg0.N = 64 from N_0)
  by_cases h0 : t.val % 16 = 0
  · have h1 : ¬t.val % 16 = 15 := by omega
    have hc0 : first0 (grid0.coords t) := (hfirst0 t).mpr h0
    have hc1 : ¬last0 (grid0.coords t) := fun h => h1 ((hlast0 t).mp h)
    rw [Dat.leavesExact_idle (dat0 V c) 3 t (idleAt0_3 t hc1) (noFlush0_3 t hc1), scr0_first V c t h0]
    have hΦ : (dat0 V c).Φ t.castSucc ⊢ iprop((∃ d, owns (c : Thread nD τ) scM0_0 fullShare d) ∗ (∃ d, owns (c : Thread nD τ) scM0_1 fullShare d) ∗ restOf0 (F := F) c) := by
      rw [PhiS0_castSucc V c t]
      by_cases hz : t.val = 0
      · rw [PhiS0_zero V c _ _ hz]; exact PhiA0_split c
      · rw [PhiS0_pos V c _ _ hz]
        iintro ⟨H0, H1, Hr⟩
        isplitl [H0]; · iexists _; iexact H0
        isplitl [H1]; · iexists _; iexact H1
        iexact Hr
    iintro ⟨HΦ, Ho, ⟨%d0, H0⟩, ⟨%d1, H1⟩, ⟨%d2, H2⟩, H3⟩
    ihave HΦ' := hΦ $$ HΦ
    icases HΦ' with ⟨HS0, HS1, Hr⟩
    iapply (body0_first c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) hc0 hc1 (iblk0 V c 0 t) (iblk0 V c 1 t) (iblk0 V c 2 t) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    iexact H3
  · have hz : t.val ≠ 0 := fun e => h0 (by rw [e])
    have hc0 : ¬first0 (grid0.coords t) := fun h => h0 ((hfirst0 t).mp h)
    rw [PhiS0_castSucc V c t, PhiS0_pos V c _ _ hz, scr0_next V c t h0]
    by_cases h1 : t.val % 16 = 15
    · have hc1 : last0 (grid0.coords t) := (hlast0 t).mpr h1
      rw [show (dat0 V c).leavesExact 3 t = owns (c : Thread nD τ) (st0_3 t) fullShare ((dat0 V c).after 3 t) from by
        unfold Dat.leavesExact; rw [liveAt0_3 t hc1], after0_3, scr0_next V c t h0]
      iintro ⟨⟨HS0, HS1, Hr⟩, Ho, ⟨%d0, H0⟩, ⟨%d1, H1⟩, ⟨%d2, H2⟩, ⟨%d3, H3⟩⟩
      iapply (body0_last c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) hc0 hc1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      iexact H3
    · have hc1 : ¬last0 (grid0.coords t) := fun h => h1 ((hlast0 t).mp h)
      rw [Dat.leavesExact_idle (dat0 V c) 3 t (idleAt0_3 t hc1) (noFlush0_3 t hc1)]
      iintro ⟨⟨HS0, HS1, Hr⟩, Ho, ⟨%d0, H0⟩, ⟨%d1, H1⟩, ⟨%d2, H2⟩, H3⟩
      iapply (body0_mid c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) hc0 hc1 (iblk0 V c 0 t) (iblk0 V c 1 t) (iblk0 V c 2 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Forgetting what the scratch buffers hold. -/
theorem forget0 (c : Dev nD) (a s : Vec F S100x256 .f32) :
    iprop(owns (c : Thread nD τ) scM0_0 fullShare a ∗ owns (c : Thread nD τ) scM0_1 fullShare s ∗ restOf0 (F := F) c)
      ⊢ iprop((∃ d, owns (c : Thread nD τ) scM0_0 fullShare d) ∗ (∃ d, owns (c : Thread nD τ) scM0_1 fullShare d) ∗ restOf0 (F := F) c) := by
  iintro ⟨H0, H1, Hr⟩
  isplitl [H0]; · iexists _; iexact H0
  isplitl [H1]; · iexists _; iexact H1
  iexact Hr

/-- What the launch hands the region is the invariant before the first point; after the last it gives it back. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega)]
  exact (forget0 c _ _).trans (PhiA0_join c)

end

end Cert.KernelIdeal.Hand
end
-- ==== Proof.KernelIdeal.Body1.lean ====
/-
  The body of kernel 1 (one step of a blocked linear layer) on whole buffers, at any float instance.

  The body keeps two scratch accumulators across the steps of the reduction axis: `acc` (the matrix product so far)
  and `bsum` (the bias tensor's sum over the contracted axis so far). Every access of the body is a whole buffer,
  so one call takes `acc` to `k1_pay3 x w acc₀` (`acc₀ +` this block's product) and `bsum` to `k1_pay4 bsum₀ b` (`bsum₀ +`
  this block's sums over its middle axis), where `acc₀`, `bsum₀` are the zero fills `k1_pay1`, `k1_pay2` at the first step
  of the reduction and the carried contents otherwise; at the last step it also stores `k1_pay5` of the two new
  accumulators — their sum scaled by the reciprocal of the contracted extent — into the output block,
  which no other step touches. Three cases meet the grid (first, middle, last step); each is one symbolic run.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Lib.WholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first conditional: the reduction coordinate is 0. -/
abbrev first1 (i : grid1.Coords) : Prop := (Scalar.cmpi .ne (Scalar.extui (Scalar.cmpi .eq (BitVec.ofNat 32 (i 1).val) 0#32)) 0#32) = 1#1
/-- Its second: the reduction coordinate is the last. -/
abbrev last1 (i : grid1.Coords) : Prop := k1_cond2 i = 1#1

set_option maxHeartbeats 1000000 in
/-- A MIDDLE step of the reduction: the accumulator gains this block's product, the bias sum this block's sums;
    the output block is not touched. -/
theorem body1_mid (c : Dev nD) (E : Set ℕ) (i : grid1.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first1 i) (hc1 : ¬last1 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg6 fullShare (k1_pay3 x0 x1 a) ∗ owns (c : Thread nD τ) arg7 fullShare (k1_pay4 s x2)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    rw [read_writes_whole _ _ zeros2, readAt_whole arg2 harg2 zeros2, readAt_whole arg3 harg3 zeros2, readAt_whole arg6 harg6 zeros2]
  · iexists _; isplitr
    swap; · iexact H7
    ipureintro
    rw [read_writes_whole _ _ zeros2, readAt_whole arg7 harg7 zeros2, readAt_whole arg4 harg4 zeros3]

set_option maxHeartbeats 1000000 in
/-- The FIRST step of the reduction: both scratch buffers are zero-filled first, whatever they held. -/
theorem body1_first (c : Dev nD) (E : Set ℕ) (i : grid1.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : first1 i) (hc1 : ¬last1 i)
    (x0 : Vec F S100x128 .f32) (x1 : Vec F S128x256 .f32) (x2 : Vec F S100x128x256 .f32) (K : PUnit → sProp 𝕄) :
    iprop(owns (c : Thread nD τ) arg2 fullShare x0 ∗ owns (c : Thread nD τ) arg3 fullShare x1 ∗ owns (c : Thread nD τ) arg4 fullShare x2
        ∗ (∃ a, owns (c : Thread nD τ) arg6 fullShare a) ∗ (∃ s, owns (c : Thread nD τ) arg7 fullShare s)
        ∗ (iprop(owns (c : Thread nD τ) arg2 fullShare x0 ∗ owns (c : Thread nD τ) arg3 fullShare x1 ∗ owns (c : Thread nD τ) arg4 fullShare x2
            ∗ owns (c : Thread nD τ) arg6 fullShare (k1_pay3 x0 x1 (k1_pay1 (F := F))) ∗ owns (c : Thread nD τ) arg7 fullShare (k1_pay4 (k1_pay2 (F := F)) x2)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%a, %f6, %hf6, H6⟩, ⟨%s, %f7, %hf7, H7⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    sl_unfold_run_names
    rw [read_writes_whole _ _ zeros2, readAt_whole arg2 harg2 zeros2, readAt_whole arg3 harg3 zeros2, View.readCov_unit_zero _ zeros2]
  · iexists _; isplitr
    swap; · iexact H7
    ipureintro
    sl_unfold_run_names
    rw [read_writes_whole _ _ zeros2, View.readCov_unit_zero _ zeros2, readAt_whole arg4 harg4 zeros3]

set_option maxHeartbeats 1000000 in
/-- The LAST step of the reduction: after the two updates the output block is stored from the two scratch buffers. -/
theorem body1_last (c : Dev nD) (E : Set ℕ) (i : grid1.Coords) (arg2 : Memref sig .tc .vmem S100x128 .f32) (harg2 : arg2.IsWhole) (arg3 : Memref sig .tc .vmem S128x256 .f32) (harg3 : arg3.IsWhole)
    (arg4 : Memref sig .tc .vmem S100x128x256 .f32) (harg4 : arg4.IsWhole) (arg5 : Memref sig .tc .vmem S100x256 .f32) (harg5 : arg5.IsWhole)
    (arg6 : Memref sig .tc .vmem S100x256 .f32) (harg6 : arg6.IsWhole) (arg7 : Memref sig .tc .vmem S100x256 .f32) (harg7 : arg7.IsWhole)
    (hc0 : ¬first1 i) (hc1 : last1 i)
    (x0 : Vec F S100x128 .f32) (x1 : Vec F S128x256 .f32) (x2 : Vec F S100x128x256 .f32) (a s : Vec F S100x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k1_pay5 (k1_pay3 x0 x1 a) (k1_pay4 s x2))
            ∗ owns (c : Thread nD τ) arg6 fullShare (k1_pay3 x0 x1 a) ∗ owns (c : Thread nD τ) arg7 fullShare (k1_pay4 s x2)) -∗ K ⟨⟩))
      ⊢ wp frame (wpE (defs₀ (F := F)) Variants.none c none) E (cc1__fused_linear_kernel i arg2 harg2 arg3 harg3 arg4 harg4 arg5 harg5 arg6 harg6 arg7 harg7) K := by
  simp only [cc1__fused_linear_kernel_eq_skeleton]; unfold cc1__fused_linear_kernel_skel
  unfold owns
  iintro ⟨⟨%f0, %hf0, H0⟩, ⟨%f1, %hf1, H1⟩, ⟨%f2, %hf2, H2⟩, ⟨%d, %f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_run_names
    rw [read_writes_whole _ _ zeros2, View.readCov_unit_zero _ zeros2, View.readCov_unit_zero _ zeros2, readAt_whole arg2 harg2 zeros2, readAt_whole arg3 harg3 zeros2,
      readAt_whole arg6 harg6 zeros2, readAt_whole arg7 harg7 zeros2, readAt_whole arg4 harg4 zeros3]
  isplitl [H6]
  · iexists _; isplitr
    swap; · iexact H6
    ipureintro
    sl_unfold_run_names
    rw [read_writes_whole _ _ zeros2, readAt_whole arg2 harg2 zeros2, readAt_whole arg3 harg3 zeros2, readAt_whole arg6 harg6 zeros2]
  · iexists _; isplitr
    swap; · iexact H7
    ipureintro
    sl_unfold_run_names
    rw [read_writes_whole _ _ zeros2, readAt_whole arg7 harg7 zeros2, readAt_whole arg4 harg4 zeros3]

end Cert.KernelIdeal.Hand
end
-- ==== Proof.KernelIdeal.Region1.lean ====
/-
  Region 1 (the second linear layer) as a pipeline, at any float instance, with its contents CONSTRAINED rather than named.

  The grid is 4 output tiles × 8 reduction steps, the reduction innermost. The weight, the bias tensor and the
  output are tiled along an axis of extent 1000 by blocks of 256, so the last tile's blocks overhang their arrays:
  a fetch fills the buffer's part inside the array with the array's block and leaves the rest at words nothing
  names, and the write-back moves only the part inside the array. What the body computes from those words is not a
  function of the arrays, so the two scratch accumulators cannot be named point by point. Instead this module takes
  a predicate `Inv c n a s` (what is known of the accumulators after position `n`) and a predicate `Out c t X` (what
  is known of the output buffer the last step of a tile leaves), with the three facts that make them an invariant
  of the body's steps — `Steps1`: a first step establishes `Inv` from the zero fills, a later step carries it on,
  the last step's store satisfies `Out` — whatever words fill out the blocks the body finds. The body obligation
  and the region's entry and exit then hold for any such pair; the instance `fun _ _ _ _ => True` is the frame,
  an instance that reads the columns inside the array is the value.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.KernelIdeal.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))
variable (Inv : Dev nD → ℕ → Vec F S100x256 .f32 → Vec F S100x256 .f32 → Prop)
variable (Out : (c : Dev nD) → Fin cfg1.N → Vec F S100x256 .f32 → Prop)

/-! ## The schedule in closed form -/

theorem hfirst1 : ∀ t : Fin cfg1.N, first1 (grid1.coords t) ↔ t.val % 8 = 0 :=
  (by decide +kernel : ∀ t : Fin grid1.N, first1 (grid1.coords t) ↔ t.val % 8 = 0)
theorem hlast1 : ∀ t : Fin cfg1.N, last1 (grid1.coords t) ↔ t.val % 8 = 7 :=
  (by decide +kernel : ∀ t : Fin grid1.N, last1 (grid1.coords t) ↔ t.val % 8 = 7)

/-! ## The blocks the body finds -/

/-- Window `w`'s block at point `t` — its part inside the array — read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What an input's buffer may hold when the body runs: the block on the part inside the array, any words elsewhere. -/
def Found1 (c : Dev nD) (w : Fin cfg1.W) (t : Fin cfg1.N) (Y : (cfg1.win w).block.Idx → Elt F (cfg1.win w).elt) : Prop :=
  ∃ d, Y = (cfg1.win w).fill (cfg1.grid.coords t) d (iblk1 V c w t)

/-- The two predicates are an invariant of the body's steps, whatever fills out the blocks. -/
structure Steps1 : Prop where
  first : ∀ (c : Dev nD) (t : Fin cfg1.N), t.val % 8 = 0 →
    ∀ (Y0 : Vec F S100x128 .f32) (Y1 : Vec F S128x256 .f32) (Y2 : Vec F S100x128x256 .f32),
      Found1 V c 0 t Y0 → Found1 V c 1 t Y1 → Found1 V c 2 t Y2 →
      Inv c t.val (k1_pay3 Y0 Y1 (k1_pay1 (F := F))) (k1_pay4 (k1_pay2 (F := F)) Y2)
  next : ∀ (c : Dev nD) (t : Fin cfg1.N), ¬t.val % 8 = 0 →
    ∀ (Y0 : Vec F S100x128 .f32) (Y1 : Vec F S128x256 .f32) (Y2 : Vec F S100x128x256 .f32),
      Found1 V c 0 t Y0 → Found1 V c 1 t Y1 → Found1 V c 2 t Y2 →
      ∀ a s, Inv c (t.val - 1) a s → Inv c t.val (k1_pay3 Y0 Y1 a) (k1_pay4 s Y2)
  out : ∀ (c : Dev nD) (t : Fin cfg1.N), t.val % 8 = 7 → ∀ a s, Inv c t.val a s → Out c t (k1_pay5 a s)

/-! ## The invariant between points -/

abbrev scM1_0 : Memref sig .tc .vmem S100x256 .f32 := Memref.whole cc1_scratch0
abbrev scM1_1 : Memref sig .tc .vmem S100x256 .f32 := Memref.whole cc1_scratch1

/-- Everything the region's entry hands the kernel except the two scratch buffers: give those back, at any contents,
    and the entry resources (every scoped buffer no window stages, the generator register) are whole again. -/
def restOf1 (c : Dev nD) : sProp 𝕄 :=
  iprop(((∃ d, owns (c : Thread nD τ) scM1_0 fullShare d) ∗ (∃ d, owns (c : Thread nD τ) scM1_1 fullShare d)) -∗ Pipeline.ΦA spec1 c)

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ restOf1 (F := F) c) := by
  unfold restOf1 Pipeline.ΦA; rw [scopedRest1_eq]; simp only [owns_whole]
  iintro ⟨⟨G0, G1, G2, G3, G4, G5, G6, G7, G8, G9, H0, H1⟩, Hg⟩
  isplitl [H0]; · iexact H0
  isplitl [H1]; · iexact H1
  iintro ⟨H0, H1⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [H0]; · iexact H0
    iexact H1
  · iexact Hg

theorem PhiA1_join (c : Dev nD) :
    iprop((∃ d, owns (c : Thread nD τ) scM1_0 fullShare d) ∗ (∃ d, owns (c : Thread nD τ) scM1_1 fullShare d) ∗ restOf1 (F := F) c) ⊢ (Pipeline.ΦA spec1 c : sProp 𝕄) := by
  unfold restOf1
  iintro ⟨H0, H1, Hw⟩
  iapply Hw
  isplitl [H0]; · iexact H0
  iexact H1

/-- The invariant before position `n`: the entry resources before the first point; afterwards the two scratch buffers
    at SOME contents of which `Inv` holds at the point before, beside the rest. -/
def PhiR1 (c : Dev nD) : (n : ℕ) → n ≤ cfg1.N → sProp 𝕄
  | 0, _ => Pipeline.ΦA spec1 c
  | n + 1, _ => iprop(∃ a s, ⌜Inv c n a s⌝ ∗ owns (c : Thread nD τ) scM1_0 fullShare a ∗ owns (c : Thread nD τ) scM1_1 fullShare s ∗ restOf1 c)

theorem PhiR1_zero (c : Dev nD) (n : ℕ) (h : n ≤ cfg1.N) (hz : n = 0) : PhiR1 Inv c n h = Pipeline.ΦA spec1 c := by
  subst hz; rfl
theorem PhiR1_succ (c : Dev nD) (n : ℕ) (hn : n + 1 ≤ cfg1.N) :
    PhiR1 Inv c (n + 1) hn = iprop(∃ a s, ⌜Inv c n a s⌝ ∗ owns (c : Thread nD τ) scM1_0 fullShare a ∗ owns (c : Thread nD τ) scM1_1 fullShare s ∗ restOf1 c) := rfl
theorem PhiR1_pos (c : Dev nD) (n : ℕ) (h : n ≤ cfg1.N) (hz : n ≠ 0) :
    PhiR1 Inv c n h = iprop(∃ a s, ⌜Inv c (n - 1) a s⌝ ∗ owns (c : Thread nD τ) scM1_0 fullShare a ∗ owns (c : Thread nD τ) scM1_1 fullShare s ∗ restOf1 c) := by
  cases n with
  | zero => exact absurd rfl hz
  | succ n => rfl

/-! ## The proof data -/

/-- The relational proof data of region 1 on core `c`: the arrays as the region finds them; nothing is asked of what the
    body leaves in an input's buffer (each is fetched again at the next point); of the output's buffer, at a tile's
    last step, `Out`; the invariant above; nothing owed. -/
def rd1 (c : Dev nD) : RDat τ (Elt F) Unit ℕ (UR sig nD τ) ℕ cfg1 c where
  A w := V c (Pipeline.arrRef spec1 w)
  after w t _ X := match w with
    | ⟨0, _⟩ => True
    | ⟨1, _⟩ => True
    | ⟨2, _⟩ => True
    | ⟨3, _⟩ => t.val % 8 = 7 → Out c t X
  Φ t := PhiR1 Inv c t.val (Nat.le_of_lt_succ t.isLt)
  q _ := fullShare
  owed _ := 0

theorem A_eq1 (c : Dev nD) (w : Fin cfg1.W) : (rd1 V Inv Out c).A w = V c (Pipeline.arrRef spec1 w) := by dsimp only [rd1]
theorem after1_in0 (c : Dev nD) (t : Fin cfg1.N) (Y X) : (rd1 V Inv Out c).after 0 t Y X := by dsimp only [rd1]
theorem after1_in1 (c : Dev nD) (t : Fin cfg1.N) (Y X) : (rd1 V Inv Out c).after 1 t Y X := by dsimp only [rd1]
theorem after1_in2 (c : Dev nD) (t : Fin cfg1.N) (Y X) : (rd1 V Inv Out c).after 2 t Y X := by dsimp only [rd1]
theorem after1_out (c : Dev nD) (t : Fin cfg1.N) (Y X) : (rd1 V Inv Out c).after 3 t Y X ↔ (t.val % 8 = 7 → Out c t X) := by
  dsimp only [rd1]; exact Iff.rfl
theorem PhiR1_castSucc (c : Dev nD) (t : Fin cfg1.N) : (rd1 V Inv Out c).Φ t.castSucc = PhiR1 Inv c t.val (Nat.le_of_lt t.isLt) := by
  dsimp only [rd1]; simp only [Fin.coe_castSucc]

/-- Each input is fetched at every point: what the body finds is the block filled out with words nothing names. -/
theorem found1_0 (c : Dev nD) (t : Fin cfg1.N) (Y) (h : (rd1 V Inv Out c).Finds 0 t Y) : Found1 V c 0 t Y := by
  obtain ⟨d, rfl⟩ := ((rd1 V Inv Out c).finds_of_fetch (fetch1_0 t) Y).mp h
  exact ⟨d, by unfold RDat.fetched RDat.blockOf iblk1; rw [A_eq1]⟩
theorem found1_1 (c : Dev nD) (t : Fin cfg1.N) (Y) (h : (rd1 V Inv Out c).Finds 1 t Y) : Found1 V c 1 t Y := by
  obtain ⟨d, rfl⟩ := ((rd1 V Inv Out c).finds_of_fetch (fetch1_1 t) Y).mp h
  exact ⟨d, by unfold RDat.fetched RDat.blockOf iblk1; rw [A_eq1]⟩
theorem found1_2 (c : Dev nD) (t : Fin cfg1.N) (Y) (h : (rd1 V Inv Out c).Finds 2 t Y) : Found1 V c 2 t Y := by
  obtain ⟨d, rfl⟩ := ((rd1 V Inv Out c).finds_of_fetch (fetch1_2 t) Y).mp h
  exact ⟨d, by unfold RDat.fetched RDat.blockOf iblk1; rw [A_eq1]⟩

/-! ## The body obligation -/

set_option maxHeartbeats 4000000 in
/-- The body at any point, on buffers holding what it may find there: the closed forms say which step of the reduction
    the point is; the invariant hands the body the scratch pair at contents of which `Inv` holds at the point before
    (at anything at a first step) and takes it back at the step's results, of which `Inv` holds by `Steps1`. -/
theorem sound_body1 (hS : Steps1 V Inv Out) (c : Dev nD) (t : Fin cfg1.N)
    (Y0 : Vec F S100x128 .f32) (Y1 : Vec F S128x256 .f32) (Y2 : Vec F S100x128x256 .f32) (Y3 : Vec F S100x256 .f32)
    (hY0 : Found1 V c 0 t Y0) (hY1 : Found1 V c 1 t Y1) (hY2 : Found1 V c 2 t Y2) :
    iprop((rd1 V Inv Out c).Φ t.castSucc ∗ (rd1 V Inv Out c).owesAt () t.castSucc
        ∗ owns (c : Thread nD τ) (st1_0 t) fullShare Y0 ∗ owns (c : Thread nD τ) (st1_1 t) fullShare Y1 ∗ owns (c : Thread nD τ) (st1_2 t) fullShare Y2 ∗ owns (c : Thread nD τ) (st1_3 t) fullShare Y3)
      ⊢ wp frame (wpE (defs₀ (F := F)) Variants.none c none) Set.univ (bodyAt1 t) (fun _ =>
          iprop((rd1 V Inv Out c).Φ t.succ ∗ (rd1 V Inv Out c).owesAt () t.succ
            ∗ (∃ X, ⌜(rd1 V Inv Out c).after 0 t Y0 X⌝ ∗ owns (c : Thread nD τ) (st1_0 t) fullShare X)
            ∗ (∃ X, ⌜(rd1 V Inv Out c).after 1 t Y1 X⌝ ∗ owns (c : Thread nD τ) (st1_1 t) fullShare X)
            ∗ (∃ X, ⌜(rd1 V Inv Out c).after 2 t Y2 X⌝ ∗ owns (c : Thread nD τ) (st1_2 t) fullShare X)
            ∗ (∃ X, ⌜(rd1 V Inv Out c).after 3 t Y3 X⌝ ∗ owns (c : Thread nD τ) (st1_3 t) fullShare X))) := by
  unfold bodyAt1
  rw [show (rd1 V Inv Out c).owesAt () t.succ = (rd1 V Inv Out c).owesAt () t.castSucc from rfl]
  rw [show (rd1 V Inv Out c).Φ t.succ = PhiR1 Inv c (t.val + 1) t.isLt from rfl, PhiR1_succ]
  have hN : t.val < 32 := lt_of_lt_of_eq t.isLt (show cfg1.N = 32 from N_1)
  by_cases h0 : t.val % 8 = 0
  · have h1 : ¬t.val % 8 = 7 := by omega
    have hc0 : first1 (grid1.coords t) := (hfirst1 t).mpr h0
    have hc1 : ¬last1 (grid1.coords t) := fun h => h1 ((hlast1 t).mp h)
    have hΦ : (rd1 V Inv Out c).Φ t.castSucc ⊢ iprop((∃ d, owns (c : Thread nD τ) scM1_0 fullShare d) ∗ (∃ d, owns (c : Thread nD τ) scM1_1 fullShare d) ∗ restOf1 (F := F) c) := by
      rw [PhiR1_castSucc V Inv Out c t]
      by_cases hz : t.val = 0
      · rw [PhiR1_zero Inv c _ _ hz]; exact PhiA1_split c
      · rw [PhiR1_pos Inv c _ _ hz]
        iintro ⟨%a, %s, -, H0, H1, Hr⟩
        isplitl [H0]; · iexists _; iexact H0
        isplitl [H1]; · iexists _; iexact H1
        iexact Hr
    iintro ⟨HΦ, Ho, H0, H1, H2, H3⟩
    ihave HΦ' := hΦ $$ HΦ
    icases HΦ' with ⟨HS0, HS1, Hr⟩
    iapply (body1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) hc0 hc1 Y0 Y1 Y2 _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr]
    · iexists _; iexists _; isplitr; · ipureintro; exact hS.first c t h0 Y0 Y1 Y2 hY0 hY1 hY2
      isplitl [HS0]; · iexact HS0
      isplitl [HS1]; · iexact HS1
      iexact Hr
    isplitl [Ho]; · iexact Ho
    isplitl [H0]
    · iexists Y0; isplitr; · ipureintro; exact after1_in0 V Inv Out c t _ _
      iexact H0
    isplitl [H1]
    · iexists Y1; isplitr; · ipureintro; exact after1_in1 V Inv Out c t _ _
      iexact H1
    isplitl [H2]
    · iexists Y2; isplitr; · ipureintro; exact after1_in2 V Inv Out c t _ _
      iexact H2
    · iexists Y3; isplitr; · ipureintro; exact (after1_out V Inv Out c t _ _).mpr fun h => absurd h h1
      iexact H3
  · have hz : t.val ≠ 0 := fun e => h0 (by rw [e])
    have hc0 : ¬first1 (grid1.coords t) := fun h => h0 ((hfirst1 t).mp h)
    rw [PhiR1_castSucc V Inv Out c t, PhiR1_pos Inv c _ _ hz]
    by_cases h1 : t.val % 8 = 7
    · have hc1 : last1 (grid1.coords t) := (hlast1 t).mpr h1
      iintro ⟨⟨%a, %s, %hI, HS0, HS1, Hr⟩, Ho, H0, H1, H2, H3⟩
      iapply (body1_last c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) hc0 hc1 Y0 Y1 Y2 a s _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr]
      · iexists _; iexists _; isplitr; · ipureintro; exact hS.next c t h0 Y0 Y1 Y2 hY0 hY1 hY2 a s hI
        isplitl [HS0]; · iexact HS0
        isplitl [HS1]; · iexact HS1
        iexact Hr
      isplitl [Ho]; · iexact Ho
      isplitl [H0]
      · iexists Y0; isplitr; · ipureintro; exact after1_in0 V Inv Out c t _ _
        iexact H0
      isplitl [H1]
      · iexists Y1; isplitr; · ipureintro; exact after1_in1 V Inv Out c t _ _
        iexact H1
      isplitl [H2]
      · iexists Y2; isplitr; · ipureintro; exact after1_in2 V Inv Out c t _ _
        iexact H2
      · iexists _; isplitr
        · ipureintro; exact (after1_out V Inv Out c t _ _).mpr fun _ => hS.out c t h1 _ _ (hS.next c t h0 Y0 Y1 Y2 hY0 hY1 hY2 a s hI)
        iexact H3
    · have hc1 : ¬last1 (grid1.coords t) := fun h => h1 ((hlast1 t).mp h)
      iintro ⟨⟨%a, %s, %hI, HS0, HS1, Hr⟩, Ho, H0, H1, H2, H3⟩
      iapply (body1_mid c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) hc0 hc1 Y0 Y1 Y2 a s _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · iexists _; iexists _; isplitr; · ipureintro; exact hS.next c t h0 Y0 Y1 Y2 hY0 hY1 hY2 a s hI
        isplitl [HS0]; · iexact HS0
        isplitl [HS1]; · iexact HS1
        iexact Hr
      isplitl [Ho]; · iexact Ho
      isplitl [H0]
      · iexists Y0; isplitr; · ipureintro; exact after1_in0 V Inv Out c t _ _
        iexact H0
      isplitl [H1]
      · iexists Y1; isplitr; · ipureintro; exact after1_in1 V Inv Out c t _ _
        iexact H1
      isplitl [H2]
      · iexists Y2; isplitr; · ipureintro; exact after1_in2 V Inv Out c t _ _
        iexact H2
      · iexists Y3; isplitr; · ipureintro; exact (after1_out V Inv Out c t _ _).mpr fun h => absurd h h1
        iexact H3

/-- The library's relational body obligation, at every point. -/
theorem body_obligation1 (hS : Steps1 V Inv Out) (c : Dev nD) :
    (rd1 (F := F) V Inv Out c).BodyObligation (defs₀ (F := F)) Variants.none () Set.univ := fun t Y hY => by
  rw [bigSep_W1, bigSep_W1]
  exact sound_body1 V Inv Out hS c t (Y 0) (Y 1) (Y 2) (Y 3) (found1_0 V Inv Out c t _ (hY 0)) (found1_1 V Inv Out c t _ (hY 1)) (found1_2 V Inv Out c t _ (hY 2))

/-- What the launch hands the region is the invariant before the first point; after the last it gives it back. -/
theorem hin1 (c : Dev nD) : Pipeline.ΦA spec1 c ⊢ (rd1 V Inv Out c).Φ 0 := by
  rw [show (rd1 V Inv Out c).Φ 0 = PhiR1 Inv c 0 (Nat.zero_le _) from rfl, PhiR1_zero Inv c 0 _ rfl]
  try exact Idealize.SL.BI.Entails.refl _

theorem forget1 (c : Dev nD) :
    iprop(∃ a s, ⌜Inv c (32 - 1) a s⌝ ∗ owns (c : Thread nD τ) scM1_0 fullShare a ∗ owns (c : Thread nD τ) scM1_1 fullShare s ∗ restOf1 (F := F) c)
      ⊢ iprop((∃ d, owns (c : Thread nD τ) scM1_0 fullShare d) ∗ (∃ d, owns (c : Thread nD τ) scM1_1 fullShare d) ∗ restOf1 (F := F) c) := by
  iintro ⟨%a, %s, -, H0, H1, Hr⟩
  isplitl [H0]; · iexists _; iexact H0
  isplitl [H1]; · iexists _; iexact H1
  iexact Hr

theorem hout1 (c : Dev nD) : (rd1 V Inv Out c).Φ (Fin.last cfg1.N) ⊢ Pipeline.ΦA spec1 c := by
  have hN : cfg1.N = 32 := N_1
  rw [show (rd1 V Inv Out c).Φ (Fin.last cfg1.N) = PhiR1 Inv c (Fin.last cfg1.N).val (Nat.le_of_lt_succ (Fin.last cfg1.N).isLt) from rfl,
    PhiR1_pos Inv c _ _ (by rw [Fin.val_last]; omega)]
  rw [show (Fin.last cfg1.N).val - 1 = 32 - 1 from by rw [Fin.val_last, hN]]
  exact (forget1 Inv c).trans (PhiA1_join c)

end

end Cert.KernelIdeal.Hand
end
-- ==== Proof.KernelIdeal.Run.lean ====
/-
  The run of the whole program — two kernel regions, nothing between them — at any float instance.

  Region 0 is entered with every buffer as launched; it leaves its output array at what its write-backs make of it
  (`Dat.arrAt` of region 0's exact proof data: a function of the launch memory) and every other buffer as it was.
  Region 1 is entered from that; its proof data is relational, so of its output array the run concludes
  `RDat.ArrAt`: the launch contents overwritten, tile by tile, by the part inside the array of SOME buffer of which
  `Out` holds. The five argument arrays end as launched: each is an input window of one region and bypasses the
  other. The run is stated for any predicates `Inv`, `Out` that are an invariant of region 1's body steps (`Steps1`).
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.KernelIdeal.Region0
import proofs.«132613_j6519760355912_2_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

section
variable (m : (ℓ : Loc nD τ sig) → Buf (Elt F) ℓ) (ρ : Dev nD → PrngReg)
variable (Inv : Dev nD → ℕ → Vec F S100x256 .f32 → Vec F S100x256 .f32 → Prop)
variable (Out : (c : Dev nD) → Fin cfg1.N → Vec F S100x256 .f32 → Prop)

/-! ## The buffers' contents at the two boundaries -/

/-- Core `c`'s buffers at launch: region 0's entry. -/
abbrev W0 : Dev nD → Valuation τ sig (Elt F) := fun c b => m (c, b)
abbrev V0 : (c : Dev nD) → (b : Ref sig .tc) → Buf (Elt F) ((c : Thread nD τ).loc b) := fun c b => W0 m c b
/-- At region 0's exit, which is region 1's entry: region 0's arrays at what its write-backs leave, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Region 0 reads the first three arguments through input windows and never sees the last two: at region 1's entry
    all five hold their launch contents. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg2 (c : Dev nD) : V1 m c main_arg2 = m ((c : Thread nD τ).loc main_arg2) :=
  (W1_arr m c 2).trans (((dat0 (V0 m) c).arrAt_in 2 rfl _).trans (A_eq0 (V0 m) c 2))
theorem V1_main_arg3 (c : Dev nD) : V1 m c main_arg3 = m ((c : Thread nD τ).loc main_arg3) :=
  W1_of_ne m c main_arg3 (by decide)
theorem V1_main_arg4 (c : Dev nD) : V1 m c main_arg4 = m ((c : Thread nD τ).loc main_arg4) :=
  W1_of_ne m c main_arg4 (by decide)
/-- And region 1's first input is region 0's output array as its write-backs left it. -/
theorem V1_main_v0 (c : Dev nD) : V1 m c main_v0 = (dat0 (V0 m) c).arrAt 3 cfg0.N := W1_arr m c 3

/-! ## The proof data family and the thread states -/

abbrev admH : (p : Fin 2) → (pcfgs (F := F) p).Adm := fun p => (cfgs p).toPCfg_adm
/-- Each region's proof data at its entry contents: region 0's exact data read relationally, region 1's relational data. -/
def rdats : (p : Fin 2) → (c : Dev nD) → RDat τ (Elt F) Unit ℕ (UR sig nD τ) ℕ (Pipeline.pin (pcfgs (F := F)) admH p) c
  | ⟨0, _⟩ => fun c => (dat0 (V0 m) c).toR
  | ⟨1, _⟩ => fun c => rd1 (V1 m) Inv Out c
abbrev 𝒱₀ : Variants := Variants.none
abbrev L : GSem nD τ sig → Finset Unit := fun _ => ∅
abbrev lv : GSem nD τ sig → Unit → ℕ := fun _ _ => 0
/-- What rides beside the buffers: the generator register at some state, the core owing nothing. -/
abbrev R (c : Dev nD) : sProp 𝕄 := iprop((∃ r, prngReg c r) ∗ ∃ W, owes (c : Thread nD τ) (0 : CellTallies nD τ sig Unit) W)
/-- The last thread state (beside the core owing nothing): region 1's arrays as the region left them, the buffers that
    bypassed it, the generator register. -/
abbrev Tₙ (c : Dev nD) : sProp 𝕄 :=
  iprop((rdats m Inv Out 1 c).arraysAt cfg1.N
    ∗ Pipeline.unscopedRest (Ix := Unit) (Name := ℕ) (U := UR sig nD τ) (Lvl := ℕ) spec1 c (V1 m c) ∗ ∃ r, prngReg c r)

/-- What the exact data's arrays may hold after the write-backs is what `arrAt` names. -/
theorem arraysAt_toR {cfg : Cfg sig Λ₀} {c : Dev nD} (dat : Dat τ (Elt F) Unit ℕ (UR sig nD τ) ℕ cfg c) (n : ℕ) :
    (dat.toR.arraysAt n : sProp 𝕄) ⊢ dat.toR.arrays (dat.arrAt · n) := by
  unfold RDat.arraysAt RDat.arrays
  refine Idealize.SL.BI.bigSep_mono fun w _ => ?_
  show (iprop(∃ Fv, ⌜dat.toR.ArrAt w n Fv⌝ ∗ (cfg.win w).arr.view.loc (c : Thread nD τ) ↦[(cfg.win w).arr.view.set]{dat.toR.share w} Fv) : sProp 𝕄)
    ⊢ ((cfg.win w).arr.view.loc (c : Thread nD τ) ↦[(cfg.win w).arr.view.set]{dat.toR.share w} dat.arrAt w n)
  iintro ⟨%Fv, %hFv, H⟩
  obtain rfl := dat.toR_arrAt w n Fv hFv
  iexact H

/-! ## The regions as segments -/

/-- Region K's arrays and the buffers that bypass it, put back among the core's unscoped buffers at a valuation that has
    the arrays at `Fw` and agrees with the entry valuation off them. -/
theorem unscopedBufs_of_arrays0 (c : Dev nD) (Fw : (w : Fin cfg0.W) → Buf (Elt F) ((spec0 w).arr.view.loc (c : Thread nD τ)))
    (V V' : (b : Ref sig .tc) → Buf (Elt F) ((c : Thread nD τ).loc b)) (hF : ∀ w, Fw w = V' (Pipeline.arrRef spec0 w))
    (hrest : ∀ b, b ∉ Finset.univ.image (Pipeline.arrRef spec0) → V' b = V b) :
    iprop((rdats m Inv Out 0 c).arrays Fw ∗ Pipeline.unscopedRest (Ix := Unit) (Name := ℕ) (U := UR sig nD τ) (Lvl := ℕ) spec0 c V)
      ⊢ (unscopedBufs c V' : sProp 𝕄) := by
  rw [Pipeline.unscopedBufs_split (Pipeline.pin (pcfgs (F := F)) admH) 0 launch0.win.arr_unscoped launch0.win.arr_inj c V',
    Pipeline.RDat.arrays_eq (pcfgs (F := F)) admH (rdats m Inv Out) 0 c launch0.arr_whole ((rdats m Inv Out 0 c).share_full fun _ => rfl)]
  refine sep_mono (Entails.of_eq (bigSep_congr fun w _ => by rw [hF]; rfl)) (Entails.of_eq ?_)
  unfold Pipeline.unscopedRest
  exact bigSep_congr fun b hb => by rw [hrest b (Finset.mem_sdiff.mp hb).2]

/-- What region 0's entry hands its kernel — the generator register, no table, the scoped buffers no window stages — is the
    kernel's entry resources; and back. -/
theorem hinSeg0 (c : Dev nD) :
    iprop((∃ r, prngReg c r) ∗ Pipeline.prefHeld (pcfgs (F := F) 0).pre c (fun _ => fullShare) (admH (F := F) 0).1
        ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
theorem houtSeg0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- What region 1's entry hands its kernel — the generator register, no table, the scoped buffers no window stages — is the
    kernel's entry resources; and back. -/
theorem hinSeg1 (c : Dev nD) :
    iprop((∃ r, prngReg c r) ∗ Pipeline.prefHeld (pcfgs (F := F) 1).pre c (fun _ => fullShare) (admH (F := F) 1).1
        ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
theorem houtSeg1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- REGION 0: entered from every unscoped buffer as launched, left with its arrays at what the write-backs made of them. -/
def reg0 : Pipeline.RDat.RegionSeg (pcfgs (F := F)) admH (rdats m Inv Out) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) admH (rdats m Inv Out) launch0.win launch0.arr_whole c
      ((rdats m Inv Out 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (hinSeg0 c).trans (hin0 (V0 m) c)
  hout c := by
    rw [Pipeline.ownSems0_none]
    exact (hout0 (V0 m) c).trans (houtSeg0 c)
  hexit c := by
    have hjoin := unscopedBufs_of_arrays0 m Inv Out c ((dat0 (V0 m) c).arrAt · cfg0.N) (V0 m c) (V1 m c) (hF0 m c) (hrest0 m c)
    rw [Pipeline.unscopedBufs_held] at hjoin
    iintro ⟨Ha, HO, HY, Hrest⟩
    imodintro
    isplitl [Ha Hrest]
    · iapply hjoin
      isplitl [Ha]
      · iapply (arraysAt_toR (dat0 (V0 m) c) cfg0.N); iexact Ha
      iexact Hrest
    isplitl [HY]; · iexact HY
    unfold Pipeline.RDat.owesAt Pipeline.owesWithin
    icases HO with ⟨%W, -, HO⟩; iexists W; iexact HO

set_option backward.isDefEq.respectTransparency.types false in
/-- REGION 1: entered from what region 0 left; its arrays are kept as the region leaves them (what is known of the output
    array is `RDat.ArrAt`), the buffers that bypass it beside them. -/
def reg1 (hS : Steps1 (V1 m) Inv Out) : Pipeline.RDat.RegionSeg (pcfgs (F := F)) admH (rdats m Inv Out) () defs₀ 𝒱₀ L lv 1 where
  win := launch1.win.to₀
  block_pos := launch1.block_pos
  stage_whole := launch1.stage_whole
  K := PEmpty
  osem k := k.elim
  ho := Pipeline.OwnSemFacts.none _
  hbody c := body_obligation1 (V1 m) Inv Out hS c
  hwaits := Pipeline.RDat.hwaits_of_owed_zero _ _ _ _ L lv 1 fun _ _ => rfl
  pre c := iprop(StableHlo.held (c : Thread nD τ) (Pipeline.ucRefs τ sig) (W1 m c) ∗ R c)
  post c := iprop(Tₙ m Inv Out c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.RDat.arrays_of_unscopedBufs (p := 1) (pcfgs (F := F)) admH (rdats m Inv Out) launch1.win launch1.arr_whole c
      ((rdats m Inv Out 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := (hinSeg1 c).trans (hin1 (V1 m) Inv Out c)
  hout c := by
    rw [Pipeline.ownSems0_none]
    exact (hout1 (V1 m) Inv Out c).trans (houtSeg1 c)
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs (hS : Steps1 (V1 m) Inv Out) : List (Pipeline.RDat.Seg (pcfgs (F := F)) admH (rdats m Inv Out) () defs₀ 𝒱₀ L lv) :=
  [ .region (reg0 m Inv Out), .region (reg1 m Inv Out hS) ]

theorem main_run (hS : Steps1 (V1 m) Inv Out) (c : Dev nD) : main (F := F) c = Pipeline.RDat.Seg.run (segs m Inv Out hS) :=
  (main_chain c).trans (by chain_rfl)

/-- What the run concludes of the final memory on core `c`: of region 1's arrays what their write-backs allow, the three
    buffers that bypass region 1 at their contents at its entry. -/
def Final (c : Dev nD) (s : MemSt nD τ sig (Elt F)) : Prop :=
  (∀ w, (rdats m Inv Out 1 c).ArrAt w cfg1.N (s.mem ((spec1 w).arr.view.loc (c : Thread nD τ))))
  ∧ s.mem ((c : Thread nD τ).loc main_arg0) = V1 m c main_arg0
  ∧ s.mem ((c : Thread nD τ).loc main_arg1) = V1 m c main_arg1
  ∧ s.mem ((c : Thread nD τ).loc main_arg2) = V1 m c main_arg2

set_option backward.isDefEq.respectTransparency.types false in
/-- THE RUN. From any memory with zero counters every weakly fair execution of @main terminates, nothing faulting, and the
    final memory satisfies `Final` on every core. -/
theorem run (hS : Steps1 (V1 m) Inv Out) :
    θ_run defs (onTc (τ := τ) (main (F := F))) ⟨m, fun _ => 0, ρ⟩ (fun r => ∀ c : Dev nD, Final m Inv Out c r.2) :=
  Pipeline.RDat.θ_run_regions_kit (pcfgs (F := F)) admH (rdats m Inv Out) () cellOf_inj emb₁ defs₀ 𝒱₀ L lv m ρ main (segs m Inv Out hS)
    (fun c Q => by rw [main_run m Inv Out hS c])
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m Inv Out)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := Final m Inv Out)
    (hfin := fun c s' => by
      have hread := Pipeline.RDat.arrays_read (p := 1) (pcfgs (F := F)) admH (rdats m Inv Out) launch1.arr_whole c cfg1.N s'
      iintro ⟨⟨Ha, Hrest, -⟩, HSI⟩
      ihave H1 := hread $$ [Ha HSI]
      · isplitl [Ha] <;> iassumption
      icases H1 with ⟨%h1, HSI⟩
      unfold Pipeline.unscopedRest
      ihave H2 := (pointsTo_read_all _ (fun b : Ref sig .tc => ((c : Thread nD τ).loc b)) (fun b => V1 m c b) s') $$ [Hrest HSI]
      · isplitl [Hrest] <;> iassumption
      icases H2 with ⟨%h2, HSI⟩
      imodintro
      isplitr
      · ipureintro
        exact ⟨h1, h2 main_arg0 (by decide), h2 main_arg1 (by decide), h2 main_arg2 (by decide)⟩
      · iexact HSI)
    (hQ := fun s h c => h c)

/-! ## The frame -/

/-- The five argument arrays end as launched: the first three bypass region 1 and were inputs of region 0, the last two are
    inputs of region 1 (never written) and bypassed region 0. -/
theorem args_kept (c : Dev nD) (s : MemSt nD τ sig (Elt F)) (h : Final m Inv Out c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4) := by
  obtain ⟨hA, h0, h1, h2⟩ := h
  refine ⟨h0.trans (V1_main_arg0 m c), h1.trans (V1_main_arg1 m c), h2.trans (V1_main_arg2 m c), ?_, ?_⟩
  · have h3 := hA 1
    rw [(rdats m Inv Out 1 c).ArrAt_in 1 rfl cfg1.N] at h3
    exact h3.trans ((A_eq1 (V1 m) Inv Out c 1).trans (V1_main_arg3 m c))
  · have h4 := hA 2
    rw [(rdats m Inv Out 1 c).ArrAt_in 2 rfl cfg1.N] at h4
    exact h4.trans ((A_eq1 (V1 m) Inv Out c 2).trans (V1_main_arg4 m c))

/-- Asking nothing of region 1's accumulators and output is an invariant of its steps. -/
theorem steps_trivial (V : (c : Dev nD) → (b : Ref sig .tc) → Buf (Elt F) ((c : Thread nD τ).loc b)) :
    Steps1 V (fun _ _ _ _ => True) (fun _ _ _ => True) :=
  ⟨fun _ _ _ _ _ _ _ _ _ => trivial, fun _ _ _ _ _ _ _ _ _ _ _ _ => trivial, fun _ _ _ _ _ _ => trivial⟩

/-- THE FRAME, at any float instance: every weakly fair execution terminates, nothing faulting, and the argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m _ _ c r.2 (h c)) (run m ρ _ _ (steps_trivial (V1 m)))

end

end Cert.KernelIdeal.Hand
end
-- ==== Proof.KernelIdeal.Blocks.lean ====
/-
  Where a block's element sits in its array. Point `t` of region 0 is reduction step `t % 16` of output tile `t / 16`
  (region 1: `t % 8`, `t / 8`); the index maps send it to block `(0, t % R)` of the activations, `(t % R, t / R)` of the
  weight, `(0, t % R, t / R)` of the bias tensor and `(0, t / R)` of the output — decided over the grid. An element of a
  block sits, on each axis, at block index × block size + its coordinate. In region 1 the last tile's blocks overhang
  the arrays of extent 1000: the fetched buffer holds the array's element only at a column inside the array
  (`256 · tile + q < 1000`); that is what the lemmas about a found buffer state, and all they state.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.KernelIdeal.Region0
import proofs.«132613_j6519760355912_2_alg».proof.Proof.KernelIdeal.Region1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat RDat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Region 0 -/

theorem idx0_0 : ∀ t : Fin cfg0.N, win0_0.index t 0 = 0 ∧ win0_0.index t 1 = t.val % 16 :=
  (by decide +kernel : ∀ t : Fin grid0.N, win0_0.index t 0 = 0 ∧ win0_0.index t 1 = t.val % 16)
theorem idx0_1 : ∀ t : Fin cfg0.N, win0_1.index t 0 = t.val % 16 ∧ win0_1.index t 1 = t.val / 16 :=
  (by decide +kernel : ∀ t : Fin grid0.N, win0_1.index t 0 = t.val % 16 ∧ win0_1.index t 1 = t.val / 16)
theorem idx0_2 : ∀ t : Fin cfg0.N, win0_2.index t 0 = 0 ∧ win0_2.index t 1 = t.val % 16 ∧ win0_2.index t 2 = t.val / 16 :=
  (by decide +kernel : ∀ t : Fin grid0.N, win0_2.index t 0 = 0 ∧ win0_2.index t 1 = t.val % 16 ∧ win0_2.index t 2 = t.val / 16)
theorem idx0_3 : ∀ t : Fin cfg0.N, win0_3.index t 0 = 0 ∧ win0_3.index t 1 = t.val / 16 :=
  (by decide +kernel : ∀ t : Fin grid0.N, win0_3.index t 0 = 0 ∧ win0_3.index t 1 = t.val / 16)

theorem tile0_lt (t : Fin cfg0.N) : t.val / 16 < 4 := by
  have : t.val < 64 := lt_of_lt_of_eq t.isLt (show cfg0.N = 64 from N_0); omega

theorem blk0_0 (c : Dev nD) (t : Fin cfg0.N) (p : Fin 100) (k : Fin 128) :
    iblk0 V c 0 t (ix2 p k) = V c main_arg0 (ix2 p ⟨128 * (t.val % 16) + k.val, by have := k.isLt; omega⟩) := by
  unfold iblk0
  show V c main_arg0 (((cfg0.win 0).blk t).view.emb (ix2 p k)) = _
  refine congrArg _ (funext fun a => Fin.ext ?_)
  match a with
  | ⟨0, _⟩ => show win0_0.index t 0 * 100 + 1 * p.val = p.val; rw [(idx0_0 t).1]; omega
  | ⟨1, _⟩ => show win0_0.index t 1 * 128 + 1 * k.val = 128 * (t.val % 16) + k.val; rw [(idx0_0 t).2]; omega

theorem blk0_1 (c : Dev nD) (t : Fin cfg0.N) (k : Fin 128) (q : Fin 256) :
    iblk0 V c 1 t (ix2 k q) = V c main_arg1 (ix2 ⟨128 * (t.val % 16) + k.val, by have := k.isLt; omega⟩
      ⟨256 * (t.val / 16) + q.val, by have := q.isLt; have := tile0_lt t; omega⟩) := by
  unfold iblk0
  show V c main_arg1 (((cfg0.win 1).blk t).view.emb (ix2 k q)) = _
  refine congrArg _ (funext fun a => Fin.ext ?_)
  match a with
  | ⟨0, _⟩ => show win0_1.index t 0 * 128 + 1 * k.val = 128 * (t.val % 16) + k.val; rw [(idx0_1 t).1]; omega
  | ⟨1, _⟩ => show win0_1.index t 1 * 256 + 1 * q.val = 256 * (t.val / 16) + q.val; rw [(idx0_1 t).2]; omega

theorem blk0_2 (c : Dev nD) (t : Fin cfg0.N) (p : Fin 100) (k : Fin 128) (q : Fin 256) :
    iblk0 V c 2 t (ix3 p k q) = V c main_arg2 (ix3 p ⟨128 * (t.val % 16) + k.val, by have := k.isLt; omega⟩
      ⟨256 * (t.val / 16) + q.val, by have := q.isLt; have := tile0_lt t; omega⟩) := by
  unfold iblk0
  show V c main_arg2 (((cfg0.win 2).blk t).view.emb (ix3 p k q)) = _
  refine congrArg _ (funext fun a => Fin.ext ?_)
  match a with
  | ⟨0, _⟩ => show win0_2.index t 0 * 100 + 1 * p.val = p.val; rw [(idx0_2 t).1]; omega
  | ⟨1, _⟩ => show win0_2.index t 1 * 128 + 1 * k.val = 128 * (t.val % 16) + k.val; rw [(idx0_2 t).2.1]; omega
  | ⟨2, _⟩ => show win0_2.index t 2 * 256 + 1 * q.val = 256 * (t.val / 16) + q.val; rw [(idx0_2 t).2.2]; omega

/-! ## Region 1 -/

theorem idx1_0 : ∀ t : Fin cfg1.N, win1_0.index t 0 = 0 ∧ win1_0.index t 1 = t.val % 8 ∧ win1_0.xsize (grid1.coords t) 0 = 100 ∧ win1_0.xsize (grid1.coords t) 1 = 128 :=
  (by decide +kernel : ∀ t : Fin grid1.N, win1_0.index t 0 = 0 ∧ win1_0.index t 1 = t.val % 8 ∧ win1_0.xsize (grid1.coords t) 0 = 100 ∧ win1_0.xsize (grid1.coords t) 1 = 128)
theorem idx1_1 : ∀ t : Fin cfg1.N, win1_1.index t 0 = t.val % 8 ∧ win1_1.index t 1 = t.val / 8 ∧ win1_1.xsize (grid1.coords t) 0 = 128 ∧ win1_1.xsize (grid1.coords t) 1 = min 256 (1000 - 256 * (t.val / 8)) :=
  (by decide +kernel : ∀ t : Fin grid1.N, win1_1.index t 0 = t.val % 8 ∧ win1_1.index t 1 = t.val / 8 ∧ win1_1.xsize (grid1.coords t) 0 = 128 ∧ win1_1.xsize (grid1.coords t) 1 = min 256 (1000 - 256 * (t.val / 8)))
theorem idx1_2 : ∀ t : Fin cfg1.N, win1_2.index t 0 = 0 ∧ win1_2.index t 1 = t.val % 8 ∧ win1_2.index t 2 = t.val / 8 ∧ win1_2.xsize (grid1.coords t) 0 = 100 ∧ win1_2.xsize (grid1.coords t) 1 = 128 ∧ win1_2.xsize (grid1.coords t) 2 = min 256 (1000 - 256 * (t.val / 8)) :=
  (by decide +kernel : ∀ t : Fin grid1.N, win1_2.index t 0 = 0 ∧ win1_2.index t 1 = t.val % 8 ∧ win1_2.index t 2 = t.val / 8 ∧ win1_2.xsize (grid1.coords t) 0 = 100 ∧ win1_2.xsize (grid1.coords t) 1 = 128 ∧ win1_2.xsize (grid1.coords t) 2 = min 256 (1000 - 256 * (t.val / 8)))
theorem idx1_3 : ∀ t : Fin cfg1.N, win1_3.index t 0 = 0 ∧ win1_3.index t 1 = t.val / 8 ∧ win1_3.xsize (grid1.coords t) 0 = 100 ∧ win1_3.xsize (grid1.coords t) 1 = min 256 (1000 - 256 * (t.val / 8)) :=
  (by decide +kernel : ∀ t : Fin grid1.N, win1_3.index t 0 = 0 ∧ win1_3.index t 1 = t.val / 8 ∧ win1_3.xsize (grid1.coords t) 0 = 100 ∧ win1_3.xsize (grid1.coords t) 1 = min 256 (1000 - 256 * (t.val / 8)))

theorem found1_0_apply (c : Dev nD) (t : Fin cfg1.N) (Y : Vec F S100x128 .f32) (hY : Found1 V c 0 t Y) (p : Fin 100) (k : Fin 128) :
    Y (ix2 p k) = V c main_v0 (ix2 p ⟨128 * (t.val % 8) + k.val, by have := k.isLt; omega⟩) := by
  obtain ⟨d, rfl⟩ := hY
  have hmv : ∀ a, ((ix2 p k : S100x128.Idx) a).val < win1_0.xsize (grid1.coords t) a := fun a => by
    match a with
    | ⟨0, _⟩ => show p.val < win1_0.xsize (grid1.coords t) 0; rw [(idx1_0 t).2.2.1]; exact p.isLt
    | ⟨1, _⟩ => show k.val < win1_0.xsize (grid1.coords t) 1; rw [(idx1_0 t).2.2.2]; exact k.isLt
  unfold Window.fill
  rw [dif_pos ((win1_0.moved_iff (grid1.coords t) _).mpr hmv)]
  unfold iblk1
  show V c main_v0 (((cfg1.win 0).blk t).view.emb _) = _
  refine congrArg _ (funext fun a => Fin.ext ?_)
  match a with
  | ⟨0, _⟩ => show win1_0.index t 0 * 100 + 1 * p.val = p.val; rw [(idx1_0 t).1]; omega
  | ⟨1, _⟩ => show win1_0.index t 1 * 128 + 1 * k.val = 128 * (t.val % 8) + k.val; rw [(idx1_0 t).2.1]; omega

theorem found1_1_apply (c : Dev nD) (t : Fin cfg1.N) (Y : Vec F S128x256 .f32) (hY : Found1 V c 1 t Y) (k : Fin 128) (q : Fin 256)
    (hq : 256 * (t.val / 8) + q.val < 1000) :
    Y (ix2 k q) = V c main_arg3 (ix2 ⟨128 * (t.val % 8) + k.val, by have := k.isLt; omega⟩ ⟨256 * (t.val / 8) + q.val, hq⟩) := by
  obtain ⟨d, rfl⟩ := hY
  have hmv : ∀ a, ((ix2 k q : S128x256.Idx) a).val < win1_1.xsize (grid1.coords t) a := fun a => by
    match a with
    | ⟨0, _⟩ => show k.val < win1_1.xsize (grid1.coords t) 0; rw [(idx1_1 t).2.2.1]; exact k.isLt
    | ⟨1, _⟩ => show q.val < win1_1.xsize (grid1.coords t) 1; rw [(idx1_1 t).2.2.2]; have := q.isLt; omega
  unfold Window.fill
  rw [dif_pos ((win1_1.moved_iff (grid1.coords t) _).mpr hmv)]
  unfold iblk1
  show V c main_arg3 (((cfg1.win 1).blk t).view.emb _) = _
  refine congrArg _ (funext fun a => Fin.ext ?_)
  match a with
  | ⟨0, _⟩ => show win1_1.index t 0 * 128 + 1 * k.val = 128 * (t.val % 8) + k.val; rw [(idx1_1 t).1]; omega
  | ⟨1, _⟩ => show win1_1.index t 1 * 256 + 1 * q.val = 256 * (t.val / 8) + q.val; rw [(idx1_1 t).2.1]; omega

theorem found1_2_apply (c : Dev nD) (t : Fin cfg1.N) (Y : Vec F S100x128x256 .f32) (hY : Found1 V c 2 t Y) (p : Fin 100) (k : Fin 128) (q : Fin 256)
    (hq : 256 * (t.val / 8) + q.val < 1000) :
    Y (ix3 p k q) = V c main_arg4 (ix3 p ⟨128 * (t.val % 8) + k.val, by have := k.isLt; omega⟩ ⟨256 * (t.val / 8) + q.val, hq⟩) := by
  obtain ⟨d, rfl⟩ := hY
  have hmv : ∀ a, ((ix3 p k q : S100x128x256.Idx) a).val < win1_2.xsize (grid1.coords t) a := fun a => by
    match a with
    | ⟨0, _⟩ => show p.val < win1_2.xsize (grid1.coords t) 0; rw [(idx1_2 t).2.2.2.1]; exact p.isLt
    | ⟨1, _⟩ => show k.val < win1_2.xsize (grid1.coords t) 1; rw [(idx1_2 t).2.2.2.2.1]; exact k.isLt
    | ⟨2, _⟩ => show q.val < win1_2.xsize (grid1.coords t) 2; rw [(idx1_2 t).2.2.2.2.2]; have := q.isLt; omega
  unfold Window.fill
  rw [dif_pos ((win1_2.moved_iff (grid1.coords t) _).mpr hmv)]
  unfold iblk1
  show V c main_arg4 (((cfg1.win 2).blk t).view.emb _) = _
  refine congrArg _ (funext fun a => Fin.ext ?_)
  match a with
  | ⟨0, _⟩ => show win1_2.index t 0 * 100 + 1 * p.val = p.val; rw [(idx1_2 t).1]; omega
  | ⟨1, _⟩ => show win1_2.index t 1 * 128 + 1 * k.val = 128 * (t.val % 8) + k.val; rw [(idx1_2 t).2.1]; omega
  | ⟨2, _⟩ => show win1_2.index t 2 * 256 + 1 * q.val = 256 * (t.val / 8) + q.val; rw [(idx1_2 t).2.2.1]; omega

end
end Cert.KernelIdeal.Hand
end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibMidAxis.lean ====
/-
  The middle axis of a rank-3 vector: summed away, and merged with the last axis.

  * `multiReduction_add_mid3_apply`: the sum over the MIDDLE axis of an `[a, b, c]` vector, at the ideal values, read
    at `(p, q)` of the `[a, c]` result, is `∑ k : Fin b, src (p, k, q)` — for any extents and any float format,
    whatever the (neutral) accumulator word;
  * `shapeCast_abc_aN_apply`: an `[a, b, c]` array cast to `[a, n]` with `n = b · c` reads, at `(p, k)` with
    `k = f · c + e`, the operand at `(p, f, e)`: the two row-major positions are the same number.
-/
import Idealize.ShloMosaic.Lib.ValueIdx
import Idealize.ShloMosaic.Lib.Pipeline.Value
import Idealize.ShloMosaic.PureOps.Ideal.Laws

noncomputable section

open scoped BigOperators

namespace Cert.LibMidAxis

open Idealize.ShloMosaic Idealize.ShloMosaic.ValueIdx

/-- The index a middle-axis reduction of a rank-3 shape inserts coordinate `k` into, at `(p, q)`, is `(p, k, q)`. -/
theorem lift_mid3 {a b c : ℕ} (h : (⟨3, ![a, b, c]⟩ : Shape).Reduces [1] ⟨2, ![a, c]⟩) (p : Fin a) (q : Fin c)
    (k : Fin b) : h.lift (ix2 p q) k = ix3 p k q :=
  funext fun ax => Fin.ext (by match ax with | ⟨0, _⟩ => rfl | ⟨1, _⟩ => rfl | ⟨2, _⟩ => rfl)

/-- The sum over the middle axis of an `[a, b, c]` vector, read at `(p, q)`: `∑ k, src (p, k, q)`. -/
theorem multiReduction_add_mid3_apply {a b c : ℕ} {φ : FTy} (src : FVec Ideal ⟨3, ![a, b, c]⟩ φ)
    (acc : BitVec φ.bits) (h : (⟨3, ![a, b, c]⟩ : Shape).Reduces [1] ⟨2, ![a, c]⟩) (hφ : FKind.Formats φ)
    (hacc : acc = FKind.add.neutral φ hφ) (p : Fin a) (q : Fin c) :
    multiReduction .add [1] ⟨2, ![a, c]⟩ src acc h hφ hacc (ix2 p q) = ∑ k : Fin b, src (ix3 p k q) :=
  (Ideal.multiReduction_add_single src acc h hφ hacc (ix2 p q)).trans
    (Finset.sum_congr rfl fun k _ => congrArg src (lift_mid3 h p q k))

variable {α : Type}

/-- An `[a, b, c]` array cast to `[a, n]`, `n = b · c`, reads at `(p, k)`, `k = f · c + e`, the operand at `(p, f, e)`. -/
theorem shapeCast_abc_aN_apply {a b c n : ℕ} (x : (⟨3, ![a, b, c]⟩ : Shape).Idx → α)
    (h : (⟨3, ![a, b, c]⟩ : Shape).ShapeCasts ⟨2, ![a, n]⟩) (hn : n = b * c) (p : Fin a) (k : Fin n) (f : Fin b)
    (e : Fin c) (hk : k.val = f.val * c + e.val) :
    shapeCast ⟨2, ![a, n]⟩ x h (ix2 p k) = x (ix3 p f e) :=
  shapeCast_apply x h _ _ (by
    rw [Shape.rowMajor_val_three, Shape.rowMajor_val_two]
    show (p.val * b + f.val) * c + e.val = p.val * n + k.val
    rw [hk, hn]; ring)

end Cert.LibMidAxis

end
-- ==== Proof.KernelIdeal.Payload.lean ====
/-
  The body's payloads read at an index, at the ideal values: the zero fills are `0`; one step adds to the accumulator
  the product of the activations' row with the weight's column over the block's 128 contracted coordinates, and to the
  bias sum the block's 128 entries along its middle axis (a change of float format is the identity, so the rounding to
  bf16 on the way into the matrix unit does not show); the stored block is the two accumulators' sum times the
  literal `2⁻¹¹` (layer 1, then clamped below at zero) or `2⁻¹⁰` (layer 2).
-/
import proofs.«132613_j6519760355912_2_alg».proof.Proof.Gen.KernelIdeal.Skeleton
import proofs.«132613_j6519760355912_2_alg».proof.Proof.LibBlock
import proofs.«132613_j6519760355912_2_alg».proof.Proof.LibMidAxis
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The two scale literals: `2⁻¹¹` and `2⁻¹⁰` as the printed words denote them. -/
abbrev scale0 : EReal := Ideal.ofBits .f32 0x3A000000#32
abbrev scale1 : EReal := Ideal.ofBits .f32 0x3A800000#32

/-! ## Kernel 0 -/

theorem pay1_0 (p : Fin 100) (q : Fin 256) : k0_pay1 (F := Ideal) (ix2 p q) = 0 := by
  unfold k0_pay1; rw [shapeCast_self]
  show Ideal.ofBits .f32 0x00000000#32 = 0
  exact Ideal.ofBits_zero_f32
theorem pay2_0 (p : Fin 100) (q : Fin 256) : k0_pay2 (F := Ideal) (ix2 p q) = 0 := by
  unfold k0_pay2; rw [shapeCast_self]
  show Ideal.ofBits .f32 0x00000000#32 = 0
  exact Ideal.ofBits_zero_f32

/-- The accumulator gains the block's product: row `p` of the activations' block against column `q` of the weight's. -/
theorem pay3_0 (x0 : Vec Ideal S100x128 .f32) (x1 : Vec Ideal S128x256 .f32) (a : Vec Ideal S100x256 .f32) (p : Fin 100) (q : Fin 256) :
    k0_pay3 (F := Ideal) x0 x1 a (ix2 p q) = a (ix2 p q) + ∑ k : Fin 128, x0 (ix2 p k) * x1 (ix2 k q) := by
  unfold k0_pay3
  simp only [shapeCast_self]
  exact congrArg (a (ix2 p q) + ·)
    (Cert.LibBlock.matmul_zero_ix2 dot_S100x128_S128x256_S100x256_1_0_0_1_n_n rfl rfl rfl rfl rfl rfl none _ _ p q)

/-- The bias sum gains the block's sums over its middle axis. -/
theorem pay4_0 (s : Vec Ideal S100x256 .f32) (x2 : Vec Ideal S100x128x256 .f32) (p : Fin 100) (q : Fin 256) :
    k0_pay4 (F := Ideal) s x2 (ix2 p q) = s (ix2 p q) + ∑ k : Fin 128, x2 (ix3 p k q) := by
  unfold k0_pay4
  simp only [shapeCast_self]
  exact congrArg (s (ix2 p q) + ·) (Cert.LibMidAxis.multiReduction_add_mid3_apply x2 _ _ _ _ p q)

/-- The stored block: the two accumulators' sum scaled by the reciprocal of the contracted extent, clamped below at zero. -/
theorem pay5_0 (a s : Vec Ideal S100x256 .f32) (p : Fin 100) (q : Fin 256) :
    k0_pay5 (F := Ideal) a s (ix2 p q) = max ((a (ix2 p q) + s (ix2 p q)) * scale0) 0 := by
  unfold k0_pay5
  show max ((a (ix2 p q) + s (ix2 p q)) * Ideal.ofBits .f32 0x3A000000#32) (Ideal.ofBits .f32 0x00000000#32) = _
  rw [Ideal.ofBits_zero_f32]

/-! ## Kernel 1 -/

theorem pay1_1 (p : Fin 100) (q : Fin 256) : k1_pay1 (F := Ideal) (ix2 p q) = 0 := by
  unfold k1_pay1; rw [shapeCast_self]
  show Ideal.ofBits .f32 0x00000000#32 = 0
  exact Ideal.ofBits_zero_f32
theorem pay2_1 (p : Fin 100) (q : Fin 256) : k1_pay2 (F := Ideal) (ix2 p q) = 0 := by
  unfold k1_pay2; rw [shapeCast_self]
  show Ideal.ofBits .f32 0x00000000#32 = 0
  exact Ideal.ofBits_zero_f32

/-- The accumulator gains the block's product: row `p` of the activations' block against column `q` of the weight's. -/
theorem pay3_1 (x0 : Vec Ideal S100x128 .f32) (x1 : Vec Ideal S128x256 .f32) (a : Vec Ideal S100x256 .f32) (p : Fin 100) (q : Fin 256) :
    k1_pay3 (F := Ideal) x0 x1 a (ix2 p q) = a (ix2 p q) + ∑ k : Fin 128, x0 (ix2 p k) * x1 (ix2 k q) := by
  unfold k1_pay3
  simp only [shapeCast_self]
  exact congrArg (a (ix2 p q) + ·)
    (Cert.LibBlock.matmul_zero_ix2 dot_S100x128_S128x256_S100x256_1_0_0_1_n_n rfl rfl rfl rfl rfl rfl none _ _ p q)

/-- The bias sum gains the block's sums over its middle axis. -/
theorem pay4_1 (s : Vec Ideal S100x256 .f32) (x2 : Vec Ideal S100x128x256 .f32) (p : Fin 100) (q : Fin 256) :
    k1_pay4 (F := Ideal) s x2 (ix2 p q) = s (ix2 p q) + ∑ k : Fin 128, x2 (ix3 p k q) := by
  unfold k1_pay4
  simp only [shapeCast_self]
  exact congrArg (s (ix2 p q) + ·) (Cert.LibMidAxis.multiReduction_add_mid3_apply x2 _ _ _ _ p q)

/-- The stored block: the two accumulators' sum scaled by the reciprocal of the contracted extent. -/
theorem pay5_1 (a s : Vec Ideal S100x256 .f32) (p : Fin 100) (q : Fin 256) :
    k1_pay5 (F := Ideal) a s (ix2 p q) = (a (ix2 p q) + s (ix2 p q)) * scale1 := by
  unfold k1_pay5
  rfl

end Cert.KernelIdeal.Hand
end
-- ==== Proof.LibBlockedSum.lean ====
/-
  Blocked sums. A reduction over `Fin K` carried out block by block — `B` consecutive terms at a time, each block added to
  what the blocks before it made — is, after `r` blocks, the sum of the first `B · r` terms. To state "the first `n`
  terms" without a proof that `n ≤ K` in the index, a family `f : Fin K → α` is extended by zero past `K` (`ext f`) and
  summed over `Finset.range n`. Then: the whole range is the sum over `Fin K` (`sum_ext`); block `r` read through its own
  coordinates `k : Fin B` at positions `B · r + k` is a range sum of the extension (`sum_block`); and a prefix of `r + 1`
  blocks is the prefix of `r` blocks plus block `r` (`prefix_succ`). In any additive commutative monoid, any `K`, `B`.
-/
import Mathlib.Algebra.BigOperators.Fin
import Mathlib.Algebra.BigOperators.Group.Finset.Basic

noncomputable section

open scoped BigOperators
open Finset

namespace Cert.LibBlockedSum

variable {α : Type*} [AddCommMonoid α]

/-- A family over `Fin K`, extended by zero to every natural number. -/
def ext {K : ℕ} (f : Fin K → α) (i : ℕ) : α := if h : i < K then f ⟨i, h⟩ else 0

theorem ext_of_lt {K : ℕ} (f : Fin K → α) {i : ℕ} (h : i < K) : ext f i = f ⟨i, h⟩ := dif_pos h

/-- The whole range: the sum over `Fin K`. -/
theorem sum_ext {K : ℕ} (f : Fin K → α) : ∑ i ∈ range K, ext f i = ∑ i : Fin K, f i := by
  rw [Finset.sum_range]; exact Finset.sum_congr rfl fun i _ => ext_of_lt f i.isLt

/-- Block `r`, read through its own coordinates. -/
theorem sum_block {K B : ℕ} (f : Fin K → α) (r : ℕ) (hb : ∀ k : Fin B, B * r + k.val < K) :
    ∑ k : Fin B, f ⟨B * r + k.val, hb k⟩ = ∑ k ∈ range B, ext f (B * r + k) := by
  rw [Finset.sum_range]; exact Finset.sum_congr rfl fun k _ => (ext_of_lt f (hb k)).symm

/-- A prefix of `r + 1` blocks is the prefix of `r` blocks plus block `r`. -/
theorem prefix_succ (g : ℕ → α) (B r : ℕ) :
    ∑ i ∈ range (B * (r + 1)), g i = ∑ i ∈ range (B * r), g i + ∑ k ∈ range B, g (B * r + k) := by
  rw [Nat.mul_succ, Finset.sum_range_add]

end Cert.LibBlockedSum

end
-- ==== Proof.Spec.lean ====
/-
  The two layers as functions of the five arrays, over the extended reals.

  `hid x W₁ b₁ (p, o) = max ((Σᵢ x (p, i) · W₁ (i, o) + Σᵢ b₁ (p, i, o)) · 2⁻¹¹) 0`, the sums over the 2048 contracted
  coordinates, and `out … (p, o) = (Σⱼ hid (p, j) · W₂ (j, o) + Σⱼ b₂ (p, j, o)) · 2⁻¹⁰`, the sums over the 1024 hidden
  coordinates — each sum written as a range sum of its terms extended by zero, the form in which a reduction carried
  out block by block is stated. The two scale factors are the words the kernel multiplies by.
-/
import proofs.«132613_j6519760355912_2_alg».proof.Proof.LibBlockedSum
import Idealize.ShloMosaic.Lib.ValueIdx
import Idealize.ShloMosaic.PureOps.Ideal

noncomputable section

open scoped BigOperators

namespace Cert.Spec

open Idealize.ShloMosaic Idealize.ShloMosaic.ValueIdx Cert.LibBlockedSum

/-- `2⁻¹¹` and `2⁻¹⁰`, as the kernel's literal words denote them. -/
abbrev s0 : EReal := Ideal.ofBits .f32 0x3A000000#32
abbrev s1 : EReal := Ideal.ofBits .f32 0x3A800000#32

/-- The hidden layer at `(p, o)`. -/
def hid (x : (⟨2, ![100, 2048]⟩ : Shape).Idx → EReal) (W1 : (⟨2, ![2048, 1024]⟩ : Shape).Idx → EReal)
    (b1 : (⟨3, ![100, 2048, 1024]⟩ : Shape).Idx → EReal) (p : Fin 100) (o : Fin 1024) : EReal :=
  max ((∑ j ∈ Finset.range 2048, ext (fun i : Fin 2048 => x (ix2 p i) * W1 (ix2 i o)) j
      + ∑ j ∈ Finset.range 2048, ext (fun i : Fin 2048 => b1 (ix3 p i o)) j) * s0) 0

/-- The output layer at `(p, o)`, from any hidden array. -/
def lin2 (h : (⟨2, ![100, 1024]⟩ : Shape).Idx → EReal) (W2 : (⟨2, ![1024, 1000]⟩ : Shape).Idx → EReal)
    (b2 : (⟨3, ![100, 1024, 1000]⟩ : Shape).Idx → EReal) (p : Fin 100) (o : Fin 1000) : EReal :=
  (∑ j ∈ Finset.range 1024, ext (fun i : Fin 1024 => h (ix2 p i) * W2 (ix2 i o)) j
      + ∑ j ∈ Finset.range 1024, ext (fun i : Fin 1024 => b2 (ix3 p i o)) j) * s1

/-- The whole network at `(p, o)`. -/
def out (x : (⟨2, ![100, 2048]⟩ : Shape).Idx → EReal) (W1 : (⟨2, ![2048, 1024]⟩ : Shape).Idx → EReal)
    (b1 : (⟨3, ![100, 2048, 1024]⟩ : Shape).Idx → EReal) (W2 : (⟨2, ![1024, 1000]⟩ : Shape).Idx → EReal)
    (b2 : (⟨3, ![100, 1024, 1000]⟩ : Shape).Idx → EReal) (p : Fin 100) (o : Fin 1000) : EReal :=
  lin2 (fun i => hid x W1 b1 (i 0) (i 1)) W2 b2 p o

end Cert.Spec

end
-- ==== Proof.KernelIdeal.Value0.lean ====
/-
  What region 0 computes, at the ideal values. After the step `r = t % 16` of tile `t / 16` the accumulator holds, at
  `(p, q)`, the sum of the first `128 · (r + 1)` products `x (p, i) · W₁ (i, o)` with `o = 256 · (t / 16) + q`, and the bias
  sum the first `128 · (r + 1)` entries `b₁ (p, i, o)`: by induction over the points, one block per step. At the last
  step both are the whole sums over the 2048 contracted coordinates, and the stored block is their sum times `2⁻¹¹`,
  clamped below at zero. The four output tiles are written back at their last steps and tile the output array, so
  the array ends holding that function of the three arrays at every index: `hidden`.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.KernelIdeal.Blocks
import proofs.«132613_j6519760355912_2_alg».proof.Proof.KernelIdeal.Payload
import proofs.«132613_j6519760355912_2_alg».proof.Proof.LibBlockedSum
import proofs.«132613_j6519760355912_2_alg».proof.Proof.Spec
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.LibBlockedSum
open scoped BigOperators
open Idealize.ShloMosaic.Pipeline (Dat RDat Cfg Window BodyObligation BodyObligationLoose cellOf)

section
variable (V : (c : Dev nD) → (b : Ref sig .tc) → Buf (Elt Ideal) ((c : Thread nD τ).loc b))

/-- The three arrays region 0 reads, and its windows' blocks, as arrays of extended reals. -/
abbrev arg0 (c : Dev nD) : Vec Ideal S100x2048 .f32 := V c main_arg0
abbrev arg1 (c : Dev nD) : Vec Ideal S2048x1024 .f32 := V c main_arg1
abbrev arg2 (c : Dev nD) : Vec Ideal S100x2048x1024 .f32 := V c main_arg2
abbrev b0_0 (c : Dev nD) (t : Fin cfg0.N) : Vec Ideal S100x128 .f32 := iblk0 V c 0 t
abbrev b0_1 (c : Dev nD) (t : Fin cfg0.N) : Vec Ideal S128x256 .f32 := iblk0 V c 1 t
abbrev b0_2 (c : Dev nD) (t : Fin cfg0.N) : Vec Ideal S100x128x256 .f32 := iblk0 V c 2 t

/-- The products and the bias entries along the contracted axis, at row `p` and output column `o`. -/
def xw0 (c : Dev nD) (p : Fin 100) (o : Fin 1024) : Fin 2048 → EReal := fun i => arg0 V c (ix2 p i) * arg1 V c (ix2 i o)
def bb0 (c : Dev nD) (p : Fin 100) (o : Fin 1024) : Fin 2048 → EReal := fun i => arg2 V c (ix3 p i o)

/-- The hidden layer at `(p, o)`, as a function of the first three arrays. -/
def hid (c : Dev nD) (p : Fin 100) (o : Fin 1024) : EReal := Cert.Spec.hid (arg0 V c) (arg1 V c) (arg2 V c) p o
/-- The hidden layer as an array: what region 0 leaves in its output array. -/
def hidden (c : Dev nD) : Vec Ideal S100x1024 .f32 := fun i => hid V c (i 0) (i 1)

theorem tb0_0 (c : Dev nD) (t : Fin cfg0.N) (p : Fin 100) (k : Fin 128) :
    b0_0 V c t (ix2 p k) = arg0 V c (ix2 p ⟨128 * (t.val % 16) + k.val, by have := k.isLt; omega⟩) := blk0_0 V c t p k
theorem tb0_1 (c : Dev nD) (t : Fin cfg0.N) (k : Fin 128) (q : Fin 256) :
    b0_1 V c t (ix2 k q) = arg1 V c (ix2 ⟨128 * (t.val % 16) + k.val, by have := k.isLt; omega⟩
      ⟨256 * (t.val / 16) + q.val, by have := q.isLt; have := tile0_lt t; omega⟩) := blk0_1 V c t k q
theorem tb0_2 (c : Dev nD) (t : Fin cfg0.N) (p : Fin 100) (k : Fin 128) (q : Fin 256) :
    b0_2 V c t (ix3 p k q) = arg2 V c (ix3 p ⟨128 * (t.val % 16) + k.val, by have := k.isLt; omega⟩
      ⟨256 * (t.val / 16) + q.val, by have := q.isLt; have := tile0_lt t; omega⟩) := blk0_2 V c t p k q

theorem col0_lt (t : Fin cfg0.N) (q : Fin 256) : 256 * (t.val / 16) + q.val < 1024 := by
  have := q.isLt; have := tile0_lt t; omega

/-- One step's block of products, and of bias entries, as range sums of the extended families. -/
theorem step_xw0 (c : Dev nD) (t : Fin cfg0.N) (p : Fin 100) (q : Fin 256) (o : Fin 1024) (ho : o.val = 256 * (t.val / 16) + q.val) :
    ∑ k : Fin 128, b0_0 V c t (ix2 p k) * b0_1 V c t (ix2 k q)
      = ∑ k ∈ Finset.range 128, ext (xw0 V c p o) (128 * (t.val % 16) + k) := by
  obtain rfl : o = ⟨256 * (t.val / 16) + q.val, col0_lt t q⟩ := Fin.ext ho
  have e : ∀ k : Fin 128, b0_0 V c t (ix2 p k) * b0_1 V c t (ix2 k q)
      = xw0 V c p ⟨256 * (t.val / 16) + q.val, col0_lt t q⟩ ⟨128 * (t.val % 16) + k.val, by have := k.isLt; omega⟩ := fun k => by
    rw [tb0_0 V c t p k, tb0_1 V c t k q]; rfl
  rw [Finset.sum_congr rfl fun k _ => e k]
  exact sum_block (xw0 V c p _) (t.val % 16) (fun k => by have := k.isLt; omega)

theorem step_bb0 (c : Dev nD) (t : Fin cfg0.N) (p : Fin 100) (q : Fin 256) (o : Fin 1024) (ho : o.val = 256 * (t.val / 16) + q.val) :
    ∑ k : Fin 128, b0_2 V c t (ix3 p k q) = ∑ k ∈ Finset.range 128, ext (bb0 V c p o) (128 * (t.val % 16) + k) := by
  obtain rfl : o = ⟨256 * (t.val / 16) + q.val, col0_lt t q⟩ := Fin.ext ho
  have e : ∀ k : Fin 128, b0_2 V c t (ix3 p k q)
      = bb0 V c p ⟨256 * (t.val / 16) + q.val, col0_lt t q⟩ ⟨128 * (t.val % 16) + k.val, by have := k.isLt; omega⟩ := fun k => by
    rw [tb0_2 V c t p k q]; rfl
  rw [Finset.sum_congr rfl fun k _ => e k]
  exact sum_block (bb0 V c p _) (t.val % 16) (fun k => by have := k.isLt; omega)

/-- THE ACCUMULATORS, point by point: prefixes of the two sums. -/
theorem scr0_acc (c : Dev nD) (p : Fin 100) (q : Fin 256) : ∀ (n : ℕ) (hn : n < cfg0.N) (o : Fin 1024), o.val = 256 * (n / 16) + q.val →
      (scr0 V c n hn).1 (ix2 p q) = ∑ j ∈ Finset.range (128 * (n % 16 + 1)), ext (xw0 V c p o) j
      ∧ (scr0 V c n hn).2 (ix2 p q) = ∑ j ∈ Finset.range (128 * (n % 16 + 1)), ext (bb0 V c p o) j := by
  intro n
  induction n using Nat.strong_induction_on with
  | _ n ih =>
    intro hn o ho
    by_cases h0 : n % 16 = 0
    · have hs := scr0_first V c ⟨n, hn⟩ h0
      rw [show scr0 V c n hn = _ from hs]
      refine ⟨(pay3_0 (b0_0 V c ⟨n, hn⟩) (b0_1 V c ⟨n, hn⟩) _ p q).trans ?_, (pay4_0 _ (b0_2 V c ⟨n, hn⟩) p q).trans ?_⟩
      · rw [pay1_0, zero_add, step_xw0 V c ⟨n, hn⟩ p q o ho]
        show _ = ∑ j ∈ Finset.range (128 * (n % 16 + 1)), ext (xw0 V c p o) j
        rw [prefix_succ, h0]
        simp only [Nat.mul_zero, Finset.range_zero, Finset.sum_empty, zero_add]
      · rw [pay2_0, zero_add, step_bb0 V c ⟨n, hn⟩ p q o ho]
        show _ = ∑ j ∈ Finset.range (128 * (n % 16 + 1)), ext (bb0 V c p o) j
        rw [prefix_succ, h0]
        simp only [Nat.mul_zero, Finset.range_zero, Finset.sum_empty, zero_add]
    · have hlt : n - 1 < cfg0.N := Nat.lt_of_le_of_lt (Nat.sub_le _ _) hn
      obtain ⟨ia, ib⟩ := ih (n - 1) (by omega) hlt o (by omega)
      have e : (n - 1) % 16 + 1 = n % 16 := by omega
      rw [e] at ia ib
      have hs := scr0_next V c ⟨n, hn⟩ h0
      rw [show scr0 V c n hn = _ from hs]
      refine ⟨(pay3_0 (b0_0 V c ⟨n, hn⟩) (b0_1 V c ⟨n, hn⟩) _ p q).trans ?_, (pay4_0 _ (b0_2 V c ⟨n, hn⟩) p q).trans ?_⟩
      · rw [show (scr0 V c ((⟨n, hn⟩ : Fin cfg0.N).val - 1) _).1 (ix2 p q) = _ from ia, step_xw0 V c ⟨n, hn⟩ p q o ho]
        exact (prefix_succ _ 128 (n % 16)).symm
      · rw [show (scr0 V c ((⟨n, hn⟩ : Fin cfg0.N).val - 1) _).2 (ix2 p q) = _ from ib, step_bb0 V c ⟨n, hn⟩ p q o ho]
        exact (prefix_succ _ 128 (n % 16)).symm

/-! ## The output array -/

theorem idx0_3x : ∀ t : Fin cfg0.N, win0_3.xsize (grid0.coords t) 0 = 100 ∧ win0_3.xsize (grid0.coords t) 1 = 256 :=
  (by decide +kernel : ∀ t : Fin grid0.N, win0_3.xsize (grid0.coords t) 0 = 100 ∧ win0_3.xsize (grid0.coords t) 1 = 256)

/-- At a tile's last step the block written back is the block of `hidden` there. -/
theorem flushed0 (c : Dev nD) (t : Fin cfg0.N) (hf : (cfg0.win 3).flush t = true) :
    (dat0 V c).flushed 3 t = ((cfg0.win 3).blk t).view.read (Elt Ideal) (hidden V c) := by
  have h15 : t.val % 16 = 15 := (flush0_3 t).mp hf
  funext y
  have hp : (y 0).val < 100 := by
    have h : (y 0).val < win0_3.xsize (grid0.coords t) 0 := (y 0).isLt
    rwa [(idx0_3x t).1] at h
  have hq : (y 1).val < 256 := by
    have h : (y 1).val < win0_3.xsize (grid0.coords t) 1 := (y 1).isLt
    rwa [(idx0_3x t).2] at h
  have hx : win0_3.xinj (grid0.coords t) y = ix2 (⟨(y 0).val, hp⟩ : Fin 100) (⟨(y 1).val, hq⟩ : Fin 256) :=
    funext fun a => Fin.ext (by match a with | ⟨0, _⟩ => rfl | ⟨1, _⟩ => rfl)
  have ho : 256 * (t.val / 16) + (y 1).val < 1024 := by have := tile0_lt t; omega
  have h0 : (((cfg0.win 3).blk t).view.emb y) 0 = (⟨(y 0).val, hp⟩ : Fin 100) := Fin.ext (by
    show win0_3.index t 0 * 100 + 1 * (y 0).val = (y 0).val
    rw [(idx0_3 t).1]; omega)
  have h1 : (((cfg0.win 3).blk t).view.emb y) 1 = (⟨256 * (t.val / 16) + (y 1).val, ho⟩ : Fin 1024) := Fin.ext (by
    show win0_3.index t 1 * 256 + 1 * (y 1).val = 256 * (t.val / 16) + (y 1).val
    rw [(idx0_3 t).2]; omega)
  obtain ⟨ia, ib⟩ := scr0_acc V c ⟨(y 0).val, hp⟩ ⟨(y 1).val, hq⟩ t.val t.isLt ⟨256 * (t.val / 16) + (y 1).val, ho⟩ rfl
  rw [h15] at ia ib
  show (dat0 V c).after 3 t (win0_3.xinj (grid0.coords t) y) = hidden V c (((cfg0.win 3).blk t).view.emb y)
  rw [after0_3, hx]
  refine (pay5_0 _ _ _ _).trans ?_
  rw [ia, ib]
  unfold hidden hid Cert.Spec.hid
  rw [h0, h1]
  rfl

/-- The four tiles' blocks, written back at the last steps, cover the output array. -/
theorem cover0 (c : Dev nD) (i : ((cfg0.win 3).arr.view.loc (c : Thread nD τ)).2.ty.Idx) :
    ∃ t : Fin cfg0.N, (cfg0.win 3).flush t = true ∧ i ∈ ((cfg0.win 3).blk t).view.set := by
  have hi0 : (i 0).val < 100 := (i 0).isLt
  have hi1 : (i 1).val < 1024 := (i 1).isLt
  have hN : cfg0.N = 64 := N_0
  let t : Fin cfg0.N := ⟨16 * ((i 1).val / 256) + 15, by rw [hN]; omega⟩
  have ht : t.val = 16 * ((i 1).val / 256) + 15 := rfl
  refine ⟨t, (flush0_3 t).mpr (by rw [ht]; omega), ?_⟩
  show i ∈ ((View.whole main_v0).slice (win0_3.rect t)).set
  rw [View.set_slice_whole, Rect.mem_set_unit]
  intro a
  match a with
  | ⟨0, _⟩ =>
    show win0_3.index t 0 * 100 ≤ (i 0).val ∧ (i 0).val < win0_3.index t 0 * 100 + win0_3.xsize (grid0.coords t) 0
    rw [(idx0_3 t).1, (idx0_3x t).1]; omega
  | ⟨1, _⟩ =>
    show win0_3.index t 1 * 256 ≤ (i 1).val ∧ (i 1).val < win0_3.index t 1 * 256 + win0_3.xsize (grid0.coords t) 1
    rw [(idx0_3 t).2, (idx0_3x t).2, ht]; omega

/-- REGION 0'S RESULT: its output array ends holding the hidden layer. -/
theorem arr0_final (c : Dev nD) : (dat0 V c).arrAt 3 cfg0.N = hidden V c :=
  (dat0 V c).arrAt_eq_of_cover 3 (hidden V c) (fun t hf => flushed0 V c t hf) (cover0 c)

end
end Cert.KernelIdeal.Hand
end
-- ==== Proof.KernelIdeal.Value1.lean ====
/-
  What region 1 computes, at the ideal values, on the columns inside the output array.

  The last tile's blocks of the weight, the bias tensor and the output overhang arrays of extent 1000, so a buffer the
  body finds holds the array's element only at a column `256 · (t / 8) + q < 1000`. Column `q` of the accumulator and of
  the bias sum depends only on column `q` of the weight's and the bias tensor's blocks (the product contracts the rows of
  the weight, the bias sum its middle axis), so ON THOSE COLUMNS the accumulators are what they are in region 0: after
  step `r = t % 8` the first `128 · (r + 1)` terms of the two sums over the 1024 hidden coordinates. That is the invariant
  `InvV`; `OutV` says the part inside the array of the block the last step stores is the block of `result`, the second layer
  applied to region 1's first input; the three step facts are one block each. What the run then knows of the output
  array — the launch contents overwritten tile by tile by such parts — is `result` on every tile, and the tiles cover it.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.KernelIdeal.Blocks
import proofs.«132613_j6519760355912_2_alg».proof.Proof.KernelIdeal.Payload
import proofs.«132613_j6519760355912_2_alg».proof.Proof.Spec
import proofs.«132613_j6519760355912_2_alg».proof.Proof.LibBlockedSum
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.LibBlockedSum
open scoped BigOperators
open Idealize.ShloMosaic.Pipeline (Dat RDat Cfg Window BodyObligation BodyObligationLoose cellOf)

section
variable (V : (c : Dev nD) → (b : Ref sig .tc) → Buf (Elt Ideal) ((c : Thread nD τ).loc b))

/-- The three arrays region 1 reads, as arrays of extended reals. -/
abbrev in1_0 (c : Dev nD) : Vec Ideal S100x1024 .f32 := V c main_v0
abbrev in1_1 (c : Dev nD) : Vec Ideal S1024x1000 .f32 := V c main_arg3
abbrev in1_2 (c : Dev nD) : Vec Ideal S100x1024x1000 .f32 := V c main_arg4

def xw1 (c : Dev nD) (p : Fin 100) (o : Fin 1000) : Fin 1024 → EReal := fun i => in1_0 V c (ix2 p i) * in1_1 V c (ix2 i o)
def bb1 (c : Dev nD) (p : Fin 100) (o : Fin 1000) : Fin 1024 → EReal := fun i => in1_2 V c (ix3 p i o)

/-- The second layer applied to region 1's first input: what region 1 leaves in its output array. -/
def result (c : Dev nD) : Vec Ideal S100x1000 .f32 := fun i => Cert.Spec.lin2 (in1_0 V c) (in1_1 V c) (in1_2 V c) (i 0) (i 1)

/-- What is known of the accumulators after position `n`: on the columns inside the array, prefixes of the two sums. -/
def InvV (c : Dev nD) (n : ℕ) (a s : Vec Ideal S100x256 .f32) : Prop :=
  ∀ (p : Fin 100) (q : Fin 256) (o : Fin 1000), o.val = 256 * (n / 8) + q.val →
    a (ix2 p q) = ∑ j ∈ Finset.range (128 * (n % 8 + 1)), ext (xw1 V c p o) j
    ∧ s (ix2 p q) = ∑ j ∈ Finset.range (128 * (n % 8 + 1)), ext (bb1 V c p o) j

/-- What is known of the block a tile's last step stores: its part inside the array is the block of `result`. -/
def OutV (c : Dev nD) (t : Fin cfg1.N) (X : Vec Ideal S100x256 .f32) : Prop :=
  (cfg1.win 3).cut (cfg1.grid.coords t) X = ((cfg1.win 3).blk t).view.read (Elt Ideal) (result V c)

/-- One step's block of products, and of bias entries, on a column inside the array. -/
theorem step_xw1 (c : Dev nD) (t : Fin cfg1.N) (Y0 : Vec Ideal S100x128 .f32) (Y1 : Vec Ideal S128x256 .f32)
    (hY0 : Found1 V c 0 t Y0) (hY1 : Found1 V c 1 t Y1) (p : Fin 100) (q : Fin 256) (o : Fin 1000) (ho : o.val = 256 * (t.val / 8) + q.val) :
    ∑ k : Fin 128, Y0 (ix2 p k) * Y1 (ix2 k q) = ∑ k ∈ Finset.range 128, ext (xw1 V c p o) (128 * (t.val % 8) + k) := by
  have hq : 256 * (t.val / 8) + q.val < 1000 := by have := o.isLt; omega
  have e : ∀ k : Fin 128, Y0 (ix2 p k) * Y1 (ix2 k q) = xw1 V c p o ⟨128 * (t.val % 8) + k.val, by have := k.isLt; omega⟩ := fun k => by
    rw [found1_0_apply V c t Y0 hY0 p k, found1_1_apply V c t Y1 hY1 k q hq,
      show (⟨256 * (t.val / 8) + q.val, hq⟩ : Fin 1000) = o from Fin.ext ho.symm]
    rfl
  rw [Finset.sum_congr rfl fun k _ => e k]
  exact sum_block (xw1 V c p o) (t.val % 8) (fun k => by have := k.isLt; omega)

theorem step_bb1 (c : Dev nD) (t : Fin cfg1.N) (Y2 : Vec Ideal S100x128x256 .f32) (hY2 : Found1 V c 2 t Y2)
    (p : Fin 100) (q : Fin 256) (o : Fin 1000) (ho : o.val = 256 * (t.val / 8) + q.val) :
    ∑ k : Fin 128, Y2 (ix3 p k q) = ∑ k ∈ Finset.range 128, ext (bb1 V c p o) (128 * (t.val % 8) + k) := by
  have hq : 256 * (t.val / 8) + q.val < 1000 := by have := o.isLt; omega
  have e : ∀ k : Fin 128, Y2 (ix3 p k q) = bb1 V c p o ⟨128 * (t.val % 8) + k.val, by have := k.isLt; omega⟩ := fun k => by
    rw [found1_2_apply V c t Y2 hY2 p k q hq, show (⟨256 * (t.val / 8) + q.val, hq⟩ : Fin 1000) = o from Fin.ext ho.symm]
    rfl
  rw [Finset.sum_congr rfl fun k _ => e k]
  exact sum_block (bb1 V c p o) (t.val % 8) (fun k => by have := k.isLt; omega)

/-- The part inside the array of the block a tile's last step stores. -/
theorem out1 (c : Dev nD) (t : Fin cfg1.N) (h7 : t.val % 8 = 7) (a s : Vec Ideal S100x256 .f32) (hI : InvV V c t.val a s) :
    OutV V c t (k1_pay5 (F := Ideal) a s) := by
  unfold OutV
  funext y
  have hN : t.val < 32 := lt_of_lt_of_eq t.isLt (show cfg1.N = 32 from N_1)
  have hp : (y 0).val < 100 := by
    have h : (y 0).val < win1_3.xsize (grid1.coords t) 0 := (y 0).isLt
    rwa [(idx1_3 t).2.2.1] at h
  have hq' : (y 1).val < min 256 (1000 - 256 * (t.val / 8)) := by
    have h : (y 1).val < win1_3.xsize (grid1.coords t) 1 := (y 1).isLt
    rwa [(idx1_3 t).2.2.2] at h
  have hq : (y 1).val < 256 := by omega
  have ho : 256 * (t.val / 8) + (y 1).val < 1000 := by omega
  have hx : win1_3.xinj (grid1.coords t) y = ix2 (⟨(y 0).val, hp⟩ : Fin 100) (⟨(y 1).val, hq⟩ : Fin 256) :=
    funext fun a => Fin.ext (by match a with | ⟨0, _⟩ => rfl | ⟨1, _⟩ => rfl)
  have h0 : (((cfg1.win 3).blk t).view.emb y) 0 = (⟨(y 0).val, hp⟩ : Fin 100) := Fin.ext (by
    show win1_3.index t 0 * 100 + 1 * (y 0).val = (y 0).val
    rw [(idx1_3 t).1]; omega)
  have h1 : (((cfg1.win 3).blk t).view.emb y) 1 = (⟨256 * (t.val / 8) + (y 1).val, ho⟩ : Fin 1000) := Fin.ext (by
    show win1_3.index t 1 * 256 + 1 * (y 1).val = 256 * (t.val / 8) + (y 1).val
    rw [(idx1_3 t).2.1]; omega)
  obtain ⟨ia, ib⟩ := hI ⟨(y 0).val, hp⟩ ⟨(y 1).val, hq⟩ ⟨256 * (t.val / 8) + (y 1).val, ho⟩ rfl
  rw [h7] at ia ib
  show k1_pay5 (F := Ideal) a s (win1_3.xinj (grid1.coords t) y) = result V c (((cfg1.win 3).blk t).view.emb y)
  rw [hx]
  refine (pay5_1 _ _ _ _).trans ?_
  rw [ia, ib]
  unfold result Cert.Spec.lin2
  rw [h0, h1]
  rfl

/-- The two predicates are an invariant of the body's steps. -/
theorem steps1 : Steps1 V (InvV V) (OutV V) where
  first c t h0 Y0 Y1 Y2 hY0 hY1 hY2 := by
    intro p q o ho
    refine ⟨(pay3_1 Y0 Y1 _ p q).trans ?_, (pay4_1 _ Y2 p q).trans ?_⟩
    · rw [pay1_1, zero_add, step_xw1 V c t Y0 Y1 hY0 hY1 p q o ho, prefix_succ, h0]
      simp only [Nat.mul_zero, Finset.range_zero, Finset.sum_empty, zero_add]
    · rw [pay2_1, zero_add, step_bb1 V c t Y2 hY2 p q o ho, prefix_succ, h0]
      simp only [Nat.mul_zero, Finset.range_zero, Finset.sum_empty, zero_add]
  next c t h0 Y0 Y1 Y2 hY0 hY1 hY2 a s hI := by
    intro p q o ho
    obtain ⟨ia, ib⟩ := hI p q o (by omega)
    have e : (t.val - 1) % 8 + 1 = t.val % 8 := by omega
    rw [e] at ia ib
    refine ⟨(pay3_1 Y0 Y1 _ p q).trans ?_, (pay4_1 _ Y2 p q).trans ?_⟩
    · rw [ia, step_xw1 V c t Y0 Y1 hY0 hY1 p q o ho]
      exact (prefix_succ _ 128 (t.val % 8)).symm
    · rw [ib, step_bb1 V c t Y2 hY2 p q o ho]
      exact (prefix_succ _ 128 (t.val % 8)).symm
  out c t h7 a s hI := out1 V c t h7 a s hI

/-! ## The output array -/

/-- An index inside a tile written back below `n` reads `result` after the write-backs below `n`. -/
theorem arrAt1_mem (c : Dev nD) : ∀ (n : ℕ) (Fv : Buf (Elt Ideal) ((cfg1.win 3).arr.view.loc (c : Thread nD τ))),
    (rd1 V (InvV V) (OutV V) c).ArrAt 3 n Fv →
    ∀ (t : Fin cfg1.N) (i : ((cfg1.win 3).arr.view.loc (c : Thread nD τ)).2.ty.Idx), t.val < n → (cfg1.win 3).flush t = true →
      i ∈ ((cfg1.win 3).blk t).view.set → Fv i = result V c i
  | 0, _, _, _, _, ht, _, _ => absurd ht (Nat.not_lt_zero _)
  | n + 1, Fv, h, t, i, ht, hf, hi => by
    by_cases hn : n < cfg1.N
    swap
    · rw [(rd1 V (InvV V) (OutV V) c).ArrAt_stable 3 (n + 1) (by omega), ← (rd1 V (InvV V) (OutV V) c).ArrAt_stable 3 n (by omega)] at h
      exact arrAt1_mem c n Fv h t i (by have := t.isLt; omega) hf hi
    have hs := (rd1 V (InvV V) (OutV V) c).ArrAt_succ 3 ⟨n, hn⟩
    rw [show (⟨n, hn⟩ : Fin cfg1.N).val + 1 = n + 1 from rfl] at hs
    rw [hs] at h
    by_cases hfn : (cfg1.win 3).flush ⟨n, hn⟩ = true
    · rw [if_pos hfn] at h
      obtain ⟨G₀, X, hG₀, ⟨Y, -, hA⟩, rfl⟩ := h
      have hOut : OutV V c ⟨n, hn⟩ X := (after1_out V (InvV V) (OutV V) c ⟨n, hn⟩ Y X).mp hA ((flush1_3 ⟨n, hn⟩).mp hfn)
      unfold OutV at hOut
      rw [hOut, View.write_read_eq_piecewise]
      by_cases hin : i ∈ ((cfg1.win 3).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt1_mem c n G₀ hG₀ t i (by omega) hf hi
    · rw [if_neg hfn] at h
      have htn : t.val ≠ n := fun e => hfn (by have : t = ⟨n, hn⟩ := Fin.ext e; exact this ▸ hf)
      exact arrAt1_mem c n Fv h t i (by omega) hf hi

/-- The four tiles' parts inside the array, written back at the last steps, cover the output array. -/
theorem cover1 (c : Dev nD) (i : ((cfg1.win 3).arr.view.loc (c : Thread nD τ)).2.ty.Idx) :
    ∃ t : Fin cfg1.N, (cfg1.win 3).flush t = true ∧ i ∈ ((cfg1.win 3).blk t).view.set := by
  have hi0 : (i 0).val < 100 := (i 0).isLt
  have hi1 : (i 1).val < 1000 := (i 1).isLt
  have hN : cfg1.N = 32 := N_1
  let t : Fin cfg1.N := ⟨8 * ((i 1).val / 256) + 7, by rw [hN]; omega⟩
  have ht : t.val = 8 * ((i 1).val / 256) + 7 := rfl
  refine ⟨t, (flush1_3 t).mpr (by rw [ht]; omega), ?_⟩
  show i ∈ ((View.whole main_v1).slice (win1_3.rect t)).set
  rw [View.set_slice_whole, Rect.mem_set_unit]
  intro a
  match a with
  | ⟨0, _⟩ =>
    show win1_3.index t 0 * 100 ≤ (i 0).val ∧ (i 0).val < win1_3.index t 0 * 100 + win1_3.xsize (grid1.coords t) 0
    rw [(idx1_3 t).1, (idx1_3 t).2.2.1]; omega
  | ⟨1, _⟩ =>
    show win1_3.index t 1 * 256 ≤ (i 1).val ∧ (i 1).val < win1_3.index t 1 * 256 + win1_3.xsize (grid1.coords t) 1
    rw [(idx1_3 t).2.1, (idx1_3 t).2.2.2, ht]; omega

/-- REGION 1'S RESULT: whatever its output array may hold after the run is `result`. -/
theorem arr1_final (c : Dev nD) (Fv : Buf (Elt Ideal) ((cfg1.win 3).arr.view.loc (c : Thread nD τ)))
    (h : (rd1 V (InvV V) (OutV V) c).ArrAt 3 cfg1.N Fv) : Fv = result V c :=
  funext fun i => by
    obtain ⟨t, hf, hi⟩ := cover1 c i
    exact arrAt1_mem V c cfg1.N Fv h t i t.isLt hf hi

end
end Cert.KernelIdeal.Hand
end
-- ==== Proof.KernelIdeal.Value.lean ====
/-
  The idealized kernel's run with its result named: the output array ends holding `Spec.out` of the five launch arrays.

  Region 0 leaves the hidden layer of the first three arrays in its output array (Value0); that array is region 1's first
  input, the fourth and fifth arrays reach region 1 as launched; so what region 1 leaves (Value1: the second layer of its
  first input) is the whole network of the launch arrays.
-/
import proofs.«132613_j6519760355912_2_alg».proof.Proof.Gen.KernelIdeal.Launch
import proofs.«132613_j6519760355912_2_alg».proof.Proof.Gen.KernelIdeal.Skeleton
import proofs.«132613_j6519760355912_2_alg».proof.Proof.Gen.KernelIdeal.Points
import proofs.«132613_j6519760355912_2_alg».proof.Proof.KernelIdeal.Run
import proofs.«132613_j6519760355912_2_alg».proof.Proof.KernelIdeal.Value0
import proofs.«132613_j6519760355912_2_alg».proof.Proof.KernelIdeal.Value1
import proofs.«132613_j6519760355912_2_alg».proof.Proof.LibBlockedSum
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.LibBlockedSum
open scoped BigOperators
open Idealize.ShloMosaic.Pipeline (Dat RDat Cfg Window BodyObligation BodyObligationLoose cellOf)

section
variable (m : (ℓ : Loc nD τ sig) → Buf (Elt Ideal) ℓ) (ρ : Dev nD → PrngReg)

/-- The network of the launch arrays on core `c`, as an array. -/
def network (c : Dev nD) : Buf (Elt Ideal) ((c : Thread nD τ).loc main_v1) := fun i =>
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- Region 1's result, from what it is entered with, is the network of the launch arrays. -/
theorem result_eq (c : Dev nD) : result (V1 m) c = network m c := by
  have h0 : in1_0 (V1 m) c = fun i => Cert.Spec.hid (m ((c : Thread nD τ).loc main_arg0)) (m ((c : Thread nD τ).loc main_arg1))
      (m ((c : Thread nD τ).loc main_arg2)) (i 0) (i 1) := by
    show V1 m c main_v0 = _
    rw [V1_main_v0 m c, arr0_final (V0 m) c]
    rfl
  have h1 : in1_1 (V1 m) c = m ((c : Thread nD τ).loc main_arg3) := V1_main_arg3 m c
  have h2 : in1_2 (V1 m) c = m ((c : Thread nD τ).loc main_arg4) := V1_main_arg4 m c
  funext i
  unfold result network Cert.Spec.out
  rw [h0, h1, h2]

/-- THE VALUE RUN: every weakly fair execution terminates, nothing faulting; the result array ends at the network of the
    launch arrays and the five arguments as launched. -/
theorem value_run : θ_run defs (onTc (τ := τ) (main (F := Ideal))) ⟨m, fun _ => 0, ρ⟩ (fun r => ∀ c : Dev nD,
      r.2.mem ((c.tc : Thread nD τ).loc main_v1) = network m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(arr1_final (V1 m) c _ ((h c).1 3)).trans (result_eq m c), args_kept m _ _ c r.2 (h c)⟩)
    (run m ρ (InvV (V1 m)) (OutV (V1 m)) (steps1 (V1 m)))

end
end Cert.KernelIdeal.Hand
end
-- ==== Proof.RefValue.lean ====
/-
  The reference computes `Spec.out`, at the ideal values.

  Its hidden layer is `max (Σᵢ x·W₁ / 2048 + (0 + Σᵢ b₁) / 2048) 0` and its output `Σⱼ h·W₂ / 1024 + (0 + Σⱼ b₂) / 1024`: a
  quotient by the real `2048` (or `1024`) is the product with its reciprocal on every extended real, and the product with a
  nonnegative real distributes over any sum of extended reals (infinite summands included), so each is the sum of the
  two reductions times `2⁻¹¹` (or `2⁻¹⁰`) — the kernel's arrangement. The literal words `2048.0`, `1024.0`, `2⁻¹¹`, `2⁻¹⁰`
  are evaluated once, here. No finiteness of the inputs is used.
-/
import proofs.«132613_j6519760355912_2_alg».proof.Proof.Gen.ReferenceIdeal.Read
import proofs.«132613_j6519760355912_2_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LibBlockedSum

/-- The four literal words, as the reals they denote. -/
theorem ofBits_2048 : Ideal.ofBits .f32 0x45000000#32 = ((2048 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem s0_eq : Cert.Spec.s0 = ((1 / 2048 : ℝ) : EReal) := by
  simp [Cert.Spec.s0, Ideal.ofBits, Ideal.ieee, -EReal.coe_mul]; norm_num
theorem s1_eq : Cert.Spec.s1 = ((1 / 1024 : ℝ) : EReal) := by
  simp [Cert.Spec.s1, Ideal.ofBits, Ideal.ieee, -EReal.coe_mul]; norm_num

/-- Two quotients by one positive real, added, are the sum times the reciprocal — on all extended reals. -/
theorem div_add_div (A B : EReal) (y : ℝ) (hy : 0 < y) :
    Ideal.div A (y : EReal) + Ideal.div B (y : EReal) = (A + B) * ((1 / y : ℝ) : EReal) := by
  rw [Ideal.div_coe hy.ne', Ideal.div_coe hy.ne']
  exact (EReal.right_distrib_of_nonneg_of_ne_top (EReal.coe_nonneg.mpr (by positivity)) (EReal.coe_ne_top _) A B).symm

theorem lidx0 (p : Fin 100) (o : Fin 1024) (k : Fin 2048) : lidx_main_v0 (ix2 p o) k = ix2 p k :=
  funext fun a => Fin.ext (by match a with | ⟨0, _⟩ => rfl | ⟨1, _⟩ => rfl)
theorem ridx0 (p : Fin 100) (o : Fin 1024) (k : Fin 2048) : ridx_main_v0 (ix2 p o) k = ix2 k o :=
  funext fun a => Fin.ext (by match a with | ⟨0, _⟩ => rfl | ⟨1, _⟩ => rfl)
theorem idx3 (p : Fin 100) (o : Fin 1024) (k : Fin 2048) : idx_main_v3 (ix2 p o) k = ix3 p k o :=
  funext fun a => Fin.ext (by match a with | ⟨0, _⟩ => rfl | ⟨1, _⟩ => rfl | ⟨2, _⟩ => rfl)
theorem lidx8 (p : Fin 100) (o : Fin 1000) (k : Fin 1024) : lidx_main_v8 (ix2 p o) k = ix2 p k :=
  funext fun a => Fin.ext (by match a with | ⟨0, _⟩ => rfl | ⟨1, _⟩ => rfl)
theorem ridx8 (p : Fin 100) (o : Fin 1000) (k : Fin 1024) : ridx_main_v8 (ix2 p o) k = ix2 k o :=
  funext fun a => Fin.ext (by match a with | ⟨0, _⟩ => rfl | ⟨1, _⟩ => rfl)
theorem idx11 (p : Fin 100) (o : Fin 1000) (k : Fin 1024) : idx_main_v11 (ix2 p o) k = ix3 p k o :=
  funext fun a => Fin.ext (by match a with | ⟨0, _⟩ => rfl | ⟨1, _⟩ => rfl | ⟨2, _⟩ => rfl)

/-- The reference's hidden layer is `Spec.hid`. -/
theorem ref_hid (x0 : (⟨S100x2048, .f32⟩ : BufTy).Contents (Elt Ideal)) (x1 : (⟨S2048x1024, .f32⟩ : BufTy).Contents (Elt Ideal))
    (x2 : (⟨S100x2048x1024, .f32⟩ : BufTy).Contents (Elt Ideal)) (p : Fin 100) (o : Fin 1024) :
    val_main_v7 (F := Ideal) x0 x1 x2 (ix2 p o) = Cert.Spec.hid x0 x1 x2 p o := by
  rw [val_main_v7_apply, val_main_v6_apply, val_main_v2_apply, val_main_v5_apply, val_main_v0_apply, val_main_v3_apply,
    val_main_v1_apply, val_main_v4_apply, val_main_call0_v0_apply, val_main_cst_apply, val_main_cst_1_apply,
    val_main_cst_0_apply, val_main_call0_cst_apply]
  simp only [Ideal.maximumf_def, Ideal.addf_def, Ideal.hostDivf_def, Ideal.ofBits_def, Ideal.ofBits_zero_f32, zero_add,
    ofBits_2048, lidx0, ridx0, idx3]
  rw [div_add_div _ _ 2048 (by norm_num)]
  unfold Cert.Spec.hid
  rw [sum_ext, sum_ext, s0_eq]

/-- The reference's result is `Spec.out`. -/
theorem ref_out (x0 : (⟨S100x2048, .f32⟩ : BufTy).Contents (Elt Ideal)) (x1 : (⟨S2048x1024, .f32⟩ : BufTy).Contents (Elt Ideal))
    (x2 : (⟨S100x2048x1024, .f32⟩ : BufTy).Contents (Elt Ideal)) (x3 : (⟨S1024x1000, .f32⟩ : BufTy).Contents (Elt Ideal))
    (x4 : (⟨S100x1024x1000, .f32⟩ : BufTy).Contents (Elt Ideal)) (p : Fin 100) (o : Fin 1000) :
    val_main_v14 (F := Ideal) x0 x1 x2 x3 x4 (ix2 p o) = Cert.Spec.out x0 x1 x2 x3 x4 p o := by
  rw [val_main_v14_apply, val_main_v10_apply, val_main_v13_apply, val_main_v8_apply, val_main_v11_apply,
    val_main_v9_apply, val_main_v12_apply, val_main_cst_2_apply, val_main_cst_4_apply, val_main_cst_3_apply]
  simp only [Ideal.addf_def, Ideal.hostDivf_def, Ideal.ofBits_def, Ideal.ofBits_zero_f32, zero_add,
    ofBits_1024, lidx8, ridx8, idx11, ref_hid]
  rw [div_add_div _ _ 1024 (by norm_num)]
  unfold Cert.Spec.out Cert.Spec.lin2
  rw [sum_ext, sum_ext, s1_eq]

end Cert.ReferenceIdeal.RefValue

end
-- ==== Proof.lean ====
/-
  A two-layer network whose every layer is `mean_i (x_i · W_io + b_{·io})`, as two kernel launches against plain jnp.

  THE KERNEL. Each layer is one launch over a grid of 4 output tiles × R reduction steps (R = 16 for the first layer,
  whose contracted extent is 2048; R = 8 for the second, 1024), the reduction innermost. A step loads a block of 128
  contracted coordinates of the activations, the weight and the bias tensor and adds, into two scratch accumulators that
  are carried from step to step and zeroed at a tile's first step, the block's matrix product and the bias tensor's sum
  over the block's contracted coordinates; the tile's last step stores `(acc + bsum) · 2⁻¹¹` clamped below at zero (first
  layer) or `(acc + bsum) · 2⁻¹⁰` (second layer), and the tile is written back. The second layer's output extent 1000 is
  not a multiple of the tile width 256: the last tile's blocks of the weight, the bias tensor and the output overhang
  their arrays, a fetch leaves words nothing names past the array's end, and the write-back moves only the part inside it.

  THE FRAMES (any float instance; `Kernel/`, `KernelIdeal/`: Body, Region0, Region1, Run). The body's run is three
  symbolic runs per kernel — first, middle, last step —, each access a whole buffer. Region 0's contents are named point
  by point (the accumulators by recursion on the point). Region 1's cannot be — what the body computes from the words past
  the arrays' end is no function of the arrays — so its proof data CONSTRAINS them: for any predicates that the body's
  steps preserve (`Steps1`), the invariant between points holds the accumulators at some contents satisfying the one, and
  the output array ends overwritten, tile by tile, by the inside part of some block satisfying the other. With the
  predicates that ask nothing this is the frame: termination, no fault, the five arguments as launched (each is an input
  window of one region and bypasses the other).

  THE VALUE (`KernelIdeal/`: Blocks, Payload, Value0, Value1, Value). At the ideal values a column of the accumulators
  depends only on that column of the weight's and the bias tensor's blocks, so on the columns inside the array the
  accumulators after step `r` are the first `128 · (r + 1)` terms of the two sums; the tiles cover the output arrays; the
  result array ends at `Spec.out` of the five launch arrays. The reference (`RefValue`) divides each of the two reductions
  by the contracted extent and adds: a quotient by a positive real is the product with its reciprocal, and the product
  with a nonnegative real distributes over any sum of extended reals, so it is `Spec.out` too. The precondition is never
  opened; a sum's order and grouping, and the rounding to bf16 on the way into the matrix unit, do not show at the ideal
  values. The ideal pass rewrote nothing, so `preserves` is trivial.
-/
import proofs.«132613_j6519760355912_2_alg».proof.Defs
import proofs.«132613_j6519760355912_2_alg».proof.Proof.Gen.Kernel
import proofs.«132613_j6519760355912_2_alg».proof.Proof.Gen.KernelIdeal
import proofs.«132613_j6519760355912_2_alg».proof.Proof.Gen.ReferenceIdeal
import proofs.«132613_j6519760355912_2_alg».proof.Proof.Gen.Pre_finite_inputs
import proofs.«132613_j6519760355912_2_alg».proof.Proof.Kernel.Run
import proofs.«132613_j6519760355912_2_alg».proof.Proof.KernelIdeal.Value
import proofs.«132613_j6519760355912_2_alg».proof.Proof.RefValue

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `Spec.out` of arguments that agree. -/
theorem algebraic : Cert.algebraic_KernelIdeal_ReferenceIdeal := by
  intro m ρ m' ρ' _ hagree
  refine ⟨fun c => Cert.KernelIdeal.Hand.network m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2.1,
    (hagree c).2.2.2.2]
  funext i
  obtain ⟨p, o, rfl⟩ : ∃ (p : Fin 100) (o : Fin 1000), i = Idealize.ShloMosaic.ValueIdx.ix2 p o :=
    ⟨i 0, i 1, Idealize.ShloMosaic.ValueIdx.eq_ix2 i⟩
  exact Cert.ReferenceIdeal.RefValue.ref_out _ _ _ _ _ p o

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
